-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x128 : Shape := ⟨3, ![256, 512, 128]⟩
abbrev S256x128 : Shape := ⟨2, ![256, 128]⟩
abbrev S256x512 : Shape := ⟨2, ![256, 512]⟩
abbrev S128x128 : Shape := ⟨2, ![128, 128]⟩
abbrev S1x128 : Shape := ⟨2, ![1, 128]⟩
abbrev S128x384 : Shape := ⟨2, ![128, 384]⟩
abbrev S384 : Shape := ⟨1, ![384]⟩
abbrev S_ : Shape := ⟨0, ![]⟩
abbrev S256 : Shape := ⟨1, ![256]⟩

class Facts : Prop where
  bcast_S_S256x512x128 : S_.BroadcastsInDim S256x512x128 (![] : Fin 0 → Fin S256x512x128.rank)
  reducesTo_S256x512x128_S_d0_1_2 : S256x512x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  reducesTo_S256x512_S256_d1 : S256x512.ReducesTo [1] S256
  reducesTo_S256_S_d0 : S256.ReducesTo [0] S_

variable [Facts]

def fn_part2 {F : FTy → Type} [FloatOps F] (main_arg2 : IVec S256x512 1) (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : IVec S256x512 1 := noti main_arg2
  let main_c_14 : IVec S_ 1 := constantI S_ 1 0#1
  let main_v40 : IVec S256 1 := (fun x v => Host.reduce IntOp.ori x v reducesTo_S256x512_S256_d1 h_S_) main_v39 main_c_14
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v38 main_v41
  main_v42

def fn_part1 {F : FTy → Type} [FloatOps F] (main_arg2 : IVec S256x512 1) (main_arg5 : FVec F S128x384 .f32) (main_arg6 : FVec F S128x384 .f32) (main_arg7 : FVec F S384 .f32) (main_arg8 : FVec F S384 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg8 main_v33

def fn {F : FTy → Type} [FloatOps F] (main_arg0 : FVec F S256x512x128 .f32) (main_arg1 : FVec F S256x128 .f32) (main_arg2 : IVec S256x512 1) (main_arg3 : FVec F S128x128 .f32) (main_arg4 : FVec F S1x128 .f32) (main_arg5 : FVec F S128x384 .f32) (main_arg6 : FVec F S128x384 .f32) (main_arg7 : FVec F S384 .f32) (main_arg8 : FVec F S384 .f32) : IVec S_ 1 :=
  let main_v0 : FVec F S256x512x128 .f32 := Host.absf main_arg0
  let main_cst : FVec F S_ .f32 := constant S_ .f32 0x7F800000#32
  let main_v1 : FVec F S256x512x128 .f32 := broadcastInDim S256x512x128 ![] bcast_S_S256x512x128 main_cst
  let main_v2 : IVec S256x512x128 1 := cmpf .olt main_v0 main_v1
  let main_c : IVec S_ 1 := constantI S_ 1 1#1
  let main_v3 : IVec S_ 1 := (fun x v => Host.reduce IntOp.andi x v reducesTo_S256x512x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg2 main_arg5 main_arg6 main_arg7 main_arg8 main_v13 main_v16
-- ==== Kernel.lean ====
abbrev S256x512x128 : Shape := ⟨3, ![256, 512, 128]⟩
abbrev S256x128 : Shape := ⟨2, ![256, 128]⟩
abbrev S256x512 : Shape := ⟨2, ![256, 512]⟩
abbrev S128x128 : Shape := ⟨2, ![128, 128]⟩
abbrev S1x128 : Shape := ⟨2, ![1, 128]⟩
abbrev S128x384 : Shape := ⟨2, ![128, 384]⟩
abbrev S384 : Shape := ⟨1, ![384]⟩
abbrev S1x384 : Shape := ⟨2, ![1, 384]⟩
abbrev S64x512x128 : Shape := ⟨3, ![64, 512, 128]⟩
abbrev S64x128 : Shape := ⟨2, ![64, 128]⟩
abbrev S64x512 : Shape := ⟨2, ![64, 512]⟩
abbrev S64x1x128 : Shape := ⟨3, ![64, 1, 128]⟩
abbrev S64x8x128 : Shape := ⟨3, ![64, 8, 128]⟩
abbrev S64x64x8x128 : Shape := ⟨4, ![64, 64, 8, 128]⟩
abbrev S64x1x8x128 : Shape := ⟨4, ![64, 1, 8, 128]⟩
abbrev S64 : Shape := ⟨1, ![64]⟩
abbrev S64x1 : Shape := ⟨2, ![64, 1]⟩
abbrev S1x512 : Shape := ⟨2, ![1, 512]⟩
abbrev S1x512x128 : Shape := ⟨3, ![1, 512, 128]⟩
abbrev S512x128 : Shape := ⟨2, ![512, 128]⟩
abbrev S64x384 : Shape := ⟨2, ![64, 384]⟩

abbrev nBuf : Space → Nat
  | .hbm => 14
  | .vmem => 16
  | .smem => 0
  | _ => 0

abbrev bufTy : (tb : Table) → Fin (tcTables nBuf tb) → BufTy
  | .hbm, ⟨0, _⟩ => ⟨S256x512x128, .f32⟩
  | .hbm, ⟨1, _⟩ => ⟨S256x128, .f32⟩
  | .hbm, ⟨2, _⟩ => ⟨S256x512, .i1⟩
  | .hbm, ⟨3, _⟩ => ⟨S128x128, .f32⟩
  | .hbm, ⟨4, _⟩ => ⟨S1x128, .f32⟩
  | .hbm, ⟨5, _⟩ => ⟨S128x384, .f32⟩
  | .hbm, ⟨6, _⟩ => ⟨S128x384, .f32⟩
  | .hbm, ⟨7, _⟩ => ⟨S384, .f32⟩
  | .hbm, ⟨8, _⟩ => ⟨S384, .f32⟩
  | .hbm, ⟨9, _⟩ => ⟨S1x384, .f32⟩
  | .hbm, ⟨10, _⟩ => ⟨S1x384, .f32⟩
  | .hbm, ⟨11, _⟩ => ⟨S256x512, .i32⟩
  | .hbm, ⟨12, _⟩ => ⟨S256x512, .f32⟩
  | .hbm, ⟨13, _⟩ => ⟨S256x128, .f32⟩
  | .local _ .vmem, ⟨0, _⟩ => ⟨S64x512x128, .f32⟩
  | .local _ .vmem, ⟨1, _⟩ => ⟨S64x512x128, .f32⟩
  | .local _ .vmem, ⟨2, _⟩ => ⟨S64x128, .f32⟩
  | .local _ .vmem, ⟨3, _⟩ => ⟨S64x128, .f32⟩
  | .local _ .vmem, ⟨4, _⟩ => ⟨S64x512, .i32⟩
  | .local _ .vmem, ⟨5, _⟩ => ⟨S64x512, .i32⟩
  | .local _ .vmem, ⟨6, _⟩ => ⟨S128x128, .f32⟩
  | .local _ .vmem, ⟨7, _⟩ => ⟨S1x128, .f32⟩
  | .local _ .vmem, ⟨8, _⟩ => ⟨S128x384, .f32⟩
  | .local _ .vmem, ⟨9, _⟩ => ⟨S128x384, .f32⟩
  | .local _ .vmem, ⟨10, _⟩ => ⟨S1x384, .f32⟩
  | .local _ .vmem, ⟨11, _⟩ => ⟨S1x384, .f32⟩
  | .local _ .vmem, ⟨12, _⟩ => ⟨S64x512, .f32⟩
  | .local _ .vmem, ⟨13, _⟩ => ⟨S64x512, .f32⟩
  | .local _ .vmem, ⟨14, _⟩ => ⟨S64x128, .f32⟩
  | .local _ .vmem, ⟨15, _⟩ => ⟨S64x128, .f32⟩
  | _, _ => ⟨S256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S384_S1x384 : S384.ShapeCasts S1x384
  natLt_1_32 : 1 < 32
  inb_S64x512x128_S64x512x128_0_0_0 : ∀ a, (![0, 0, 0] : Fin 3 → Nat) a + S64x512x128.size a ≤ S64x512x128.size a
  h_S64x512x128 : 0 < S64x512x128.numel
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S64x128 : S1x128.Broadcasts S64x128
  shapeCasts_S64x128_S64x1x128 : S64x128.ShapeCasts S64x1x128
  shapeCasts_S64x1x128_S64x1x128 : S64x1x128.ShapeCasts S64x1x128
  broadcasts_S64x1x128_S64x8x128 : S64x1x128.Broadcasts S64x8x128
  shapeCasts_S64x512x128_S64x64x8x128 : S64x512x128.ShapeCasts S64x64x8x128
  shapeCasts_S64x8x128_S64x1x8x128 : S64x8x128.ShapeCasts S64x1x8x128
  broadcasts_S64x1x8x128_S64x64x8x128 : S64x1x8x128.Broadcasts S64x64x8x128
  shapeCasts_S64x64x8x128_S64x512x128 : S64x64x8x128.ShapeCasts S64x512x128
  reduces_S64x512x128_S64x512 : S64x512x128.Reduces [2] S64x512
  inb_S64x512_S64x512_0_0 : ∀ a, (![0, 0] : Fin 2 → Nat) a + S64x512.size a ≤ S64x512.size a
  h_S64x512 : 0 < S64x512.numel
  reduces_S64x512_S64 : S64x512.Reduces [1] S64
  shapeCasts_S64_S64x1 : S64.ShapeCasts S64x1
  broadcasts_S64x1_S64x512 : S64x1.Broadcasts S64x512
  slices_S64x512_o0_0_S1x512 : S64x512.Slices ![0, 0] S1x512
  slices_S64x512x128_o0_0_0_S1x512x128 : S64x512x128.Slices ![0, 0, 0] S1x512x128
  shapeCasts_S1x512x128_S512x128 : S1x512x128.ShapeCasts S512x128
  slices_S64x512_o1_0_S1x512 : S64x512.Slices ![1, 0] S1x512
  slices_S64x512x128_o1_0_0_S1x512x128 : S64x512x128.Slices ![1, 0, 0] S1x512x128
  slices_S64x512_o2_0_S1x512 : S64x512.Slices ![2, 0] S1x512
  slices_S64x512x128_o2_0_0_S1x512x128 : S64x512x128.Slices ![2, 0, 0] S1x512x128
  slices_S64x512_o3_0_S1x512 : S64x512.Slices ![3, 0] S1x512
  slices_S64x512x128_o3_0_0_S1x512x128 : S64x512x128.Slices ![3, 0, 0] S1x512x128
  slices_S64x512_o4_0_S1x512 : S64x512.Slices ![4, 0] S1x512
  slices_S64x512x128_o4_0_0_S1x512x128 : S64x512x128.Slices ![4, 0, 0] S1x512x128
  slices_S64x512_o5_0_S1x512 : S64x512.Slices ![5, 0] S1x512
  slices_S64x512x128_o5_0_0_S1x512x128 : S64x512x128.Slices ![5, 0, 0] S1x512x128
  slices_S64x512_o6_0_S1x512 : S64x512.Slices ![6, 0] S1x512
  slices_S64x512x128_o6_0_0_S1x512x128 : S64x512x128.Slices ![6, 0, 0] S1x512x128
  slices_S64x512_o7_0_S1x512 : S64x512.Slices ![7, 0] S1x512
  slices_S64x512x128_o7_0_0_S1x512x128 : S64x512x128.Slices ![7, 0, 0] S1x512x128
  slices_S64x512_o8_0_S1x512 : S64x512.Slices ![8, 0] S1x512
  slices_S64x512x128_o8_0_0_S1x512x128 : S64x512x128.Slices ![8, 0, 0] S1x512x128
  slices_S64x512_o9_0_S1x512 : S64x512.Slices ![9, 0] S1x512
  slices_S64x512x128_o9_0_0_S1x512x128 : S64x512x128.Slices ![9, 0, 0] S1x512x128
  slices_S64x512_o10_0_S1x512 : S64x512.Slices ![10, 0] S1x512
  slices_S64x512x128_o10_0_0_S1x512x128 : S64x512x128.Slices ![10, 0, 0] S1x512x128
  slices_S64x512_o11_0_S1x512 : S64x512.Slices ![11, 0] S1x512
  slices_S64x512x128_o11_0_0_S1x512x128 : S64x512x128.Slices ![11, 0, 0] S1x512x128
  slices_S64x512_o12_0_S1x512 : S64x512.Slices ![12, 0] S1x512
  slices_S64x512x128_o12_0_0_S1x512x128 : S64x512x128.Slices ![12, 0, 0] S1x512x128
  slices_S64x512_o13_0_S1x512 : S64x512.Slices ![13, 0] S1x512
  slices_S64x512x128_o13_0_0_S1x512x128 : S64x512x128.Slices ![13, 0, 0] S1x512x128
  slices_S64x512_o14_0_S1x512 : S64x512.Slices ![14, 0] S1x512
  slices_S64x512x128_o14_0_0_S1x512x128 : S64x512x128.Slices ![14, 0, 0] S1x512x128
  slices_S64x512_o15_0_S1x512 : S64x512.Slices ![15, 0] S1x512
  slices_S64x512x128_o15_0_0_S1x512x128 : S64x512x128.Slices ![15, 0, 0] S1x512x128
  slices_S64x512_o16_0_S1x512 : S64x512.Slices ![16, 0] S1x512
  slices_S64x512x128_o16_0_0_S1x512x128 : S64x512x128.Slices ![16, 0, 0] S1x512x128
  slices_S64x512_o17_0_S1x512 : S64x512.Slices ![17, 0] S1x512
  slices_S64x512x128_o17_0_0_S1x512x128 : S64x512x128.Slices ![17, 0, 0] S1x512x128
  slices_S64x512_o18_0_S1x512 : S64x512.Slices ![18, 0] S1x512
  slices_S64x512x128_o18_0_0_S1x512x128 : S64x512x128.Slices ![18, 0, 0] S1x512x128
  slices_S64x512_o19_0_S1x512 : S64x512.Slices ![19, 0] S1x512
  slices_S64x512x128_o19_0_0_S1x512x128 : S64x512x128.Slices ![19, 0, 0] S1x512x128
  slices_S64x512_o20_0_S1x512 : S64x512.Slices ![20, 0] S1x512
  slices_S64x512x128_o20_0_0_S1x512x128 : S64x512x128.Slices ![20, 0, 0] S1x512x128
  slices_S64x512_o21_0_S1x512 : S64x512.Slices ![21, 0] S1x512
  slices_S64x512x128_o21_0_0_S1x512x128 : S64x512x128.Slices ![21, 0, 0] S1x512x128
  slices_S64x512_o22_0_S1x512 : S64x512.Slices ![22, 0] S1x512
  slices_S64x512x128_o22_0_0_S1x512x128 : S64x512x128.Slices ![22, 0, 0] S1x512x128
  slices_S64x512_o23_0_S1x512 : S64x512.Slices ![23, 0] S1x512
  slices_S64x512x128_o23_0_0_S1x512x128 : S64x512x128.Slices ![23, 0, 0] S1x512x128
  slices_S64x512_o24_0_S1x512 : S64x512.Slices ![24, 0] S1x512
  slices_S64x512x128_o24_0_0_S1x512x128 : S64x512x128.Slices ![24, 0, 0] S1x512x128
  slices_S64x512_o25_0_S1x512 : S64x512.Slices ![25, 0] S1x512
  slices_S64x512x128_o25_0_0_S1x512x128 : S64x512x128.Slices ![25, 0, 0] S1x512x128
  slices_S64x512_o26_0_S1x512 : S64x512.Slices ![26, 0] S1x512
  slices_S64x512x128_o26_0_0_S1x512x128 : S64x512x128.Slices ![26, 0, 0] S1x512x128
  slices_S64x512_o27_0_S1x512 : S64x512.Slices ![27, 0] S1x512
  slices_S64x512x128_o27_0_0_S1x512x128 : S64x512x128.Slices ![27, 0, 0] S1x512x128
  slices_S64x512_o28_0_S1x512 : S64x512.Slices ![28, 0] S1x512
  slices_S64x512x128_o28_0_0_S1x512x128 : S64x512x128.Slices ![28, 0, 0] S1x512x128
  slices_S64x512_o29_0_S1x512 : S64x512.Slices ![29, 0] S1x512
  slices_S64x512x128_o29_0_0_S1x512x128 : S64x512x128.Slices ![29, 0, 0] S1x512x128
  slices_S64x512_o30_0_S1x512 : S64x512.Slices ![30, 0] S1x512
  slices_S64x512x128_o30_0_0_S1x512x128 : S64x512x128.Slices ![30, 0, 0] S1x512x128
  slices_S64x512_o31_0_S1x512 : S64x512.Slices ![31, 0] S1x512
  slices_S64x512x128_o31_0_0_S1x512x128 : S64x512x128.Slices ![31, 0, 0] S1x512x128
  slices_S64x512_o32_0_S1x512 : S64x512.Slices ![32, 0] S1x512
  slices_S64x512x128_o32_0_0_S1x512x128 : S64x512x128.Slices ![32, 0, 0] S1x512x128
  slices_S64x512_o33_0_S1x512 : S64x512.Slices ![33, 0] S1x512
  slices_S64x512x128_o33_0_0_S1x512x128 : S64x512x128.Slices ![33, 0, 0] S1x512x128
  slices_S64x512_o34_0_S1x512 : S64x512.Slices ![34, 0] S1x512
  slices_S64x512x128_o34_0_0_S1x512x128 : S64x512x128.Slices ![34, 0, 0] S1x512x128
  slices_S64x512_o35_0_S1x512 : S64x512.Slices ![35, 0] S1x512
  slices_S64x512x128_o35_0_0_S1x512x128 : S64x512x128.Slices ![35, 0, 0] S1x512x128
  slices_S64x512_o36_0_S1x512 : S64x512.Slices ![36, 0] S1x512
  slices_S64x512x128_o36_0_0_S1x512x128 : S64x512x128.Slices ![36, 0, 0] S1x512x128
  slices_S64x512_o37_0_S1x512 : S64x512.Slices ![37, 0] S1x512
  slices_S64x512x128_o37_0_0_S1x512x128 : S64x512x128.Slices ![37, 0, 0] S1x512x128
  slices_S64x512_o38_0_S1x512 : S64x512.Slices ![38, 0] S1x512
  slices_S64x512x128_o38_0_0_S1x512x128 : S64x512x128.Slices ![38, 0, 0] S1x512x128
  slices_S64x512_o39_0_S1x512 : S64x512.Slices ![39, 0] S1x512
  slices_S64x512x128_o39_0_0_S1x512x128 : S64x512x128.Slices ![39, 0, 0] S1x512x128
  slices_S64x512_o40_0_S1x512 : S64x512.Slices ![40, 0] S1x512
  slices_S64x512x128_o40_0_0_S1x512x128 : S64x512x128.Slices ![40, 0, 0] S1x512x128
  slices_S64x512_o41_0_S1x512 : S64x512.Slices ![41, 0] S1x512
  slices_S64x512x128_o41_0_0_S1x512x128 : S64x512x128.Slices ![41, 0, 0] S1x512x128
  slices_S64x512_o42_0_S1x512 : S64x512.Slices ![42, 0] S1x512
  slices_S64x512x128_o42_0_0_S1x512x128 : S64x512x128.Slices ![42, 0, 0] S1x512x128
  slices_S64x512_o43_0_S1x512 : S64x512.Slices ![43, 0] S1x512
  slices_S64x512x128_o43_0_0_S1x512x128 : S64x512x128.Slices ![43, 0, 0] S1x512x128
  slices_S64x512_o44_0_S1x512 : S64x512.Slices ![44, 0] S1x512
  slices_S64x512x128_o44_0_0_S1x512x128 : S64x512x128.Slices ![44, 0, 0] S1x512x128
  slices_S64x512_o45_0_S1x512 : S64x512.Slices ![45, 0] S1x512
  slices_S64x512x128_o45_0_0_S1x512x128 : S64x512x128.Slices ![45, 0, 0] S1x512x128
  slices_S64x512_o46_0_S1x512 : S64x512.Slices ![46, 0] S1x512
  slices_S64x512x128_o46_0_0_S1x512x128 : S64x512x128.Slices ![46, 0, 0] S1x512x128
  slices_S64x512_o47_0_S1x512 : S64x512.Slices ![47, 0] S1x512
  slices_S64x512x128_o47_0_0_S1x512x128 : S64x512x128.Slices ![47, 0, 0] S1x512x128
  slices_S64x512_o48_0_S1x512 : S64x512.Slices ![48, 0] S1x512
  slices_S64x512x128_o48_0_0_S1x512x128 : S64x512x128.Slices ![48, 0, 0] S1x512x128
  slices_S64x512_o49_0_S1x512 : S64x512.Slices ![49, 0] S1x512
  slices_S64x512x128_o49_0_0_S1x512x128 : S64x512x128.Slices ![49, 0, 0] S1x512x128
  slices_S64x512_o50_0_S1x512 : S64x512.Slices ![50, 0] S1x512
  slices_S64x512x128_o50_0_0_S1x512x128 : S64x512x128.Slices ![50, 0, 0] S1x512x128
  slices_S64x512_o51_0_S1x512 : S64x512.Slices ![51, 0] S1x512
  slices_S64x512x128_o51_0_0_S1x512x128 : S64x512x128.Slices ![51, 0, 0] S1x512x128
  slices_S64x512_o52_0_S1x512 : S64x512.Slices ![52, 0] S1x512
  slices_S64x512x128_o52_0_0_S1x512x128 : S64x512x128.Slices ![52, 0, 0] S1x512x128
  slices_S64x512_o53_0_S1x512 : S64x512.Slices ![53, 0] S1x512
  slices_S64x512x128_o53_0_0_S1x512x128 : S64x512x128.Slices ![53, 0, 0] S1x512x128
  slices_S64x512_o54_0_S1x512 : S64x512.Slices ![54, 0] S1x512
  slices_S64x512x128_o54_0_0_S1x512x128 : S64x512x128.Slices ![54, 0, 0] S1x512x128
  slices_S64x512_o55_0_S1x512 : S64x512.Slices ![55, 0] S1x512
  slices_S64x512x128_o55_0_0_S1x512x128 : S64x512x128.Slices ![55, 0, 0] S1x512x128
  slices_S64x512_o56_0_S1x512 : S64x512.Slices ![56, 0] S1x512
  slices_S64x512x128_o56_0_0_S1x512x128 : S64x512x128.Slices ![56, 0, 0] S1x512x128
  slices_S64x512_o57_0_S1x512 : S64x512.Slices ![57, 0] S1x512
  slices_S64x512x128_o57_0_0_S1x512x128 : S64x512x128.Slices ![57, 0, 0] S1x512x128
  slices_S64x512_o58_0_S1x512 : S64x512.Slices ![58, 0] S1x512
  slices_S64x512x128_o58_0_0_S1x512x128 : S64x512x128.Slices ![58, 0, 0] S1x512x128
  slices_S64x512_o59_0_S1x512 : S64x512.Slices ![59, 0] S1x512
  slices_S64x512x128_o59_0_0_S1x512x128 : S64x512x128.Slices ![59, 0, 0] S1x512x128
  slices_S64x512_o60_0_S1x512 : S64x512.Slices ![60, 0] S1x512
  slices_S64x512x128_o60_0_0_S1x512x128 : S64x512x128.Slices ![60, 0, 0] S1x512x128
  slices_S64x512_o61_0_S1x512 : S64x512.Slices ![61, 0] S1x512
  slices_S64x512x128_o61_0_0_S1x512x128 : S64x512x128.Slices ![61, 0, 0] S1x512x128
  slices_S64x512_o62_0_S1x512 : S64x512.Slices ![62, 0] S1x512
  slices_S64x512x128_o62_0_0_S1x512x128 : S64x512x128.Slices ![62, 0, 0] S1x512x128
  slices_S64x512_o63_0_S1x512 : S64x512.Slices ![63, 0] S1x512
  slices_S64x512x128_o63_0_0_S1x512x128 : S64x512x128.Slices ![63, 0, 0] S1x512x128
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S64x128_d0 : Shape.Concatenates (S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: []) S64x128 0
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S64x384 : S1x384.Broadcasts S64x384
  slices_S64x384_o0_0_S64x128 : S64x384.Slices ![0, 0] S64x128
  slices_S64x384_o0_128_S64x128 : S64x384.Slices ![0, 128] S64x128
  slices_S64x384_o0_256_S64x128 : S64x384.Slices ![0, 256] S64x128
  dot_S64x128_S128x128_S64x128_1_0_0_1_n_n_wf : DotDims.WF S64x128 S128x128 S64x128 [1] [0] [0] [1] [] []
  dot_S1x512_S512x128_S1x128_1_0_0_1_n_n_wf : DotDims.WF S1x512 S512x128 S1x128 [1] [0] [0] [1] [] []
  dot_S64x128_S128x384_S64x384_1_0_0_1_n_n_wf : DotDims.WF S64x128 S128x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x128.size a ≤ S256x512x128.size a
  hwx0_0 : ∀ i : grid0.Coords, EltTy.bits .f32 = 32 ∨ (Rect.block (s := S256x512x128) S64x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S256x128.size a
  hwx0_1 : ∀ i : grid0.Coords, EltTy.bits .f32 = 32 ∨ (Rect.block (s := S256x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S256x512.size a
  hwx0_2 : ∀ i : grid0.Coords, EltTy.bits .i32 = 32 ∨ (Rect.block (s := S256x512) S64x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x512.size a ≤ S256x512.size a
  hwx0_9 : ∀ i : grid0.Coords, EltTy.bits .f32 = 32 ∨ (Rect.block (s := S256x512) S64x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S256x128.size a
  hwx0_10 : ∀ i : grid0.Coords, EltTy.bits .f32 = 32 ∨ (Rect.block (s := S256x128) S64x128.size (cc0_transform_10 i) (hinb0_10 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def dot_S64x128_S128x384_S64x384_1_0_0_1_n_n : DotDims S64x128 S128x384 S64x384 where
  lhsContracting := [1]
  rhsContracting := [0]
  lhsNonContracting := [0]
  rhsNonContracting := [1]
  lhsBatch := []
  rhsBatch := []
  wf := dot_S64x128_S128x384_S64x384_1_0_0_1_n_n_wf

abbrev win0_0 : Pipeline.Window sig grid0 :=
  Pipeline.Window.ofSpec (Memref.whole main_arg0) S64x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S64x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S256x512x128 : Shape := ⟨3, ![256, 512, 128]⟩
abbrev S256x128 : Shape := ⟨2, ![256, 128]⟩
abbrev S256x512 : Shape := ⟨2, ![256, 512]⟩
abbrev S128x128 : Shape := ⟨2, ![128, 128]⟩
abbrev S1x128 : Shape := ⟨2, ![1, 128]⟩
abbrev S128x384 : Shape := ⟨2, ![128, 384]⟩
abbrev S384 : Shape := ⟨1, ![384]⟩
abbrev S128 : Shape := ⟨1, ![128]⟩
abbrev S8x512x128 : Shape := ⟨3, ![8, 512, 128]⟩
abbrev S8x128 : Shape := ⟨2, ![8, 128]⟩
abbrev S8x512 : Shape := ⟨2, ![8, 512]⟩
abbrev S8x1x128 : Shape := ⟨3, ![8, 1, 128]⟩
abbrev S8 : Shape := ⟨1, ![8]⟩
abbrev S8x1 : Shape := ⟨2, ![8, 1]⟩
abbrev S8x512x1 : Shape := ⟨3, ![8, 512, 1]⟩

abbrev nBuf : Space → Nat
  | .hbm => 30
  | .vmem => 22
  | .smem => 0
  | _ => 0

abbrev bufTy : (tb : Table) → Fin (tcTables nBuf tb) → BufTy
  | .hbm, ⟨0, _⟩ => ⟨S256x512x128, .f32⟩
  | .hbm, ⟨1, _⟩ => ⟨S256x128, .f32⟩
  | .hbm, ⟨2, _⟩ => ⟨S256x512, .i1⟩
  | .hbm, ⟨3, _⟩ => ⟨S128x128, .f32⟩
  | .hbm, ⟨4, _⟩ => ⟨S1x128, .f32⟩
  | .hbm, ⟨5, _⟩ => ⟨S128x384, .f32⟩
  | .hbm, ⟨6, _⟩ => ⟨S128x384, .f32⟩
  | .hbm, ⟨7, _⟩ => ⟨S384, .f32⟩
  | .hbm, ⟨8, _⟩ => ⟨S384, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S256x512, .f32⟩
  | .hbm, ⟨28, _⟩ => ⟨S256x512, .f32⟩
  | .hbm, ⟨29, _⟩ => ⟨S256x128, .f32⟩
  | .local _ .vmem, ⟨0, _⟩ => ⟨S8x512x128, .f32⟩
  | .local _ .vmem, ⟨1, _⟩ => ⟨S8x512x128, .f32⟩
  | .local _ .vmem, ⟨2, _⟩ => ⟨S8x128, .f32⟩
  | .local _ .vmem, ⟨3, _⟩ => ⟨S8x128, .f32⟩
  | .local _ .vmem, ⟨4, _⟩ => ⟨S8x512, .f32⟩
  | .local _ .vmem, ⟨5, _⟩ => ⟨S8x512, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S8x512, .f32⟩
  | .local _ .vmem, ⟨19, _⟩ => ⟨S8x512, .f32⟩
  | .local _ .vmem, ⟨20, _⟩ => ⟨S8x128, .f32⟩
  | .local _ .vmem, ⟨21, _⟩ => ⟨S8x128, .f32⟩
  | _, _ => ⟨S256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S128x384_S128x128_0_0 : S128x384.Slices ![0, 0] S128x128
  slices_S128x384_S128x128_0_128 : S128x384.Slices ![0, 128] S128x128
  slices_S128x384_S128x128_0_256 : S128x384.Slices ![0, 256] S128x128
  slices_S384_S128_0 : S384.Slices ![0] S128
  shapeCasts_S128_S1x128 : S128.ShapeCasts S1x128
  slices_S384_S128_128 : S384.Slices ![128] S128
  slices_S384_S128_256 : S384.Slices ![256] S128
  inb_S8x512x128_S8x512x128_0_0_0 : ∀ a, (![0, 0, 0] : Fin 3 → Nat) a + S8x512x128.size a ≤ S8x512x128.size a
  h_S8x512x128 : 0 < S8x512x128.numel
  inb_S8x128_S8x128_0_0 : ∀ a, (![0, 0] : Fin 2 → Nat) a + S8x128.size a ≤ S8x128.size a
  h_S8x128 : 0 < S8x128.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S8x128 : S1x128.Broadcasts S8x128
  shapeCasts_S8x128_S8x1x128 : S8x128.ShapeCasts S8x1x128
  broadcasts_S8x1x128_S8x512x128 : S8x1x128.Broadcasts S8x512x128
  reduces_S8x512x128_S8x512 : S8x512x128.Reduces [2] S8x512
  reduces_S8x512_S8 : S8x512.Reduces [1] S8
  shapeCasts_S8_S8x1 : S8.ShapeCasts S8x1
  broadcasts_S8x1_S8x512 : S8x1.Broadcasts S8x512
  shapeCasts_S8x512_S8x512x1 : S8x512.ShapeCasts S8x512x1
  broadcasts_S8x512x1_S8x512x128 : S8x512x1.Broadcasts S8x512x128
  reduces_S8x512x128_S8x128 : S8x512x128.Reduces [1] S8x128
  shapeCasts_S128x128_S128x128 : S128x128.ShapeCasts S128x128
  shapeCasts_S1x128_S1x128 : S1x128.ShapeCasts S1x128
  dot_S8x128_S128x128_S8x128_1_0_0_1_n_n_wf : DotDims.WF S8x128 S128x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S256x512x128.size a
  hwx0_0 : ∀ i : grid0.Coords, EltTy.bits .f32 = 32 ∨ (Rect.block (s := S256x512x128) S8x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S256x128.size a
  hwx0_1 : ∀ i : grid0.Coords, EltTy.bits .f32 = 32 ∨ (Rect.block (s := S256x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S256x512.size a
  hwx0_2 : ∀ i : grid0.Coords, EltTy.bits .f32 = 32 ∨ (Rect.block (s := S256x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x512.size a ≤ S256x512.size a
  hwx0_15 : ∀ i : grid0.Coords, EltTy.bits .f32 = 32 ∨ (Rect.block (s := S256x512) S8x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x128.size a ≤ S256x128.size a
  hwx0_16 : ∀ i : grid0.Coords, EltTy.bits .f32 = 32 ∨ (Rect.block (s := S256x128) S8x128.size (cc0_transform_16 i) (hinb0_16 i)).WholeWords (EltTy.packing .f32)

variable [Facts₀]

def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf

abbrev win0_0 : Pipeline.Window sig grid0 :=
  Pipeline.Window.ofSpec (Memref.whole main_arg0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19_0) S8x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v19_1) S8x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«178400_g2000600068933849_pallasbulk_201_25_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.AttnSpec.lean ====
/-
  The mathematics of one batch row of the bilinear sequence attention followed by a GRU cell, over the extended reals.

  For a row with document vectors x(l, ·), question vector y and padding bits pad(l):
    q      = y · W + b                                   (the question's projection)
    s(l)   = -∞ where pad(l), else Σ_d x(l, d) · q(d)    (the masked bilinear scores — the first result)
    e(l)   = exp(s(l) − max_l s(l)),  Z = Σ_l e(l)
    α(l)   = e(l) · (1 / Z)   in one program,   e(l) / Z   in the other
    p(d)   = Σ_l α(l) · x(l, d)                          (the attention-pooled input)
    r, z, n the GRU gates of (p, y), and the second result n + z · (y − n).

  The two spellings of α agree exactly when Z ≠ 0: division by 0 is an infinity or -∞ by convention, so 0 · (1/0) = 0
  while 0 / 0 = -∞. Z ≠ 0 holds when some position of the row is not padding and the scores are real numbers: the
  greatest score is then real, its own term of Z is exp 0 = 1, and every term is ≥ 0.
  The two programs also group the gate biases differently, (a + bᵢ) + (c + bₕ) against (a + c) + (bᵢ + bₕ): the same
  extended real, because addition there is commutative and associative.
-/
import Idealize.ShloMosaic.PureOps.Ideal
import proofs.«178400_g2000600068933849_pallasbulk_201_25_alg».proof.Proof.LibERealSum

noncomputable section

namespace Cert.AttnSpec

open Idealize.ShloMosaic Cert.LibERealSum

/-! ## Scores -/

/-- The question's projection `y · W + b`. -/
def proj {D2 D1 : Nat} (y : Fin D2 → EReal) (W : Fin D2 → Fin D1 → EReal) (b : Fin D1 → EReal) (d : Fin D1) : EReal :=
  (∑ k : Fin D2, y k * W k d) + b d

/-- The masked bilinear score of position `l`. -/
def score {L D1 : Nat} (xr : Fin L → Fin D1 → EReal) (q : Fin D1 → EReal) (pad : Fin L → BitVec 1) (l : Fin L) : EReal :=
  Scalar.select (pad l) (⊥ : EReal) (∑ d : Fin D1, xr l d * q d)

theorem score_congr {L D1 : Nat} {xr xr' : Fin L → Fin D1 → EReal} {q q' : Fin D1 → EReal} {pad pad' : Fin L → BitVec 1}
    (h1 : xr = xr') (h2 : q = q') (h3 : pad = pad') (l : Fin L) : score xr q pad l = score xr' q' pad' l := by
  subst h1; subst h2; subst h3; rfl

theorem proj_congr {D2 D1 : Nat} {y y' : Fin D2 → EReal} {W W' : Fin D2 → Fin D1 → EReal} {b b' : Fin D1 → EReal}
    (h1 : y = y') (h2 : W = W') (h3 : b = b') : proj y W b = proj y' W' b' := by
  subst h1; subst h2; subst h3; rfl

/-! ## The softmax weights, in both spellings -/

/-- The greatest score of the row (from `-∞`). -/
def top {L : Nat} (s : Fin L → EReal) : EReal := (Finset.univ : Finset (Fin L)).fold max (⊥ : EReal) s

/-- `exp` of the score shifted by the row's greatest. -/
def expShift {L : Nat} (s : Fin L → EReal) (l : Fin L) : EReal := Ideal.exp (s l - top s)

/-- The normaliser. -/
def denom {L : Nat} (s : Fin L → EReal) : EReal := ∑ l : Fin L, expShift s l

/-- The weight as a product with the reciprocal of the normaliser. -/
def weightMul {L : Nat} (s : Fin L → EReal) (l : Fin L) : EReal := expShift s l * Ideal.div 1 (denom s)

/-- The weight as a quotient by the normaliser. -/
def weightDiv {L : Nat} (s : Fin L → EReal) (l : Fin L) : EReal := Ideal.div (expShift s l) (denom s)

/-- Off a zero normaliser the two spellings are one number: `e · (1 · Z⁻¹) = e · Z⁻¹`. -/
theorem weightMul_eq_weightDiv {L : Nat} (s : Fin L → EReal) (h : denom s ≠ 0) (l : Fin L) :
    weightMul s l = weightDiv s l := by
  unfold weightMul weightDiv Ideal.div
  rw [if_neg h, if_neg h, one_mul]

theorem exp_nonneg (a : EReal) : 0 ≤ Ideal.exp a := by
  induction a using EReal.rec with
  | bot => exact le_refl _
  | coe r => exact EReal.coe_nonneg.mpr (Real.exp_pos r).le
  | top => exact le_top

/-- A row with a real score and no score `+∞` has a nonzero normaliser. -/
theorem denom_ne_zero {L : Nat} (s : Fin L → EReal) (htop : ∀ l, s l ≠ ⊤) (l0 : Fin L) (h0 : s l0 ≠ ⊥) : denom s ≠ 0 := by
  have hM_lt : top s < ⊤ := by
    unfold top
    rw [Finset.fold_max_lt]
    exact ⟨bot_lt_top, fun l _ => lt_top_iff_ne_top.mpr (htop l)⟩
  have hM_ge : s l0 ≤ top s := by
    unfold top
    rw [Finset.le_fold_max]
    exact Or.inr ⟨l0, Finset.mem_univ _, le_refl _⟩
  have hM_bot : top s ≠ ⊥ := fun e => h0 (le_bot_iff.mp (e ▸ hM_ge))
  obtain ⟨a, ha⟩ : ∃ a : ℝ, s l0 = (a : EReal) := by
    induction hs : s l0 using EReal.rec with
    | bot => exact absurd hs h0
    | coe r => exact ⟨r, rfl⟩
    | top => exact absurd hs (htop l0)
  obtain ⟨M, hM⟩ : ∃ M : ℝ, top s = (M : EReal) := by
    induction hs : top s using EReal.rec with
    | bot => exact absurd hs hM_bot
    | coe r => exact ⟨r, rfl⟩
    | top => exact absurd hs (ne_of_lt hM_lt)
  have hpos : 0 < expShift s l0 := by
    unfold expShift
    rw [ha, hM, ← EReal.coe_sub]
    exact EReal.coe_pos.mpr (Real.exp_pos _)
  have hle : expShift s l0 ≤ denom s :=
    Finset.single_le_sum (f := expShift s) (fun i _ => exp_nonneg _) (Finset.mem_univ l0)
  exact ne_of_gt (lt_of_lt_of_le hpos hle)

/-! ## Pooling and the GRU cell -/

/-- Column `o + j` of the stacked gate weights: the reset, update and candidate blocks start at 0, 128 and 256. -/
def colAt (o : Nat) (h : o + 128 ≤ 384) (j : Fin 128) : Fin 384 := ⟨o + j.val, by have := j.isLt; omega⟩

theorem colAt_val (o : Nat) (h : o + 128 ≤ 384) (j : Fin 128) : (colAt o h j).val = o + j.val := rfl

/-- The attention-pooled vector. -/
def pool {L D1 : Nat} (w : Fin L → EReal) (xr : Fin L → Fin D1 → EReal) (d : Fin D1) : EReal := ∑ l : Fin L, w l * xr l d

/-- The GRU cell's new state at coordinate `j`, the biases added to each projection before the gates combine them.
    `c0 c1 c2` send a coordinate to its column in the reset, update and candidate blocks of the stacked weights. -/
def gruSplit {D H G : Nat} (c0 c1 c2 : Fin H → Fin G) (p y : Fin D → EReal) (yh : Fin H → EReal)
    (Wi Wh : Fin D → Fin G → EReal) (bi bh : Fin G → EReal) (j : Fin H) : EReal :=
  let gi (c : Fin G) : EReal := (∑ k : Fin D, p k * Wi k c) + bi c
  let gh (c : Fin G) : EReal := (∑ k : Fin D, y k * Wh k c) + bh c
  let r := Ideal.logistic (gi (c0 j) + gh (c0 j))
  let z := Ideal.logistic (gi (c1 j) + gh (c1 j))
  let n := Ideal.tanh (gi (c2 j) + r * gh (c2 j))
  n + z * (yh j - n)

/-- The same cell with the reset and update gates' two biases added together first. -/
def gruJoint {D H G : Nat} (c0 c1 c2 : Fin H → Fin G) (p y : Fin D → EReal) (yh : Fin H → EReal)
    (Wi Wh : Fin D → Fin G → EReal) (bi bh : Fin G → EReal) (j : Fin H) : EReal :=
  let r := Ideal.logistic (((∑ k : Fin D, p k * Wi k (c0 j)) + (∑ k : Fin D, y k * Wh k (c0 j))) + (bi (c0 j) + bh (c0 j)))
  let z := Ideal.logistic (((∑ k : Fin D, p k * Wi k (c1 j)) + (∑ k : Fin D, y k * Wh k (c1 j))) + (bi (c1 j) + bh (c1 j)))
  let n := Ideal.tanh (((∑ k : Fin D, p k * Wi k (c2 j)) + bi (c2 j)) + r * ((∑ k : Fin D, y k * Wh k (c2 j)) + bh (c2 j)))
  n + z * (yh j - n)

/-- The cell over the six gate matrices and the four bias rows given separately (reset and update biases already
    summed). -/
def gruBlocks {D H : Nat} (p y : Fin D → EReal) (yh : Fin H → EReal)
    (Wir Wiz Win Whr Whz Whn : Fin D → Fin H → EReal) (br bz bin bhn : Fin H → EReal) (j : Fin H) : EReal :=
  let r := Ideal.logistic (((∑ k : Fin D, p k * Wir k j) + (∑ k : Fin D, y k * Whr k j)) + br j)
  let z := Ideal.logistic (((∑ k : Fin D, p k * Wiz k j) + (∑ k : Fin D, y k * Whz k j)) + bz j)
  let n := Ideal.tanh (((∑ k : Fin D, p k * Win k j) + bin j) + r * ((∑ k : Fin D, y k * Whn k j) + bhn j))
  n + z * (yh j - n)

/-- The stacked form read block by block is the separate form. -/
theorem gruJoint_eq_gruBlocks {D H G : Nat} (c0 c1 c2 : Fin H → Fin G) (p y : Fin D → EReal) (yh : Fin H → EReal)
    (Wi Wh : Fin D → Fin G → EReal) (bi bh : Fin G → EReal) (j : Fin H) :
    gruJoint c0 c1 c2 p y yh Wi Wh bi bh j
      = gruBlocks p y yh (fun k j => Wi k (c0 j)) (fun k j => Wi k (c1 j)) (fun k j => Wi k (c2 j))
          (fun k j => Wh k (c0 j)) (fun k j => Wh k (c1 j)) (fun k j => Wh k (c2 j))
          (fun j => bi (c0 j) + bh (c0 j)) (fun j => bi (c1 j) + bh (c1 j)) (fun j => bi (c2 j)) (fun j => bh (c2 j)) j := rfl

theorem gruSplit_congr {D H G : Nat} (c0 c1 c2 : Fin H → Fin G) {p p' y y' : Fin D → EReal} {yh yh' : Fin H → EReal}
    {Wi Wi' Wh Wh' : Fin D → Fin G → EReal} {bi bi' bh bh' : Fin G → EReal}
    (h1 : p = p') (h2 : y = y') (h3 : yh = yh') (h4 : Wi = Wi') (h5 : Wh = Wh') (h6 : bi = bi') (h7 : bh = bh') (j : Fin H) :
    gruSplit c0 c1 c2 p y yh Wi Wh bi bh j = gruSplit c0 c1 c2 p' y' yh' Wi' Wh' bi' bh' j := by
  subst h1; subst h2; subst h3; subst h4; subst h5; subst h6; subst h7; rfl

theorem gruBlocks_congr {D H : Nat} {p p' y y' : Fin D → EReal} {yh yh' : Fin H → EReal}
    {Wir Wir' Wiz Wiz' Win Win' Whr Whr' Whz Whz' Whn Whn' : Fin D → Fin H → EReal} {br br' bz bz' bin bin' bhn bhn' : Fin H → EReal}
    (h1 : p = p') (h2 : y = y') (h3 : yh = yh') (h4 : Wir = Wir') (h5 : Wiz = Wiz') (h6 : Win = Win')
    (h7 : Whr = Whr') (h8 : Whz = Whz') (h9 : Whn = Whn') (h10 : br = br') (h11 : bz = bz') (h12 : bin = bin')
    (h13 : bhn = bhn') (j : Fin H) :
    gruBlocks p y yh Wir Wiz Win Whr Whz Whn br bz bin bhn j
      = gruBlocks p' y' yh' Wir' Wiz' Win' Whr' Whz' Whn' br' bz' bin' bhn' j := by
  subst h1; subst h2; subst h3; subst h4; subst h5; subst h6; subst h7; subst h8; subst h9; subst h10; subst h11
  subst h12; subst h13; rfl

/-- The two groupings of the biases give one number: `(a + b) + (c + d) = (a + c) + (b + d)`. -/
theorem gruSplit_eq_gruJoint {D H G : Nat} (c0 c1 c2 : Fin H → Fin G) (p y : Fin D → EReal) (yh : Fin H → EReal)
    (Wi Wh : Fin D → Fin G → EReal) (bi bh : Fin G → EReal) (j : Fin H) :
    gruSplit c0 c1 c2 p y yh Wi Wh bi bh j = gruJoint c0 c1 c2 p y yh Wi Wh bi bh j := by
  unfold gruSplit gruJoint
  simp only [add_add_add_comm (∑ k : Fin D, p k * Wi k (c0 j)) (bi (c0 j)),
    add_add_add_comm (∑ k : Fin D, p k * Wi k (c1 j)) (bi (c1 j))]

end Cert.AttnSpec

end
-- ==== Proof.LibSoftmaxRows.lean ====
/-
  A row-wise softmax over a matrix of extended reals, read at an entry: the shifted exponentials exp(s − rowmax s), and
  the normalised weights in the two spellings programs use — the product with the reciprocal of the row's sum, and the
  quotient by the row's sum. Also a matrix product with a bias row added, read at an entry. Generic in the extents.
-/
import proofs.«178400_g2000600068933849_pallasbulk_201_25_alg».proof.Proof.LibRowReduce
import proofs.«178400_g2000600068933849_pallasbulk_201_25_alg».proof.Proof.LibDotSum
import proofs.«178400_g2000600068933849_pallasbulk_201_25_alg».proof.Proof.AttnSpec
import Idealize.ShloMosaic.Lib.ValueLayout

noncomputable section

namespace Cert.LibSoftmaxRows

open Idealize.ShloMosaic Idealize.ShloMosaic.ValueIdx Cert.AttnSpec

variable {A L : Nat}

/-- `exp (s − rowmax s)` at entry (a, k) is the row's shifted exponential at k. -/
theorem shifted_apply (s : FVec Ideal ⟨2, ![A, L]⟩ .f32)
    (hr : (⟨2, ![A, L]⟩ : Shape).Reduces [1] ⟨1, ![A]⟩) (hφ : FKind.Formats FTy.f32)
    (hm : (0xFF800000#32 : BitVec 32) = 0xFF800000#32)
    (hc : (⟨1, ![A]⟩ : Shape).ShapeCasts ⟨2, ![A, 1]⟩) (hb : (⟨2, ![A, 1]⟩ : Shape).Broadcasts ⟨2, ![A, L]⟩)
    (a : Fin A) (k : Fin L) :
    exp (subf s (broadcastTo ⟨2, ![A, L]⟩ (shapeCast ⟨2, ![A, 1]⟩
      (multiReduction .maximumf [1] ⟨1, ![A]⟩ s 0xFF800000#32 hr hφ hm) hc) hb)) (ix2 a k)
      = expShift (fun k => s (ix2 a k)) k := by
  show Ideal.exp (s (ix2 a k) - broadcastTo ⟨2, ![A, L]⟩ (shapeCast ⟨2, ![A, 1]⟩
      (multiReduction .maximumf [1] ⟨1, ![A]⟩ s 0xFF800000#32 hr hφ hm) hc) hb (ix2 a k)) = _
  rw [Cert.LibRowReduce.stat_bcast_apply, Cert.LibRowReduce.max_row2]
  rfl

/-- The reciprocal of a row's sum, repeated along the row: entry (a, l) is `1 / Σ_k E(a, k)`. -/
theorem recip_apply (E : FVec Ideal ⟨2, ![A, L]⟩ .f32)
    (hr : (⟨2, ![A, L]⟩ : Shape).Reduces [1] ⟨1, ![A]⟩) (hφ : FKind.Formats FTy.f32)
    (ha : (0x00000000#32 : BitVec 32) = 0x00000000#32)
    (hc : (⟨1, ![A]⟩ : Shape).ShapeCasts ⟨2, ![A, 1]⟩) (hb : (⟨2, ![A, 1]⟩ : Shape).Broadcasts ⟨2, ![A, L]⟩)
    (a : Fin A) (l : Fin L) :
    broadcastTo ⟨2, ![A, L]⟩ (divf (broadcast ⟨2, ![A, 1]⟩ (Scalar.ofBits (F := Ideal) .f32 0x3F800000#32))
      (shapeCast ⟨2, ![A, 1]⟩ (multiReduction .add [1] ⟨1, ![A]⟩ E 0x00000000#32 hr hφ ha) hc)) hb (ix2 a l)
      = Ideal.div 1 (∑ k : Fin L, E (ix2 a k)) := by
  rw [Cert.LibOuterSum.bcast_col_apply]
  show Ideal.div (Ideal.ofBits .f32 0x3F800000#32) (shapeCast ⟨2, ![A, 1]⟩
      (multiReduction .add [1] ⟨1, ![A]⟩ E 0x00000000#32 hr hφ ha) hc (ix2 a (⟨0, Nat.one_pos⟩ : Fin 1))) = _
  rw [Cert.LibDotSum.one_f32, Cert.LibOuterSum.col_of_vec_apply, Cert.LibRowReduce.sum_row2]

/-- The quotient by a row's sum: entry (a, l) is `E(a, l) / Σ_k E(a, k)`. -/
theorem quot_apply (E : FVec Ideal ⟨2, ![A, L]⟩ .f32)
    (hr : (⟨2, ![A, L]⟩ : Shape).Reduces [1] ⟨1, ![A]⟩) (hφ : FKind.Formats FTy.f32)
    (ha : (0x00000000#32 : BitVec 32) = 0x00000000#32)
    (hc : (⟨1, ![A]⟩ : Shape).ShapeCasts ⟨2, ![A, 1]⟩) (hb : (⟨2, ![A, 1]⟩ : Shape).Broadcasts ⟨2, ![A, L]⟩)
    (a : Fin A) (l : Fin L) :
    divf E (broadcastTo ⟨2, ![A, L]⟩ (shapeCast ⟨2, ![A, 1]⟩
      (multiReduction .add [1] ⟨1, ![A]⟩ E 0x00000000#32 hr hφ ha) hc) hb) (ix2 a l)
      = Ideal.div (E (ix2 a l)) (∑ k : Fin L, E (ix2 a k)) := by
  show Ideal.div (E (ix2 a l)) (broadcastTo ⟨2, ![A, L]⟩ (shapeCast ⟨2, ![A, 1]⟩
      (multiReduction .add [1] ⟨1, ![A]⟩ E 0x00000000#32 hr hφ ha) hc) hb (ix2 a l)) = _
  rw [Cert.LibRowReduce.stat_bcast_apply, Cert.LibRowReduce.sum_row2]

/-- The weights as the product with the reciprocal of the normaliser, at entry (a, l). -/
theorem weightMul_apply (s : FVec Ideal ⟨2, ![A, L]⟩ .f32)
    (hr : (⟨2, ![A, L]⟩ : Shape).Reduces [1] ⟨1, ![A]⟩) (hφ : FKind.Formats FTy.f32)
    (hm : (0xFF800000#32 : BitVec 32) = 0xFF800000#32)
    (ha : (0x00000000#32 : BitVec 32) = 0x00000000#32)
    (hc : (⟨1, ![A]⟩ : Shape).ShapeCasts ⟨2, ![A, 1]⟩) (hb : (⟨2, ![A, 1]⟩ : Shape).Broadcasts ⟨2, ![A, L]⟩)
    (a : Fin A) (l : Fin L) :
    mulf (exp (subf s (broadcastTo ⟨2, ![A, L]⟩ (shapeCast ⟨2, ![A, 1]⟩
        (multiReduction .maximumf [1] ⟨1, ![A]⟩ s 0xFF800000#32 hr hφ hm) hc) hb)))
      (broadcastTo ⟨2, ![A, L]⟩ (divf (broadcast ⟨2, ![A, 1]⟩ (Scalar.ofBits (F := Ideal) .f32 0x3F800000#32))
        (shapeCast ⟨2, ![A, 1]⟩ (multiReduction .add [1] ⟨1, ![A]⟩
          (exp (subf s (broadcastTo ⟨2, ![A, L]⟩ (shapeCast ⟨2, ![A, 1]⟩
            (multiReduction .maximumf [1] ⟨1, ![A]⟩ s 0xFF800000#32 hr hφ hm) hc) hb)))
          0x00000000#32 hr hφ ha) hc)) hb) (ix2 a l)
      = weightMul (fun k => s (ix2 a k)) l := by
  rw [mulf_apply, recip_apply, shifted_apply]
  exact congrArg (fun z => expShift (fun k => s (ix2 a k)) l * Ideal.div 1 z)
    (Finset.sum_congr rfl fun k _ => shifted_apply s hr hφ hm hc hb a k)

/-- The weights as the quotient by the normaliser, at entry (a, l). -/
theorem weightDiv_apply (s : FVec Ideal ⟨2, ![A, L]⟩ .f32)
    (hr : (⟨2, ![A, L]⟩ : Shape).Reduces [1] ⟨1, ![A]⟩) (hφ : FKind.Formats FTy.f32)
    (hm : (0xFF800000#32 : BitVec 32) = 0xFF800000#32)
    (ha : (0x00000000#32 : BitVec 32) = 0x00000000#32)
    (hc : (⟨1, ![A]⟩ : Shape).ShapeCasts ⟨2, ![A, 1]⟩) (hb : (⟨2, ![A, 1]⟩ : Shape).Broadcasts ⟨2, ![A, L]⟩)
    (a : Fin A) (l : Fin L) :
    divf (exp (subf s (broadcastTo ⟨2, ![A, L]⟩ (shapeCast ⟨2, ![A, 1]⟩
        (multiReduction .maximumf [1] ⟨1, ![A]⟩ s 0xFF800000#32 hr hφ hm) hc) hb)))
      (broadcastTo ⟨2, ![A, L]⟩ (shapeCast ⟨2, ![A, 1]⟩ (multiReduction .add [1] ⟨1, ![A]⟩
          (exp (subf s (broadcastTo ⟨2, ![A, L]⟩ (shapeCast ⟨2, ![A, 1]⟩
            (multiReduction .maximumf [1] ⟨1, ![A]⟩ s 0xFF800000#32 hr hφ hm) hc) hb)))
          0x00000000#32 hr hφ ha) hc) hb) (ix2 a l)
      = weightDiv (fun k => s (ix2 a k)) l := by
  rw [quot_apply, shifted_apply]
  exact congrArg (fun z => Ideal.div (expShift (fun k => s (ix2 a k)) l) z)
    (Finset.sum_congr rfl fun k _ => shifted_apply s hr hφ hm hc hb a k)

/-- A matrix product into the zero accumulator plus a bias row repeated over the rows, at entry (r, d):
    `Σ_k Y(r, k) · W(k, d) + b(0, d)` — the question's projection when Y holds the questions. -/
theorem proj_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (Y : FVec Ideal ⟨2, ![M, K]⟩ .f32) (W : FVec Ideal ⟨2, ![K, N]⟩ .f32) (b : FVec Ideal ⟨2, ![1, N]⟩ .f32)
    (hb : (⟨2, ![1, N]⟩ : Shape).Broadcasts ⟨2, ![M, N]⟩) (r : Fin M) (d : Fin N) :
    addf (matmul D none Y W (constant ⟨2, ![M, N]⟩ .f32 0x00000000#32)) (broadcastTo ⟨2, ![M, N]⟩ b hb) (ix2 r d)
      = proj (fun k => Y (ix2 r k)) (fun k d => W (ix2 k d)) (fun d => b (ix2 (0 : Fin 1) d)) d := by
  rw [addf_apply, broadcastTo_1b_ab_apply]
  simp only [matmul]
  rw [Ideal.matmul_constant_zero_apply, Cert.LibDotSum.sum_dot D hr hs hl0 hl1 hr0 hr1]
  rfl

end Cert.LibSoftmaxRows

end
-- ==== Proof.KernelScores.lean ====
/-
  The kernel's block of masked bilinear scores and its block of softmax weights, read at an entry.

  The body multiplies the document block, viewed as [64, 64, 8, 128] (the 512 positions as 64 groups of 8), by the
  question's projection repeated over the groups and the 8 positions of a group, views the product as [64, 512, 128]
  again and sums over the last axis. Position l sits in group l / 8 at place l % 8, so entry (r, l, d) of the product
  is x(r, l, d) · q(r, d), and the sum over d is the bilinear score of position l of row r.
-/
import proofs.«178400_g2000600068933849_pallasbulk_201_25_alg».proof.Proof.Gen.KernelIdeal.Skeleton
import proofs.«178400_g2000600068933849_pallasbulk_201_25_alg».proof.Proof.LibSoftmaxRows
import Idealize.ShloMosaic.Lib.ValueLayout

noncomputable section

namespace Cert.KernelIdeal.Rows

open Cert.KernelIdeal Cert.KernelIdeal.Gen Idealize.ShloMosaic Idealize.ShloMosaic.ValueIdx Cert.AttnSpec

/-- The grouped product at (r, l, d): the document entry times the projection's entry (r, d). -/
theorem grouped_prod_apply (v0 : Vec Ideal S64x512x128 .f32) (Q : FVec Ideal S64x128 .f32)
    (r : Fin 64) (l : Fin 512) (d : Fin 128) :
    shapeCast S64x512x128 (mulf (shapeCast S64x64x8x128 v0 shapeCasts_S64x512x128_S64x64x8x128)
      (broadcastTo S64x64x8x128 (shapeCast S64x1x8x128 (broadcastTo S64x8x128
        (shapeCast S64x1x128 (shapeCast S64x1x128 Q shapeCasts_S64x128_S64x1x128) shapeCasts_S64x1x128_S64x1x128)
        broadcasts_S64x1x128_S64x8x128) shapeCasts_S64x8x128_S64x1x8x128) broadcasts_S64x1x8x128_S64x64x8x128))
      shapeCasts_S64x64x8x128_S64x512x128 (ix3 r l d) = v0 (ix3 r l d) * Q (ix2 r d) := by
  have hl : l.val < 512 := l.isLt
  have hg : l.val / 8 < 64 := by omega
  have hp : l.val % 8 < 8 := by omega
  rw [shapeCast_apply _ shapeCasts_S64x64x8x128_S64x512x128 (ix3 r l d)
    (ix4 r (⟨l.val / 8, hg⟩ : Fin 64) (⟨l.val % 8, hp⟩ : Fin 8) d) (by
      rw [Shape.rowMajor_val_four, Shape.rowMajor_val_three]
      show ((r.val * 64 + l.val / 8) * 8 + l.val % 8) * 128 + d.val = (r.val * 512 + l.val) * 128 + d.val
      omega)]
  rw [mulf_apply]
  congr 1
  · exact shapeCast_apply v0 shapeCasts_S64x512x128_S64x64x8x128 _ (ix3 r l d) (by
      rw [Shape.rowMajor_val_four, Shape.rowMajor_val_three]
      show (r.val * 512 + l.val) * 128 + d.val = ((r.val * 64 + l.val / 8) * 8 + l.val % 8) * 128 + d.val
      omega)
  · rw [broadcastTo_apply _ broadcasts_S64x1x8x128_S64x64x8x128 _
      (ix4 r (0 : Fin 1) (⟨l.val % 8, hp⟩ : Fin 8) d) (fun a => by
        match a with
        | ⟨0, _⟩ => rfl
        | ⟨1, _⟩ => rfl
        | ⟨2, _⟩ => rfl
        | ⟨3, _⟩ => rfl)]
    rw [shapeCast_apply _ shapeCasts_S64x8x128_S64x1x8x128 _ (ix3 r (⟨l.val % 8, hp⟩ : Fin 8) d) (by
      rw [Shape.rowMajor_val_four, Shape.rowMajor_val_three]
      show (r.val * 8 + l.val % 8) * 128 + d.val = ((r.val * 1 + 0) * 8 + l.val % 8) * 128 + d.val
      omega)]
    rw [shapeCast_self, Cert.LibOuterSum.bcast_middle_apply]

/-- THE SCORES: entry (r, l) of the stored block is the masked bilinear score of position l of row r, the padding
    bit read as "the staged word is not 0". -/
theorem score_apply (v0 : Vec Ideal S64x512x128 .f32) (v1 : Vec Ideal S64x128 .f32) (v2 : Vec Ideal S128x128 .f32)
    (v4 : Vec Ideal S1x128 .f32) (v16 : Vec Ideal S64x512 .i32) (r : Fin 64) (l : Fin 512) :
    k0_pay1 v0 v1 v2 v4 v16 (ix2 r l)
      = score (fun l d => v0 (ix3 r l d))
          (proj (fun k => v1 (ix2 r k)) (fun k d => v2 (ix2 k d)) (fun d => v4 (ix2 (0 : Fin 1) d)))
          (fun l => IntOp.cmpi .ne (v16 (ix2 r l)) 0#32) l := by
  unfold k0_pay1 score
  dsimp only
  rw [select_apply, Cert.LibRowReduce.sum_last3]
  refine congr (congrArg (Scalar.select _) ?_) ?_
  · exact Cert.LibRowReduce.ofBits_neg_inf_f32
  · refine Finset.sum_congr rfl fun d _ => ?_
    rw [grouped_prod_apply]
    exact congrArg (v0 (ix3 r l d) * ·) (Cert.LibSoftmaxRows.proj_apply dot_S64x128_S128x128_S64x128_1_0_0_1_n_n rfl rfl
      (fun _ _ => rfl) (fun _ _ => rfl) (fun _ _ => rfl) (fun _ _ => rfl) v1 v2 v4 broadcasts_S1x128_S64x128 r d)

/-- THE WEIGHTS: entry (r, l) of the weights' block is the softmax weight of position l of row r, in the spelling
    "shifted exponential times the reciprocal of the normaliser", over the row's stored scores. -/
theorem weights_apply (v0 : Vec Ideal S64x512x128 .f32) (v1 : Vec Ideal S64x128 .f32) (v2 : Vec Ideal S128x128 .f32)
    (v4 : Vec Ideal S1x128 .f32) (v16 : Vec Ideal S64x512 .i32) (r : Fin 64) (l : Fin 512) :
    k0_pay2 v0 v1 v2 v4 v16 (ix2 r l) = weightMul (fun k => k0_pay1 v0 v1 v2 v4 v16 (ix2 r k)) l := by
  unfold k0_pay2
  exact Cert.LibSoftmaxRows.weightMul_apply (k0_pay1 v0 v1 v2 v4 v16) reduces_S64x512_S64 (.inl rfl) rfl rfl
    shapeCasts_S64_S64x1 broadcasts_S64x1_S64x512 r l

end Cert.KernelIdeal.Rows

end
-- ==== Proof.LibConcatRows.lean ====
/-
  A concatenation of pieces of ONE shape, each of extent 1 along the axis, given as a plain list of the pieces: read at
  an index, it is the piece the axis coordinate names, at the index with the same other coordinates. (A stack of rows.)
-/
import Idealize.ShloMosaic.Lib.Pipeline.Value

noncomputable section

namespace Cert.LibConcatRows

open Idealize.ShloMosaic

/-- Piece `n` of the stack, where `n` is the index's coordinate on the axis. -/
theorem concat_rows_apply {α : Type} {t s₁ : Shape} (a : Fin t.rank) (ps : List (s₁.Idx → α))
    (h : Shape.Concatenates ((ps.map fun p => (⟨s₁, p⟩ : (s : Shape) × (s.Idx → α))).map (·.1)) t a)
    (hr : s₁.rank = t.rank) (h1 : s₁.size (a.cast hr.symm) = 1) (j : t.Idx) (n : Nat) (hn : n < ps.length)
    (hjn : (j a).val = n) (i : s₁.Idx) (hi : ∀ b : Fin s₁.rank, b.cast hr ≠ a → (i b).val = (j (b.cast hr)).val) :
    concatenate t a (ps.map fun p => (⟨s₁, p⟩ : (s : Shape) × (s.Idx → α))) h j = ps[n] i := by
  revert h
  rw [← List.ofFn_getElem_eq_map ps (fun p => (⟨s₁, p⟩ : (s : Shape) × (s.Idx → α)))]
  intro h
  exact concatenate_ofFn_unit_apply a (fun k : Fin ps.length => ps[(k : Nat)]) h hr h1 j ⟨n, hn⟩ hjn i hi

end Cert.LibConcatRows

end
-- ==== Proof.KernelPool.lean ====
/-
  The kernel's attention pooling, read at an entry. The body computes the pooled vector of each of the block's 64 rows
  by itself — row b's weights, a 1 × 512 slice, times row b's documents, a 512 × 128 slice — and lays the 64 results
  end to end. Row b, coordinate d of the result is therefore Σ_l α(b, l) · x(b, l, d), whichever of the 64 spellings
  the body uses for that row.
-/
import proofs.«178400_g2000600068933849_pallasbulk_201_25_alg».proof.Proof.Gen.KernelIdeal.Skeleton
import proofs.«178400_g2000600068933849_pallasbulk_201_25_alg».proof.Proof.LibDotSum
import Idealize.ShloMosaic.Lib.ValueLayout
import Idealize.ShloMosaic.Lib.Pipeline.Value
import proofs.«178400_g2000600068933849_pallasbulk_201_25_alg».proof.Proof.LibConcatRows

set_option maxRecDepth 16384

noncomputable section

namespace Cert.KernelIdeal.Rows

open Cert.KernelIdeal Cert.KernelIdeal.Gen Idealize.ShloMosaic Idealize.ShloMosaic.ValueIdx

/-- One row of weights times the documents of row k of the block: coordinate d is Σ_l a(l) · x(k, l, d). -/
theorem rowdot_apply (k : Nat) (hk : k < 64) (v0 : FVec Ideal S64x512x128 .f32) (a : FVec Ideal S1x512 .f32)
    (hs : S64x512x128.Slices ![k, 0, 0] S1x512x128) (d : Fin 128) :
    matmul dot_S1x512_S512x128_S1x128_1_0_0_1_n_n none a
      (shapeCast S512x128 (extractStridedSlice S1x512x128 ![k, 0, 0] v0 hs) shapeCasts_S1x512x128_S512x128)
      (constant S1x128 .f32 0x00000000#32) (ix2 (0 : Fin 1) d)
      = ∑ l : Fin 512, a (ix2 (0 : Fin 1) l) * v0 (ix3 (⟨k, hk⟩ : Fin 64) l d) := by
  simp only [matmul]
  rw [Ideal.matmul_constant_zero_apply, Cert.LibDotSum.sum_dot dot_S1x512_S512x128_S1x128_1_0_0_1_n_n rfl rfl
    (fun _ _ => rfl) (fun _ _ => rfl) (fun _ _ => rfl) (fun _ _ => rfl)]
  refine Finset.sum_congr rfl fun l _ => congrArg (a (ix2 (0 : Fin 1) l) * ·) ?_
  rw [shapeCast_1ab_ab_apply]
  exact extractStridedSlice_apply _ v0 hs _ (ix3 (⟨k, hk⟩ : Fin 64) l d) (fun ax => by
    match ax with
    | ⟨0, _⟩ => rfl
    | ⟨1, _⟩ => exact (Nat.zero_add _).symm
    | ⟨2, _⟩ => exact (Nat.zero_add _).symm)

/-! ## The 64 rows, each in the body's spelling -/

theorem row_0 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay3 X0 X1 X3 X4 X2) (ix2 (0 : Fin 1) d)
      = ∑ l : Fin 512, (k0_pay2 X0 X1 X3 X4 X2) (ix2 (⟨0, by decide⟩ : Fin 64) l) * X0 (ix3 (⟨0, by decide⟩ : Fin 64) l d) := by
  unfold k0_pay3
  rw [rowdot_apply 0 (by decide)]
  exact Finset.sum_congr rfl fun l _ => congrArg (· * _) (slice2_axis0_apply 0 _ _ (0 : Fin 1) l ⟨0, by decide⟩ rfl)

theorem row_1 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay5 X0 (k0_pay4 X0 X1 X3 X4 X2)) (ix2 (0 : Fin 1) d)
      = ∑ l : Fin 512, (k0_pay2 X0 X1 X3 X4 X2) (ix2 (⟨1, by decide⟩ : Fin 64) l) * X0 (ix3 (⟨1, by decide⟩ : Fin 64) l d) := by
  unfold k0_pay5 k0_pay4
  rw [rowdot_apply 1 (by decide)]
  exact Finset.sum_congr rfl fun l _ => congrArg (· * _) (slice2_axis0_apply 1 _ _ (0 : Fin 1) l ⟨1, by decide⟩ rfl)

theorem row_2 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay6 X0 (k0_pay2 X0 X1 X3 X4 X2)) (ix2 (0 : Fin 1) d)
      = ∑ l : Fin 512, (k0_pay2 X0 X1 X3 X4 X2) (ix2 (⟨2, by decide⟩ : Fin 64) l) * X0 (ix3 (⟨2, by decide⟩ : Fin 64) l d) := by
  unfold k0_pay6
  rw [rowdot_apply 2 (by decide)]
  exact Finset.sum_congr rfl fun l _ => congrArg (· * _) (slice2_axis0_apply 2 _ _ (0 : Fin 1) l ⟨2, by decide⟩ rfl)

theorem row_3 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay7 X0 (k0_pay2 X0 X1 X3 X4 X2)) (ix2 (0 : Fin 1) d)
      = ∑ l : Fin 512, (k0_pay2 X0 X1 X3 X4 X2) (ix2 (⟨3, by decide⟩ : Fin 64) l) * X0 (ix3 (⟨3, by decide⟩ : Fin 64) l d) := by
  unfold k0_pay7
  rw [rowdot_apply 3 (by decide)]
  exact Finset.sum_congr rfl fun l _ => congrArg (· * _) (slice2_axis0_apply 3 _ _ (0 : Fin 1) l ⟨3, by decide⟩ rfl)

theorem row_4 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay8 X0 (k0_pay2 X0 X1 X3 X4 X2)) (ix2 (0 : Fin 1) d)
      = ∑ l : Fin 512, (k0_pay2 X0 X1 X3 X4 X2) (ix2 (⟨4, by decide⟩ : Fin 64) l) * X0 (ix3 (⟨4, by decide⟩ : Fin 64) l d) := by
  unfold k0_pay8
  rw [rowdot_apply 4 (by decide)]
  exact Finset.sum_congr rfl fun l _ => congrArg (· * _) (slice2_axis0_apply 4 _ _ (0 : Fin 1) l ⟨4, by decide⟩ rfl)

theorem row_5 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay9 X0 (k0_pay2 X0 X1 X3 X4 X2)) (ix2 (0 : Fin 1) d)
      = ∑ l : Fin 512, (k0_pay2 X0 X1 X3 X4 X2) (ix2 (⟨5, by decide⟩ : Fin 64) l) * X0 (ix3 (⟨5, by decide⟩ : Fin 64) l d) := by
  unfold k0_pay9
  rw [rowdot_apply 5 (by decide)]
  exact Finset.sum_congr rfl fun l _ => congrArg (· * _) (slice2_axis0_apply 5 _ _ (0 : Fin 1) l ⟨5, by decide⟩ rfl)

theorem row_6 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay10 X0 (k0_pay2 X0 X1 X3 X4 X2)) (ix2 (0 : Fin 1) d)
      = ∑ l : Fin 512, (k0_pay2 X0 X1 X3 X4 X2) (ix2 (⟨6, by decide⟩ : Fin 64) l) * X0 (ix3 (⟨6, by decide⟩ : Fin 64) l d) := by
  unfold k0_pay10
  rw [rowdot_apply 6 (by decide)]
  exact Finset.sum_congr rfl fun l _ => congrArg (· * _) (slice2_axis0_apply 6 _ _ (0 : Fin 1) l ⟨6, by decide⟩ rfl)

theorem row_7 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay11 X0 (k0_pay2 X0 X1 X3 X4 X2)) (ix2 (0 : Fin 1) d)
      = ∑ l : Fin 512, (k0_pay2 X0 X1 X3 X4 X2) (ix2 (⟨7, by decide⟩ : Fin 64) l) * X0 (ix3 (⟨7, by decide⟩ : Fin 64) l d) := by
  unfold k0_pay11
  rw [rowdot_apply 7 (by decide)]
  exact Finset.sum_congr rfl fun l _ => congrArg (· * _) (slice2_axis0_apply 7 _ _ (0 : Fin 1) l ⟨7, by decide⟩ rfl)

theorem row_8 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay12 X0 (k0_pay2 X0 X1 X3 X4 X2)) (ix2 (0 : Fin 1) d)
      = ∑ l : Fin 512, (k0_pay2 X0 X1 X3 X4 X2) (ix2 (⟨8, by decide⟩ : Fin 64) l) * X0 (ix3 (⟨8, by decide⟩ : Fin 64) l d) := by
  unfold k0_pay12
  rw [rowdot_apply 8 (by decide)]
  exact Finset.sum_congr rfl fun l _ => congrArg (· * _) (slice2_axis0_apply 8 _ _ (0 : Fin 1) l ⟨8, by decide⟩ rfl)

theorem row_9 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay13 X0 (k0_pay2 X0 X1 X3 X4 X2)) (ix2 (0 : Fin 1) d)
      = ∑ l : Fin 512, (k0_pay2 X0 X1 X3 X4 X2) (ix2 (⟨9, by decide⟩ : Fin 64) l) * X0 (ix3 (⟨9, by decide⟩ : Fin 64) l d) := by
  unfold k0_pay13
  rw [rowdot_apply 9 (by decide)]
  exact Finset.sum_congr rfl fun l _ => congrArg (· * _) (slice2_axis0_apply 9 _ _ (0 : Fin 1) l ⟨9, by decide⟩ rfl)

theorem row_10 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay14 X0 (k0_pay2 X0 X1 X3 X4 X2)) (ix2 (0 : Fin 1) d)
      = ∑ l : Fin 512, (k0_pay2 X0 X1 X3 X4 X2) (ix2 (⟨10, by decide⟩ : Fin 64) l) * X0 (ix3 (⟨10, by decide⟩ : Fin 64) l d) := by
  unfold k0_pay14
  rw [rowdot_apply 10 (by decide)]
  exact Finset.sum_congr rfl fun l _ => congrArg (· * _) (slice2_axis0_apply 10 _ _ (0 : Fin 1) l ⟨10, by decide⟩ rfl)

theorem row_11 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay15 X0 (k0_pay2 X0 X1 X3 X4 X2)) (ix2 (0 : Fin 1) d)
      = ∑ l : Fin 512, (k0_pay2 X0 X1 X3 X4 X2) (ix2 (⟨11, by decide⟩ : Fin 64) l) * X0 (ix3 (⟨11, by decide⟩ : Fin 64) l d) := by
  unfold k0_pay15
  rw [rowdot_apply 11 (by decide)]
  exact Finset.sum_congr rfl fun l _ => congrArg (· * _) (slice2_axis0_apply 11 _ _ (0 : Fin 1) l ⟨11, by decide⟩ rfl)

theorem row_12 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay16 X0 (k0_pay2 X0 X1 X3 X4 X2)) (ix2 (0 : Fin 1) d)
      = ∑ l : Fin 512, (k0_pay2 X0 X1 X3 X4 X2) (ix2 (⟨12, by decide⟩ : Fin 64) l) * X0 (ix3 (⟨12, by decide⟩ : Fin 64) l d) := by
  unfold k0_pay16
  rw [rowdot_apply 12 (by decide)]
  exact Finset.sum_congr rfl fun l _ => congrArg (· * _) (slice2_axis0_apply 12 _ _ (0 : Fin 1) l ⟨12, by decide⟩ rfl)

theorem row_13 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay18 X0 (k0_pay17 (k0_pay2 X0 X1 X3 X4 X2))) (ix2 (0 : Fin 1) d)
      = ∑ l : Fin 512, (k0_pay2 X0 X1 X3 X4 X2) (ix2 (⟨13, by decide⟩ : Fin 64) l) * X0 (ix3 (⟨13, by decide⟩ : Fin 64) l d) := by
  unfold k0_pay18 k0_pay17
  rw [rowdot_apply 13 (by decide)]
  exact Finset.sum_congr rfl fun l _ => congrArg (· * _) (slice2_axis0_apply 13 _ _ (0 : Fin 1) l ⟨13, by decide⟩ rfl)

theorem row_14 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay19 X0 (k0_pay2 X0 X1 X3 X4 X2)) (ix2 (0 : Fin 1) d)
      = ∑ l : Fin 512, (k0_pay2 X0 X1 X3 X4 X2) (ix2 (⟨14, by decide⟩ : Fin 64) l) * X0 (ix3 (⟨14, by decide⟩ : Fin 64) l d) := by
  unfold k0_pay19
  rw [rowdot_apply 14 (by decide)]
  exact Finset.sum_congr rfl fun l _ => congrArg (· * _) (slice2_axis0_apply 14 _ _ (0 : Fin 1) l ⟨14, by decide⟩ rfl)

theorem row_15 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay20 X0 (k0_pay2 X0 X1 X3 X4 X2)) (ix2 (0 : Fin 1) d)
      = ∑ l : Fin 512, (k0_pay2 X0 X1 X3 X4 X2) (ix2 (⟨15, by decide⟩ : Fin 64) l) * X0 (ix3 (⟨15, by decide⟩ : Fin 64) l d) := by
  unfold k0_pay20
  rw [rowdot_apply 15 (by decide)]
  exact Finset.sum_congr rfl fun l _ => congrArg (· * _) (slice2_axis0_apply 15 _ _ (0 : Fin 1) l ⟨15, by decide⟩ rfl)

theorem row_16 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay21 X0 (k0_pay2 X0 X1 X3 X4 X2)) (ix2 (0 : Fin 1) d)
      = ∑ l : Fin 512, (k0_pay2 X0 X1 X3 X4 X2) (ix2 (⟨16, by decide⟩ : Fin 64) l) * X0 (ix3 (⟨16, by decide⟩ : Fin 64) l d) := by
  unfold k0_pay21
  rw [rowdot_apply 16 (by decide)]
  exact Finset.sum_congr rfl fun l _ => congrArg (· * _) (slice2_axis0_apply 16 _ _ (0 : Fin 1) l ⟨16, by decide⟩ rfl)

theorem row_17 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay22 X0 (k0_pay2 X0 X1 X3 X4 X2)) (ix2 (0 : Fin 1) d)
      = ∑ l : Fin 512, (k0_pay2 X0 X1 X3 X4 X2) (ix2 (⟨17, by decide⟩ : Fin 64) l) * X0 (ix3 (⟨17, by decide⟩ : Fin 64) l d) := by
  unfold k0_pay22
  rw [rowdot_apply 17 (by decide)]
  exact Finset.sum_congr rfl fun l _ => congrArg (· * _) (slice2_axis0_apply 17 _ _ (0 : Fin 1) l ⟨17, by decide⟩ rfl)

theorem row_18 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay23 X0 (k0_pay2 X0 X1 X3 X4 X2)) (ix2 (0 : Fin 1) d)
      = ∑ l : Fin 512, (k0_pay2 X0 X1 X3 X4 X2) (ix2 (⟨18, by decide⟩ : Fin 64) l) * X0 (ix3 (⟨18, by decide⟩ : Fin 64) l d) := by
  unfold k0_pay23
  rw [rowdot_apply 18 (by decide)]
  exact Finset.sum_congr rfl fun l _ => congrArg (· * _) (slice2_axis0_apply 18 _ _ (0 : Fin 1) l ⟨18, by decide⟩ rfl)

theorem row_19 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay24 X0 (k0_pay2 X0 X1 X3 X4 X2)) (ix2 (0 : Fin 1) d)
      = ∑ l : Fin 512, (k0_pay2 X0 X1 X3 X4 X2) (ix2 (⟨19, by decide⟩ : Fin 64) l) * X0 (ix3 (⟨19, by decide⟩ : Fin 64) l d) := by
  unfold k0_pay24
  rw [rowdot_apply 19 (by decide)]
  exact Finset.sum_congr rfl fun l _ => congrArg (· * _) (slice2_axis0_apply 19 _ _ (0 : Fin 1) l ⟨19, by decide⟩ rfl)

theorem row_20 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay25 X0 (k0_pay2 X0 X1 X3 X4 X2)) (ix2 (0 : Fin 1) d)
      = ∑ l : Fin 512, (k0_pay2 X0 X1 X3 X4 X2) (ix2 (⟨20, by decide⟩ : Fin 64) l) * X0 (ix3 (⟨20, by decide⟩ : Fin 64) l d) := by
  unfold k0_pay25
  rw [rowdot_apply 20 (by decide)]
  exact Finset.sum_congr rfl fun l _ => congrArg (· * _) (slice2_axis0_apply 20 _ _ (0 : Fin 1) l ⟨20, by decide⟩ rfl)

theorem row_21 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay26 X0 (k0_pay2 X0 X1 X3 X4 X2)) (ix2 (0 : Fin 1) d)
      = ∑ l : Fin 512, (k0_pay2 X0 X1 X3 X4 X2) (ix2 (⟨21, by decide⟩ : Fin 64) l) * X0 (ix3 (⟨21, by decide⟩ : Fin 64) l d) := by
  unfold k0_pay26
  rw [rowdot_apply 21 (by decide)]
  exact Finset.sum_congr rfl fun l _ => congrArg (· * _) (slice2_axis0_apply 21 _ _ (0 : Fin 1) l ⟨21, by decide⟩ rfl)

theorem row_22 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay27 X0 (k0_pay2 X0 X1 X3 X4 X2)) (ix2 (0 : Fin 1) d)
      = ∑ l : Fin 512, (k0_pay2 X0 X1 X3 X4 X2) (ix2 (⟨22, by decide⟩ : Fin 64) l) * X0 (ix3 (⟨22, by decide⟩ : Fin 64) l d) := by
  unfold k0_pay27
  rw [rowdot_apply 22 (by decide)]
  exact Finset.sum_congr rfl fun l _ => congrArg (· * _) (slice2_axis0_apply 22 _ _ (0 : Fin 1) l ⟨22, by decide⟩ rfl)

theorem row_23 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay28 X0 (k0_pay2 X0 X1 X3 X4 X2)) (ix2 (0 : Fin 1) d)
      = ∑ l : Fin 512, (k0_pay2 X0 X1 X3 X4 X2) (ix2 (⟨23, by decide⟩ : Fin 64) l) * X0 (ix3 (⟨23, by decide⟩ : Fin 64) l d) := by
  unfold k0_pay28
  rw [rowdot_apply 23 (by decide)]
  exact Finset.sum_congr rfl fun l _ => congrArg (· * _) (slice2_axis0_apply 23 _ _ (0 : Fin 1) l ⟨23, by decide⟩ rfl)

theorem row_24 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay29 X0 (k0_pay2 X0 X1 X3 X4 X2)) (ix2 (0 : Fin 1) d)
      = ∑ l : Fin 512, (k0_pay2 X0 X1 X3 X4 X2) (ix2 (⟨24, by decide⟩ : Fin 64) l) * X0 (ix3 (⟨24, by decide⟩ : Fin 64) l d) := by
  unfold k0_pay29
  rw [rowdot_apply 24 (by decide)]
  exact Finset.sum_congr rfl fun l _ => congrArg (· * _) (slice2_axis0_apply 24 _ _ (0 : Fin 1) l ⟨24, by decide⟩ rfl)

theorem row_25 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay31 X0 (k0_pay30 (k0_pay2 X0 X1 X3 X4 X2))) (ix2 (0 : Fin 1) d)
      = ∑ l : Fin 512, (k0_pay2 X0 X1 X3 X4 X2) (ix2 (⟨25, by decide⟩ : Fin 64) l) * X0 (ix3 (⟨25, by decide⟩ : Fin 64) l d) := by
  unfold k0_pay31 k0_pay30
  rw [rowdot_apply 25 (by decide)]
  exact Finset.sum_congr rfl fun l _ => congrArg (· * _) (slice2_axis0_apply 25 _ _ (0 : Fin 1) l ⟨25, by decide⟩ rfl)

theorem row_26 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay32 X0 (k0_pay2 X0 X1 X3 X4 X2)) (ix2 (0 : Fin 1) d)
      = ∑ l : Fin 512, (k0_pay2 X0 X1 X3 X4 X2) (ix2 (⟨26, by decide⟩ : Fin 64) l) * X0 (ix3 (⟨26, by decide⟩ : Fin 64) l d) := by
  unfold k0_pay32
  rw [rowdot_apply 26 (by decide)]
  exact Finset.sum_congr rfl fun l _ => congrArg (· * _) (slice2_axis0_apply 26 _ _ (0 : Fin 1) l ⟨26, by decide⟩ rfl)

theorem row_27 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay33 X0 (k0_pay2 X0 X1 X3 X4 X2)) (ix2 (0 : Fin 1) d)
      = ∑ l : Fin 512, (k0_pay2 X0 X1 X3 X4 X2) (ix2 (⟨27, by decide⟩ : Fin 64) l) * X0 (ix3 (⟨27, by decide⟩ : Fin 64) l d) := by
  unfold k0_pay33
  rw [rowdot_apply 27 (by decide)]
  exact Finset.sum_congr rfl fun l _ => congrArg (· * _) (slice2_axis0_apply 27 _ _ (0 : Fin 1) l ⟨27, by decide⟩ rfl)

theorem row_28 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay34 X0 (k0_pay2 X0 X1 X3 X4 X2)) (ix2 (0 : Fin 1) d)
      = ∑ l : Fin 512, (k0_pay2 X0 X1 X3 X4 X2) (ix2 (⟨28, by decide⟩ : Fin 64) l) * X0 (ix3 (⟨28, by decide⟩ : Fin 64) l d) := by
  unfold k0_pay34
  rw [rowdot_apply 28 (by decide)]
  exact Finset.sum_congr rfl fun l _ => congrArg (· * _) (slice2_axis0_apply 28 _ _ (0 : Fin 1) l ⟨28, by decide⟩ rfl)

theorem row_29 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay35 X0 (k0_pay2 X0 X1 X3 X4 X2)) (ix2 (0 : Fin 1) d)
      = ∑ l : Fin 512, (k0_pay2 X0 X1 X3 X4 X2) (ix2 (⟨29, by decide⟩ : Fin 64) l) * X0 (ix3 (⟨29, by decide⟩ : Fin 64) l d) := by
  unfold k0_pay35
  rw [rowdot_apply 29 (by decide)]
  exact Finset.sum_congr rfl fun l _ => congrArg (· * _) (slice2_axis0_apply 29 _ _ (0 : Fin 1) l ⟨29, by decide⟩ rfl)

theorem row_30 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay36 X0 (k0_pay2 X0 X1 X3 X4 X2)) (ix2 (0 : Fin 1) d)
      = ∑ l : Fin 512, (k0_pay2 X0 X1 X3 X4 X2) (ix2 (⟨30, by decide⟩ : Fin 64) l) * X0 (ix3 (⟨30, by decide⟩ : Fin 64) l d) := by
  unfold k0_pay36
  rw [rowdot_apply 30 (by decide)]
  exact Finset.sum_congr rfl fun l _ => congrArg (· * _) (slice2_axis0_apply 30 _ _ (0 : Fin 1) l ⟨30, by decide⟩ rfl)

theorem row_31 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay37 X0 (k0_pay2 X0 X1 X3 X4 X2)) (ix2 (0 : Fin 1) d)
      = ∑ l : Fin 512, (k0_pay2 X0 X1 X3 X4 X2) (ix2 (⟨31, by decide⟩ : Fin 64) l) * X0 (ix3 (⟨31, by decide⟩ : Fin 64) l d) := by
  unfold k0_pay37
  rw [rowdot_apply 31 (by decide)]
  exact Finset.sum_congr rfl fun l _ => congrArg (· * _) (slice2_axis0_apply 31 _ _ (0 : Fin 1) l ⟨31, by decide⟩ rfl)

theorem row_32 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay38 X0 (k0_pay2 X0 X1 X3 X4 X2)) (ix2 (0 : Fin 1) d)
      = ∑ l : Fin 512, (k0_pay2 X0 X1 X3 X4 X2) (ix2 (⟨32, by decide⟩ : Fin 64) l) * X0 (ix3 (⟨32, by decide⟩ : Fin 64) l d) := by
  unfold k0_pay38
  rw [rowdot_apply 32 (by decide)]
  exact Finset.sum_congr rfl fun l _ => congrArg (· * _) (slice2_axis0_apply 32 _ _ (0 : Fin 1) l ⟨32, by decide⟩ rfl)

theorem row_33 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay39 X0 (k0_pay2 X0 X1 X3 X4 X2)) (ix2 (0 : Fin 1) d)
      = ∑ l : Fin 512, (k0_pay2 X0 X1 X3 X4 X2) (ix2 (⟨33, by decide⟩ : Fin 64) l) * X0 (ix3 (⟨33, by decide⟩ : Fin 64) l d) := by
  unfold k0_pay39
  rw [rowdot_apply 33 (by decide)]
  exact Finset.sum_congr rfl fun l _ => congrArg (· * _) (slice2_axis0_apply 33 _ _ (0 : Fin 1) l ⟨33, by decide⟩ rfl)

theorem row_34 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay40 X0 (k0_pay2 X0 X1 X3 X4 X2)) (ix2 (0 : Fin 1) d)
      = ∑ l : Fin 512, (k0_pay2 X0 X1 X3 X4 X2) (ix2 (⟨34, by decide⟩ : Fin 64) l) * X0 (ix3 (⟨34, by decide⟩ : Fin 64) l d) := by
  unfold k0_pay40
  rw [rowdot_apply 34 (by decide)]
  exact Finset.sum_congr rfl fun l _ => congrArg (· * _) (slice2_axis0_apply 34 _ _ (0 : Fin 1) l ⟨34, by decide⟩ rfl)

theorem row_35 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay41 X0 (k0_pay2 X0 X1 X3 X4 X2)) (ix2 (0 : Fin 1) d)
      = ∑ l : Fin 512, (k0_pay2 X0 X1 X3 X4 X2) (ix2 (⟨35, by decide⟩ : Fin 64) l) * X0 (ix3 (⟨35, by decide⟩ : Fin 64) l d) := by
  unfold k0_pay41
  rw [rowdot_apply 35 (by decide)]
  exact Finset.sum_congr rfl fun l _ => congrArg (· * _) (slice2_axis0_apply 35 _ _ (0 : Fin 1) l ⟨35, by decide⟩ rfl)

theorem row_36 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay42 X0 (k0_pay2 X0 X1 X3 X4 X2)) (ix2 (0 : Fin 1) d)
      = ∑ l : Fin 512, (k0_pay2 X0 X1 X3 X4 X2) (ix2 (⟨36, by decide⟩ : Fin 64) l) * X0 (ix3 (⟨36, by decide⟩ : Fin 64) l d) := by
  unfold k0_pay42
  rw [rowdot_apply 36 (by decide)]
  exact Finset.sum_congr rfl fun l _ => congrArg (· * _) (slice2_axis0_apply 36 _ _ (0 : Fin 1) l ⟨36, by decide⟩ rfl)

theorem row_37 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay44 X0 (k0_pay43 (k0_pay2 X0 X1 X3 X4 X2))) (ix2 (0 : Fin 1) d)
      = ∑ l : Fin 512, (k0_pay2 X0 X1 X3 X4 X2) (ix2 (⟨37, by decide⟩ : Fin 64) l) * X0 (ix3 (⟨37, by decide⟩ : Fin 64) l d) := by
  unfold k0_pay44 k0_pay43
  rw [rowdot_apply 37 (by decide)]
  exact Finset.sum_congr rfl fun l _ => congrArg (· * _) (slice2_axis0_apply 37 _ _ (0 : Fin 1) l ⟨37, by decide⟩ rfl)

theorem row_38 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay45 X0 (k0_pay2 X0 X1 X3 X4 X2)) (ix2 (0 : Fin 1) d)
      = ∑ l : Fin 512, (k0_pay2 X0 X1 X3 X4 X2) (ix2 (⟨38, by decide⟩ : Fin 64) l) * X0 (ix3 (⟨38, by decide⟩ : Fin 64) l d) := by
  unfold k0_pay45
  rw [rowdot_apply 38 (by decide)]
  exact Finset.sum_congr rfl fun l _ => congrArg (· * _) (slice2_axis0_apply 38 _ _ (0 : Fin 1) l ⟨38, by decide⟩ rfl)

theorem row_39 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay46 X0 (k0_pay2 X0 X1 X3 X4 X2)) (ix2 (0 : Fin 1) d)
      = ∑ l : Fin 512, (k0_pay2 X0 X1 X3 X4 X2) (ix2 (⟨39, by decide⟩ : Fin 64) l) * X0 (ix3 (⟨39, by decide⟩ : Fin 64) l d) := by
  unfold k0_pay46
  rw [rowdot_apply 39 (by decide)]
  exact Finset.sum_congr rfl fun l _ => congrArg (· * _) (slice2_axis0_apply 39 _ _ (0 : Fin 1) l ⟨39, by decide⟩ rfl)

theorem row_40 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay47 X0 (k0_pay2 X0 X1 X3 X4 X2)) (ix2 (0 : Fin 1) d)
      = ∑ l : Fin 512, (k0_pay2 X0 X1 X3 X4 X2) (ix2 (⟨40, by decide⟩ : Fin 64) l) * X0 (ix3 (⟨40, by decide⟩ : Fin 64) l d) := by
  unfold k0_pay47
  rw [rowdot_apply 40 (by decide)]
  exact Finset.sum_congr rfl fun l _ => congrArg (· * _) (slice2_axis0_apply 40 _ _ (0 : Fin 1) l ⟨40, by decide⟩ rfl)

theorem row_41 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay48 X0 (k0_pay2 X0 X1 X3 X4 X2)) (ix2 (0 : Fin 1) d)
      = ∑ l : Fin 512, (k0_pay2 X0 X1 X3 X4 X2) (ix2 (⟨41, by decide⟩ : Fin 64) l) * X0 (ix3 (⟨41, by decide⟩ : Fin 64) l d) := by
  unfold k0_pay48
  rw [rowdot_apply 41 (by decide)]
  exact Finset.sum_congr rfl fun l _ => congrArg (· * _) (slice2_axis0_apply 41 _ _ (0 : Fin 1) l ⟨41, by decide⟩ rfl)

theorem row_42 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay49 X0 (k0_pay2 X0 X1 X3 X4 X2)) (ix2 (0 : Fin 1) d)
      = ∑ l : Fin 512, (k0_pay2 X0 X1 X3 X4 X2) (ix2 (⟨42, by decide⟩ : Fin 64) l) * X0 (ix3 (⟨42, by decide⟩ : Fin 64) l d) := by
  unfold k0_pay49
  rw [rowdot_apply 42 (by decide)]
  exact Finset.sum_congr rfl fun l _ => congrArg (· * _) (slice2_axis0_apply 42 _ _ (0 : Fin 1) l ⟨42, by decide⟩ rfl)

theorem row_43 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay50 X0 (k0_pay2 X0 X1 X3 X4 X2)) (ix2 (0 : Fin 1) d)
      = ∑ l : Fin 512, (k0_pay2 X0 X1 X3 X4 X2) (ix2 (⟨43, by decide⟩ : Fin 64) l) * X0 (ix3 (⟨43, by decide⟩ : Fin 64) l d) := by
  unfold k0_pay50
  rw [rowdot_apply 43 (by decide)]
  exact Finset.sum_congr rfl fun l _ => congrArg (· * _) (slice2_axis0_apply 43 _ _ (0 : Fin 1) l ⟨43, by decide⟩ rfl)

theorem row_44 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay51 X0 (k0_pay2 X0 X1 X3 X4 X2)) (ix2 (0 : Fin 1) d)
      = ∑ l : Fin 512, (k0_pay2 X0 X1 X3 X4 X2) (ix2 (⟨44, by decide⟩ : Fin 64) l) * X0 (ix3 (⟨44, by decide⟩ : Fin 64) l d) := by
  unfold k0_pay51
  rw [rowdot_apply 44 (by decide)]
  exact Finset.sum_congr rfl fun l _ => congrArg (· * _) (slice2_axis0_apply 44 _ _ (0 : Fin 1) l ⟨44, by decide⟩ rfl)

theorem row_45 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay52 X0 (k0_pay2 X0 X1 X3 X4 X2)) (ix2 (0 : Fin 1) d)
      = ∑ l : Fin 512, (k0_pay2 X0 X1 X3 X4 X2) (ix2 (⟨45, by decide⟩ : Fin 64) l) * X0 (ix3 (⟨45, by decide⟩ : Fin 64) l d) := by
  unfold k0_pay52
  rw [rowdot_apply 45 (by decide)]
  exact Finset.sum_congr rfl fun l _ => congrArg (· * _) (slice2_axis0_apply 45 _ _ (0 : Fin 1) l ⟨45, by decide⟩ rfl)

theorem row_46 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay53 X0 (k0_pay2 X0 X1 X3 X4 X2)) (ix2 (0 : Fin 1) d)
      = ∑ l : Fin 512, (k0_pay2 X0 X1 X3 X4 X2) (ix2 (⟨46, by decide⟩ : Fin 64) l) * X0 (ix3 (⟨46, by decide⟩ : Fin 64) l d) := by
  unfold k0_pay53
  rw [rowdot_apply 46 (by decide)]
  exact Finset.sum_congr rfl fun l _ => congrArg (· * _) (slice2_axis0_apply 46 _ _ (0 : Fin 1) l ⟨46, by decide⟩ rfl)

theorem row_47 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay54 X0 (k0_pay2 X0 X1 X3 X4 X2)) (ix2 (0 : Fin 1) d)
      = ∑ l : Fin 512, (k0_pay2 X0 X1 X3 X4 X2) (ix2 (⟨47, by decide⟩ : Fin 64) l) * X0 (ix3 (⟨47, by decide⟩ : Fin 64) l d) := by
  unfold k0_pay54
  rw [rowdot_apply 47 (by decide)]
  exact Finset.sum_congr rfl fun l _ => congrArg (· * _) (slice2_axis0_apply 47 _ _ (0 : Fin 1) l ⟨47, by decide⟩ rfl)

theorem row_48 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay55 X0 (k0_pay2 X0 X1 X3 X4 X2)) (ix2 (0 : Fin 1) d)
      = ∑ l : Fin 512, (k0_pay2 X0 X1 X3 X4 X2) (ix2 (⟨48, by decide⟩ : Fin 64) l) * X0 (ix3 (⟨48, by decide⟩ : Fin 64) l d) := by
  unfold k0_pay55
  rw [rowdot_apply 48 (by decide)]
  exact Finset.sum_congr rfl fun l _ => congrArg (· * _) (slice2_axis0_apply 48 _ _ (0 : Fin 1) l ⟨48, by decide⟩ rfl)

theorem row_49 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay57 X0 (k0_pay56 (k0_pay2 X0 X1 X3 X4 X2))) (ix2 (0 : Fin 1) d)
      = ∑ l : Fin 512, (k0_pay2 X0 X1 X3 X4 X2) (ix2 (⟨49, by decide⟩ : Fin 64) l) * X0 (ix3 (⟨49, by decide⟩ : Fin 64) l d) := by
  unfold k0_pay57 k0_pay56
  rw [rowdot_apply 49 (by decide)]
  exact Finset.sum_congr rfl fun l _ => congrArg (· * _) (slice2_axis0_apply 49 _ _ (0 : Fin 1) l ⟨49, by decide⟩ rfl)

theorem row_50 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay58 X0 (k0_pay2 X0 X1 X3 X4 X2)) (ix2 (0 : Fin 1) d)
      = ∑ l : Fin 512, (k0_pay2 X0 X1 X3 X4 X2) (ix2 (⟨50, by decide⟩ : Fin 64) l) * X0 (ix3 (⟨50, by decide⟩ : Fin 64) l d) := by
  unfold k0_pay58
  rw [rowdot_apply 50 (by decide)]
  exact Finset.sum_congr rfl fun l _ => congrArg (· * _) (slice2_axis0_apply 50 _ _ (0 : Fin 1) l ⟨50, by decide⟩ rfl)

theorem row_51 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay59 X0 (k0_pay2 X0 X1 X3 X4 X2)) (ix2 (0 : Fin 1) d)
      = ∑ l : Fin 512, (k0_pay2 X0 X1 X3 X4 X2) (ix2 (⟨51, by decide⟩ : Fin 64) l) * X0 (ix3 (⟨51, by decide⟩ : Fin 64) l d) := by
  unfold k0_pay59
  rw [rowdot_apply 51 (by decide)]
  exact Finset.sum_congr rfl fun l _ => congrArg (· * _) (slice2_axis0_apply 51 _ _ (0 : Fin 1) l ⟨51, by decide⟩ rfl)

theorem row_52 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay60 X0 (k0_pay2 X0 X1 X3 X4 X2)) (ix2 (0 : Fin 1) d)
      = ∑ l : Fin 512, (k0_pay2 X0 X1 X3 X4 X2) (ix2 (⟨52, by decide⟩ : Fin 64) l) * X0 (ix3 (⟨52, by decide⟩ : Fin 64) l d) := by
  unfold k0_pay60
  rw [rowdot_apply 52 (by decide)]
  exact Finset.sum_congr rfl fun l _ => congrArg (· * _) (slice2_axis0_apply 52 _ _ (0 : Fin 1) l ⟨52, by decide⟩ rfl)

theorem row_53 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay61 X0 (k0_pay2 X0 X1 X3 X4 X2)) (ix2 (0 : Fin 1) d)
      = ∑ l : Fin 512, (k0_pay2 X0 X1 X3 X4 X2) (ix2 (⟨53, by decide⟩ : Fin 64) l) * X0 (ix3 (⟨53, by decide⟩ : Fin 64) l d) := by
  unfold k0_pay61
  rw [rowdot_apply 53 (by decide)]
  exact Finset.sum_congr rfl fun l _ => congrArg (· * _) (slice2_axis0_apply 53 _ _ (0 : Fin 1) l ⟨53, by decide⟩ rfl)

theorem row_54 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay62 X0 (k0_pay2 X0 X1 X3 X4 X2)) (ix2 (0 : Fin 1) d)
      = ∑ l : Fin 512, (k0_pay2 X0 X1 X3 X4 X2) (ix2 (⟨54, by decide⟩ : Fin 64) l) * X0 (ix3 (⟨54, by decide⟩ : Fin 64) l d) := by
  unfold k0_pay62
  rw [rowdot_apply 54 (by decide)]
  exact Finset.sum_congr rfl fun l _ => congrArg (· * _) (slice2_axis0_apply 54 _ _ (0 : Fin 1) l ⟨54, by decide⟩ rfl)

theorem row_55 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay63 X0 (k0_pay2 X0 X1 X3 X4 X2)) (ix2 (0 : Fin 1) d)
      = ∑ l : Fin 512, (k0_pay2 X0 X1 X3 X4 X2) (ix2 (⟨55, by decide⟩ : Fin 64) l) * X0 (ix3 (⟨55, by decide⟩ : Fin 64) l d) := by
  unfold k0_pay63
  rw [rowdot_apply 55 (by decide)]
  exact Finset.sum_congr rfl fun l _ => congrArg (· * _) (slice2_axis0_apply 55 _ _ (0 : Fin 1) l ⟨55, by decide⟩ rfl)

theorem row_56 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay64 X0 (k0_pay2 X0 X1 X3 X4 X2)) (ix2 (0 : Fin 1) d)
      = ∑ l : Fin 512, (k0_pay2 X0 X1 X3 X4 X2) (ix2 (⟨56, by decide⟩ : Fin 64) l) * X0 (ix3 (⟨56, by decide⟩ : Fin 64) l d) := by
  unfold k0_pay64
  rw [rowdot_apply 56 (by decide)]
  exact Finset.sum_congr rfl fun l _ => congrArg (· * _) (slice2_axis0_apply 56 _ _ (0 : Fin 1) l ⟨56, by decide⟩ rfl)

theorem row_57 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay65 X0 (k0_pay2 X0 X1 X3 X4 X2)) (ix2 (0 : Fin 1) d)
      = ∑ l : Fin 512, (k0_pay2 X0 X1 X3 X4 X2) (ix2 (⟨57, by decide⟩ : Fin 64) l) * X0 (ix3 (⟨57, by decide⟩ : Fin 64) l d) := by
  unfold k0_pay65
  rw [rowdot_apply 57 (by decide)]
  exact Finset.sum_congr rfl fun l _ => congrArg (· * _) (slice2_axis0_apply 57 _ _ (0 : Fin 1) l ⟨57, by decide⟩ rfl)

theorem row_58 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay66 X0 (k0_pay2 X0 X1 X3 X4 X2)) (ix2 (0 : Fin 1) d)
      = ∑ l : Fin 512, (k0_pay2 X0 X1 X3 X4 X2) (ix2 (⟨58, by decide⟩ : Fin 64) l) * X0 (ix3 (⟨58, by decide⟩ : Fin 64) l d) := by
  unfold k0_pay66
  rw [rowdot_apply 58 (by decide)]
  exact Finset.sum_congr rfl fun l _ => congrArg (· * _) (slice2_axis0_apply 58 _ _ (0 : Fin 1) l ⟨58, by decide⟩ rfl)

theorem row_59 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay67 X0 (k0_pay2 X0 X1 X3 X4 X2)) (ix2 (0 : Fin 1) d)
      = ∑ l : Fin 512, (k0_pay2 X0 X1 X3 X4 X2) (ix2 (⟨59, by decide⟩ : Fin 64) l) * X0 (ix3 (⟨59, by decide⟩ : Fin 64) l d) := by
  unfold k0_pay67
  rw [rowdot_apply 59 (by decide)]
  exact Finset.sum_congr rfl fun l _ => congrArg (· * _) (slice2_axis0_apply 59 _ _ (0 : Fin 1) l ⟨59, by decide⟩ rfl)

theorem row_60 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay68 X0 (k0_pay2 X0 X1 X3 X4 X2)) (ix2 (0 : Fin 1) d)
      = ∑ l : Fin 512, (k0_pay2 X0 X1 X3 X4 X2) (ix2 (⟨60, by decide⟩ : Fin 64) l) * X0 (ix3 (⟨60, by decide⟩ : Fin 64) l d) := by
  unfold k0_pay68
  rw [rowdot_apply 60 (by decide)]
  exact Finset.sum_congr rfl fun l _ => congrArg (· * _) (slice2_axis0_apply 60 _ _ (0 : Fin 1) l ⟨60, by decide⟩ rfl)

theorem row_61 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay70 X0 (k0_pay69 (k0_pay2 X0 X1 X3 X4 X2))) (ix2 (0 : Fin 1) d)
      = ∑ l : Fin 512, (k0_pay2 X0 X1 X3 X4 X2) (ix2 (⟨61, by decide⟩ : Fin 64) l) * X0 (ix3 (⟨61, by decide⟩ : Fin 64) l d) := by
  unfold k0_pay70 k0_pay69
  rw [rowdot_apply 61 (by decide)]
  exact Finset.sum_congr rfl fun l _ => congrArg (· * _) (slice2_axis0_apply 61 _ _ (0 : Fin 1) l ⟨61, by decide⟩ rfl)

theorem row_62 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay71 X0 (k0_pay2 X0 X1 X3 X4 X2)) (ix2 (0 : Fin 1) d)
      = ∑ l : Fin 512, (k0_pay2 X0 X1 X3 X4 X2) (ix2 (⟨62, by decide⟩ : Fin 64) l) * X0 (ix3 (⟨62, by decide⟩ : Fin 64) l d) := by
  unfold k0_pay71
  rw [rowdot_apply 62 (by decide)]
  exact Finset.sum_congr rfl fun l _ => congrArg (· * _) (slice2_axis0_apply 62 _ _ (0 : Fin 1) l ⟨62, by decide⟩ rfl)

theorem row_63 (X0 : Vec Ideal S64x512x128 .f32) (X1 : Vec Ideal S64x128 .f32) (X3 : Vec Ideal S128x128 .f32) (X4 : Vec Ideal S1x128 .f32) (X2 : Vec Ideal S64x512 .i32) (d : Fin 128) :
    (k0_pay72 X0 (k0_pay2 X0 X1 X3 X4 X2)) (ix2 (0 : Fin 1) d)
      = ∑ l : Fin 512, (k0_pay2 X0 X1 X3 X4 X2) (ix2 (⟨63, by decide⟩ : Fin 64) l) * X0 (ix3 (⟨63, by decide⟩ : Fin 64) l d) := by
  unfold k0_pay72
  rw [rowdot_apply 63 (by decide)]
  exact Finset.sum_congr rfl fun l _ => congrArg (· * _) (slice2_axis0_apply 63 _ _ (0 : Fin 1) l ⟨63, by decide⟩ rfl)

/-! ## The rows laid end to end -/

/-- The 64 row results, in the body's order. -/
def rowFns (X0 : Vec Ideal S64x512x128 .f32) (X1 : Vec Ideal S64x128 .f32) (X3 : Vec Ideal S128x128 .f32) (X4 : Vec Ideal S1x128 .f32) (X2 : Vec Ideal S64x512 .i32) : List (S1x128.Idx → Ideal .f32) :=
  [(k0_pay3 X0 X1 X3 X4 X2),
   (k0_pay5 X0 (k0_pay4 X0 X1 X3 X4 X2)),
   (k0_pay6 X0 (k0_pay2 X0 X1 X3 X4 X2)),
   (k0_pay7 X0 (k0_pay2 X0 X1 X3 X4 X2)),
   (k0_pay8 X0 (k0_pay2 X0 X1 X3 X4 X2)),
   (k0_pay9 X0 (k0_pay2 X0 X1 X3 X4 X2)),
   (k0_pay10 X0 (k0_pay2 X0 X1 X3 X4 X2)),
   (k0_pay11 X0 (k0_pay2 X0 X1 X3 X4 X2)),
   (k0_pay12 X0 (k0_pay2 X0 X1 X3 X4 X2)),
   (k0_pay13 X0 (k0_pay2 X0 X1 X3 X4 X2)),
   (k0_pay14 X0 (k0_pay2 X0 X1 X3 X4 X2)),
   (k0_pay15 X0 (k0_pay2 X0 X1 X3 X4 X2)),
   (k0_pay16 X0 (k0_pay2 X0 X1 X3 X4 X2)),
   (k0_pay18 X0 (k0_pay17 (k0_pay2 X0 X1 X3 X4 X2))),
   (k0_pay19 X0 (k0_pay2 X0 X1 X3 X4 X2)),
   (k0_pay20 X0 (k0_pay2 X0 X1 X3 X4 X2)),
   (k0_pay21 X0 (k0_pay2 X0 X1 X3 X4 X2)),
   (k0_pay22 X0 (k0_pay2 X0 X1 X3 X4 X2)),
   (k0_pay23 X0 (k0_pay2 X0 X1 X3 X4 X2)),
   (k0_pay24 X0 (k0_pay2 X0 X1 X3 X4 X2)),
   (k0_pay25 X0 (k0_pay2 X0 X1 X3 X4 X2)),
   (k0_pay26 X0 (k0_pay2 X0 X1 X3 X4 X2)),
   (k0_pay27 X0 (k0_pay2 X0 X1 X3 X4 X2)),
   (k0_pay28 X0 (k0_pay2 X0 X1 X3 X4 X2)),
   (k0_pay29 X0 (k0_pay2 X0 X1 X3 X4 X2)),
   (k0_pay31 X0 (k0_pay30 (k0_pay2 X0 X1 X3 X4 X2))),
   (k0_pay32 X0 (k0_pay2 X0 X1 X3 X4 X2)),
   (k0_pay33 X0 (k0_pay2 X0 X1 X3 X4 X2)),
   (k0_pay34 X0 (k0_pay2 X0 X1 X3 X4 X2)),
   (k0_pay35 X0 (k0_pay2 X0 X1 X3 X4 X2)),
   (k0_pay36 X0 (k0_pay2 X0 X1 X3 X4 X2)),
   (k0_pay37 X0 (k0_pay2 X0 X1 X3 X4 X2)),
   (k0_pay38 X0 (k0_pay2 X0 X1 X3 X4 X2)),
   (k0_pay39 X0 (k0_pay2 X0 X1 X3 X4 X2)),
   (k0_pay40 X0 (k0_pay2 X0 X1 X3 X4 X2)),
   (k0_pay41 X0 (k0_pay2 X0 X1 X3 X4 X2)),
   (k0_pay42 X0 (k0_pay2 X0 X1 X3 X4 X2)),
   (k0_pay44 X0 (k0_pay43 (k0_pay2 X0 X1 X3 X4 X2))),
   (k0_pay45 X0 (k0_pay2 X0 X1 X3 X4 X2)),
   (k0_pay46 X0 (k0_pay2 X0 X1 X3 X4 X2)),
   (k0_pay47 X0 (k0_pay2 X0 X1 X3 X4 X2)),
   (k0_pay48 X0 (k0_pay2 X0 X1 X3 X4 X2)),
   (k0_pay49 X0 (k0_pay2 X0 X1 X3 X4 X2)),
   (k0_pay50 X0 (k0_pay2 X0 X1 X3 X4 X2)),
   (k0_pay51 X0 (k0_pay2 X0 X1 X3 X4 X2)),
   (k0_pay52 X0 (k0_pay2 X0 X1 X3 X4 X2)),
   (k0_pay53 X0 (k0_pay2 X0 X1 X3 X4 X2)),
   (k0_pay54 X0 (k0_pay2 X0 X1 X3 X4 X2)),
   (k0_pay55 X0 (k0_pay2 X0 X1 X3 X4 X2)),
   (k0_pay57 X0 (k0_pay56 (k0_pay2 X0 X1 X3 X4 X2))),
   (k0_pay58 X0 (k0_pay2 X0 X1 X3 X4 X2)),
   (k0_pay59 X0 (k0_pay2 X0 X1 X3 X4 X2)),
   (k0_pay60 X0 (k0_pay2 X0 X1 X3 X4 X2)),
   (k0_pay61 X0 (k0_pay2 X0 X1 X3 X4 X2)),
   (k0_pay62 X0 (k0_pay2 X0 X1 X3 X4 X2)),
   (k0_pay63 X0 (k0_pay2 X0 X1 X3 X4 X2)),
   (k0_pay64 X0 (k0_pay2 X0 X1 X3 X4 X2)),
   (k0_pay65 X0 (k0_pay2 X0 X1 X3 X4 X2)),
   (k0_pay66 X0 (k0_pay2 X0 X1 X3 X4 X2)),
   (k0_pay67 X0 (k0_pay2 X0 X1 X3 X4 X2)),
   (k0_pay68 X0 (k0_pay2 X0 X1 X3 X4 X2)),
   (k0_pay70 X0 (k0_pay69 (k0_pay2 X0 X1 X3 X4 X2))),
   (k0_pay71 X0 (k0_pay2 X0 X1 X3 X4 X2)),
   (k0_pay72 X0 (k0_pay2 X0 X1 X3 X4 X2))]

theorem rowFns_length (X0 : Vec Ideal S64x512x128 .f32) (X1 : Vec Ideal S64x128 .f32) (X3 : Vec Ideal S128x128 .f32) (X4 : Vec Ideal S1x128 .f32) (X2 : Vec Ideal S64x512 .i32) : (rowFns X0 X1 X3 X4 X2).length = 64 := rfl

/-- THE POOLED BLOCK: entry (r, d) of the 64 row results laid end to end is Σ_l α(r, l) · x(r, l, d). -/
theorem pooled_apply (X0 : Vec Ideal S64x512x128 .f32) (X1 : Vec Ideal S64x128 .f32) (X3 : Vec Ideal S128x128 .f32) (X4 : Vec Ideal S1x128 .f32) (X2 : Vec Ideal S64x512 .i32)
    (h : Shape.Concatenates (([⟨S1x128, (k0_pay3 X0 X1 X3 X4 X2)⟩,
   ⟨S1x128, (k0_pay5 X0 (k0_pay4 X0 X1 X3 X4 X2))⟩,
   ⟨S1x128, (k0_pay6 X0 (k0_pay2 X0 X1 X3 X4 X2))⟩,
   ⟨S1x128, (k0_pay7 X0 (k0_pay2 X0 X1 X3 X4 X2))⟩,
   ⟨S1x128, (k0_pay8 X0 (k0_pay2 X0 X1 X3 X4 X2))⟩,
   ⟨S1x128, (k0_pay9 X0 (k0_pay2 X0 X1 X3 X4 X2))⟩,
   ⟨S1x128, (k0_pay10 X0 (k0_pay2 X0 X1 X3 X4 X2))⟩,
   ⟨S1x128, (k0_pay11 X0 (k0_pay2 X0 X1 X3 X4 X2))⟩,
   ⟨S1x128, (k0_pay12 X0 (k0_pay2 X0 X1 X3 X4 X2))⟩,
   ⟨S1x128, (k0_pay13 X0 (k0_pay2 X0 X1 X3 X4 X2))⟩,
   ⟨S1x128, (k0_pay14 X0 (k0_pay2 X0 X1 X3 X4 X2))⟩,
   ⟨S1x128, (k0_pay15 X0 (k0_pay2 X0 X1 X3 X4 X2))⟩,
   ⟨S1x128, (k0_pay16 X0 (k0_pay2 X0 X1 X3 X4 X2))⟩,
   ⟨S1x128, (k0_pay18 X0 (k0_pay17 (k0_pay2 X0 X1 X3 X4 X2)))⟩,
   ⟨S1x128, (k0_pay19 X0 (k0_pay2 X0 X1 X3 X4 X2))⟩,
   ⟨S1x128, (k0_pay20 X0 (k0_pay2 X0 X1 X3 X4 X2))⟩,
   ⟨S1x128, (k0_pay21 X0 (k0_pay2 X0 X1 X3 X4 X2))⟩,
   ⟨S1x128, (k0_pay22 X0 (k0_pay2 X0 X1 X3 X4 X2))⟩,
   ⟨S1x128, (k0_pay23 X0 (k0_pay2 X0 X1 X3 X4 X2))⟩,
   ⟨S1x128, (k0_pay24 X0 (k0_pay2 X0 X1 X3 X4 X2))⟩,
   ⟨S1x128, (k0_pay25 X0 (k0_pay2 X0 X1 X3 X4 X2))⟩,
   ⟨S1x128, (k0_pay26 X0 (k0_pay2 X0 X1 X3 X4 X2))⟩,
   ⟨S1x128, (k0_pay27 X0 (k0_pay2 X0 X1 X3 X4 X2))⟩,
   ⟨S1x128, (k0_pay28 X0 (k0_pay2 X0 X1 X3 X4 X2))⟩,
   ⟨S1x128, (k0_pay29 X0 (k0_pay2 X0 X1 X3 X4 X2))⟩,
   ⟨S1x128, (k0_pay31 X0 (k0_pay30 (k0_pay2 X0 X1 X3 X4 X2)))⟩,
   ⟨S1x128, (k0_pay32 X0 (k0_pay2 X0 X1 X3 X4 X2))⟩,
   ⟨S1x128, (k0_pay33 X0 (k0_pay2 X0 X1 X3 X4 X2))⟩,
   ⟨S1x128, (k0_pay34 X0 (k0_pay2 X0 X1 X3 X4 X2))⟩,
   ⟨S1x128, (k0_pay35 X0 (k0_pay2 X0 X1 X3 X4 X2))⟩,
   ⟨S1x128, (k0_pay36 X0 (k0_pay2 X0 X1 X3 X4 X2))⟩,
   ⟨S1x128, (k0_pay37 X0 (k0_pay2 X0 X1 X3 X4 X2))⟩,
   ⟨S1x128, (k0_pay38 X0 (k0_pay2 X0 X1 X3 X4 X2))⟩,
   ⟨S1x128, (k0_pay39 X0 (k0_pay2 X0 X1 X3 X4 X2))⟩,
   ⟨S1x128, (k0_pay40 X0 (k0_pay2 X0 X1 X3 X4 X2))⟩,
   ⟨S1x128, (k0_pay41 X0 (k0_pay2 X0 X1 X3 X4 X2))⟩,
   ⟨S1x128, (k0_pay42 X0 (k0_pay2 X0 X1 X3 X4 X2))⟩,
   ⟨S1x128, (k0_pay44 X0 (k0_pay43 (k0_pay2 X0 X1 X3 X4 X2)))⟩,
   ⟨S1x128, (k0_pay45 X0 (k0_pay2 X0 X1 X3 X4 X2))⟩,
   ⟨S1x128, (k0_pay46 X0 (k0_pay2 X0 X1 X3 X4 X2))⟩,
   ⟨S1x128, (k0_pay47 X0 (k0_pay2 X0 X1 X3 X4 X2))⟩,
   ⟨S1x128, (k0_pay48 X0 (k0_pay2 X0 X1 X3 X4 X2))⟩,
   ⟨S1x128, (k0_pay49 X0 (k0_pay2 X0 X1 X3 X4 X2))⟩,
   ⟨S1x128, (k0_pay50 X0 (k0_pay2 X0 X1 X3 X4 X2))⟩,
   ⟨S1x128, (k0_pay51 X0 (k0_pay2 X0 X1 X3 X4 X2))⟩,
   ⟨S1x128, (k0_pay52 X0 (k0_pay2 X0 X1 X3 X4 X2))⟩,
   ⟨S1x128, (k0_pay53 X0 (k0_pay2 X0 X1 X3 X4 X2))⟩,
   ⟨S1x128, (k0_pay54 X0 (k0_pay2 X0 X1 X3 X4 X2))⟩,
   ⟨S1x128, (k0_pay55 X0 (k0_pay2 X0 X1 X3 X4 X2))⟩,
   ⟨S1x128, (k0_pay57 X0 (k0_pay56 (k0_pay2 X0 X1 X3 X4 X2)))⟩,
   ⟨S1x128, (k0_pay58 X0 (k0_pay2 X0 X1 X3 X4 X2))⟩,
   ⟨S1x128, (k0_pay59 X0 (k0_pay2 X0 X1 X3 X4 X2))⟩,
   ⟨S1x128, (k0_pay60 X0 (k0_pay2 X0 X1 X3 X4 X2))⟩,
   ⟨S1x128, (k0_pay61 X0 (k0_pay2 X0 X1 X3 X4 X2))⟩,
   ⟨S1x128, (k0_pay62 X0 (k0_pay2 X0 X1 X3 X4 X2))⟩,
   ⟨S1x128, (k0_pay63 X0 (k0_pay2 X0 X1 X3 X4 X2))⟩,
   ⟨S1x128, (k0_pay64 X0 (k0_pay2 X0 X1 X3 X4 X2))⟩,
   ⟨S1x128, (k0_pay65 X0 (k0_pay2 X0 X1 X3 X4 X2))⟩,
   ⟨S1x128, (k0_pay66 X0 (k0_pay2 X0 X1 X3 X4 X2))⟩,
   ⟨S1x128, (k0_pay67 X0 (k0_pay2 X0 X1 X3 X4 X2))⟩,
   ⟨S1x128, (k0_pay68 X0 (k0_pay2 X0 X1 X3 X4 X2))⟩,
   ⟨S1x128, (k0_pay70 X0 (k0_pay69 (k0_pay2 X0 X1 X3 X4 X2)))⟩,
   ⟨S1x128, (k0_pay71 X0 (k0_pay2 X0 X1 X3 X4 X2))⟩,
   ⟨S1x128, (k0_pay72 X0 (k0_pay2 X0 X1 X3 X4 X2))⟩] : List ((s : Shape) × (s.Idx → Ideal .f32))).map (·.1)) S64x128 (0 : Fin 2))
    (r : Fin 64) (d : Fin 128) :
    concatenate S64x128 0 ([⟨S1x128, (k0_pay3 X0 X1 X3 X4 X2)⟩,
   ⟨S1x128, (k0_pay5 X0 (k0_pay4 X0 X1 X3 X4 X2))⟩,
   ⟨S1x128, (k0_pay6 X0 (k0_pay2 X0 X1 X3 X4 X2))⟩,
   ⟨S1x128, (k0_pay7 X0 (k0_pay2 X0 X1 X3 X4 X2))⟩,
   ⟨S1x128, (k0_pay8 X0 (k0_pay2 X0 X1 X3 X4 X2))⟩,
   ⟨S1x128, (k0_pay9 X0 (k0_pay2 X0 X1 X3 X4 X2))⟩,
   ⟨S1x128, (k0_pay10 X0 (k0_pay2 X0 X1 X3 X4 X2))⟩,
   ⟨S1x128, (k0_pay11 X0 (k0_pay2 X0 X1 X3 X4 X2))⟩,
   ⟨S1x128, (k0_pay12 X0 (k0_pay2 X0 X1 X3 X4 X2))⟩,
   ⟨S1x128, (k0_pay13 X0 (k0_pay2 X0 X1 X3 X4 X2))⟩,
   ⟨S1x128, (k0_pay14 X0 (k0_pay2 X0 X1 X3 X4 X2))⟩,
   ⟨S1x128, (k0_pay15 X0 (k0_pay2 X0 X1 X3 X4 X2))⟩,
   ⟨S1x128, (k0_pay16 X0 (k0_pay2 X0 X1 X3 X4 X2))⟩,
   ⟨S1x128, (k0_pay18 X0 (k0_pay17 (k0_pay2 X0 X1 X3 X4 X2)))⟩,
   ⟨S1x128, (k0_pay19 X0 (k0_pay2 X0 X1 X3 X4 X2))⟩,
   ⟨S1x128, (k0_pay20 X0 (k0_pay2 X0 X1 X3 X4 X2))⟩,
   ⟨S1x128, (k0_pay21 X0 (k0_pay2 X0 X1 X3 X4 X2))⟩,
   ⟨S1x128, (k0_pay22 X0 (k0_pay2 X0 X1 X3 X4 X2))⟩,
   ⟨S1x128, (k0_pay23 X0 (k0_pay2 X0 X1 X3 X4 X2))⟩,
   ⟨S1x128, (k0_pay24 X0 (k0_pay2 X0 X1 X3 X4 X2))⟩,
   ⟨S1x128, (k0_pay25 X0 (k0_pay2 X0 X1 X3 X4 X2))⟩,
   ⟨S1x128, (k0_pay26 X0 (k0_pay2 X0 X1 X3 X4 X2))⟩,
   ⟨S1x128, (k0_pay27 X0 (k0_pay2 X0 X1 X3 X4 X2))⟩,
   ⟨S1x128, (k0_pay28 X0 (k0_pay2 X0 X1 X3 X4 X2))⟩,
   ⟨S1x128, (k0_pay29 X0 (k0_pay2 X0 X1 X3 X4 X2))⟩,
   ⟨S1x128, (k0_pay31 X0 (k0_pay30 (k0_pay2 X0 X1 X3 X4 X2)))⟩,
   ⟨S1x128, (k0_pay32 X0 (k0_pay2 X0 X1 X3 X4 X2))⟩,
   ⟨S1x128, (k0_pay33 X0 (k0_pay2 X0 X1 X3 X4 X2))⟩,
   ⟨S1x128, (k0_pay34 X0 (k0_pay2 X0 X1 X3 X4 X2))⟩,
   ⟨S1x128, (k0_pay35 X0 (k0_pay2 X0 X1 X3 X4 X2))⟩,
   ⟨S1x128, (k0_pay36 X0 (k0_pay2 X0 X1 X3 X4 X2))⟩,
   ⟨S1x128, (k0_pay37 X0 (k0_pay2 X0 X1 X3 X4 X2))⟩,
   ⟨S1x128, (k0_pay38 X0 (k0_pay2 X0 X1 X3 X4 X2))⟩,
   ⟨S1x128, (k0_pay39 X0 (k0_pay2 X0 X1 X3 X4 X2))⟩,
   ⟨S1x128, (k0_pay40 X0 (k0_pay2 X0 X1 X3 X4 X2))⟩,
   ⟨S1x128, (k0_pay41 X0 (k0_pay2 X0 X1 X3 X4 X2))⟩,
   ⟨S1x128, (k0_pay42 X0 (k0_pay2 X0 X1 X3 X4 X2))⟩,
   ⟨S1x128, (k0_pay44 X0 (k0_pay43 (k0_pay2 X0 X1 X3 X4 X2)))⟩,
   ⟨S1x128, (k0_pay45 X0 (k0_pay2 X0 X1 X3 X4 X2))⟩,
   ⟨S1x128, (k0_pay46 X0 (k0_pay2 X0 X1 X3 X4 X2))⟩,
   ⟨S1x128, (k0_pay47 X0 (k0_pay2 X0 X1 X3 X4 X2))⟩,
   ⟨S1x128, (k0_pay48 X0 (k0_pay2 X0 X1 X3 X4 X2))⟩,
   ⟨S1x128, (k0_pay49 X0 (k0_pay2 X0 X1 X3 X4 X2))⟩,
   ⟨S1x128, (k0_pay50 X0 (k0_pay2 X0 X1 X3 X4 X2))⟩,
   ⟨S1x128, (k0_pay51 X0 (k0_pay2 X0 X1 X3 X4 X2))⟩,
   ⟨S1x128, (k0_pay52 X0 (k0_pay2 X0 X1 X3 X4 X2))⟩,
   ⟨S1x128, (k0_pay53 X0 (k0_pay2 X0 X1 X3 X4 X2))⟩,
   ⟨S1x128, (k0_pay54 X0 (k0_pay2 X0 X1 X3 X4 X2))⟩,
   ⟨S1x128, (k0_pay55 X0 (k0_pay2 X0 X1 X3 X4 X2))⟩,
   ⟨S1x128, (k0_pay57 X0 (k0_pay56 (k0_pay2 X0 X1 X3 X4 X2)))⟩,
   ⟨S1x128, (k0_pay58 X0 (k0_pay2 X0 X1 X3 X4 X2))⟩,
   ⟨S1x128, (k0_pay59 X0 (k0_pay2 X0 X1 X3 X4 X2))⟩,
   ⟨S1x128, (k0_pay60 X0 (k0_pay2 X0 X1 X3 X4 X2))⟩,
   ⟨S1x128, (k0_pay61 X0 (k0_pay2 X0 X1 X3 X4 X2))⟩,
   ⟨S1x128, (k0_pay62 X0 (k0_pay2 X0 X1 X3 X4 X2))⟩,
   ⟨S1x128, (k0_pay63 X0 (k0_pay2 X0 X1 X3 X4 X2))⟩,
   ⟨S1x128, (k0_pay64 X0 (k0_pay2 X0 X1 X3 X4 X2))⟩,
   ⟨S1x128, (k0_pay65 X0 (k0_pay2 X0 X1 X3 X4 X2))⟩,
   ⟨S1x128, (k0_pay66 X0 (k0_pay2 X0 X1 X3 X4 X2))⟩,
   ⟨S1x128, (k0_pay67 X0 (k0_pay2 X0 X1 X3 X4 X2))⟩,
   ⟨S1x128, (k0_pay68 X0 (k0_pay2 X0 X1 X3 X4 X2))⟩,
   ⟨S1x128, (k0_pay70 X0 (k0_pay69 (k0_pay2 X0 X1 X3 X4 X2)))⟩,
   ⟨S1x128, (k0_pay71 X0 (k0_pay2 X0 X1 X3 X4 X2))⟩,
   ⟨S1x128, (k0_pay72 X0 (k0_pay2 X0 X1 X3 X4 X2))⟩] : List ((s : Shape) × (s.Idx → Ideal .f32))) h (ix2 r d)
      = ∑ l : Fin 512, (k0_pay2 X0 X1 X3 X4 X2) (ix2 r l) * X0 (ix3 r l d) := by
  have e : ([⟨S1x128, (k0_pay3 X0 X1 X3 X4 X2)⟩,
   ⟨S1x128, (k0_pay5 X0 (k0_pay4 X0 X1 X3 X4 X2))⟩,
   ⟨S1x128, (k0_pay6 X0 (k0_pay2 X0 X1 X3 X4 X2))⟩,
   ⟨S1x128, (k0_pay7 X0 (k0_pay2 X0 X1 X3 X4 X2))⟩,
   ⟨S1x128, (k0_pay8 X0 (k0_pay2 X0 X1 X3 X4 X2))⟩,
   ⟨S1x128, (k0_pay9 X0 (k0_pay2 X0 X1 X3 X4 X2))⟩,
   ⟨S1x128, (k0_pay10 X0 (k0_pay2 X0 X1 X3 X4 X2))⟩,
   ⟨S1x128, (k0_pay11 X0 (k0_pay2 X0 X1 X3 X4 X2))⟩,
   ⟨S1x128, (k0_pay12 X0 (k0_pay2 X0 X1 X3 X4 X2))⟩,
   ⟨S1x128, (k0_pay13 X0 (k0_pay2 X0 X1 X3 X4 X2))⟩,
   ⟨S1x128, (k0_pay14 X0 (k0_pay2 X0 X1 X3 X4 X2))⟩,
   ⟨S1x128, (k0_pay15 X0 (k0_pay2 X0 X1 X3 X4 X2))⟩,
   ⟨S1x128, (k0_pay16 X0 (k0_pay2 X0 X1 X3 X4 X2))⟩,
   ⟨S1x128, (k0_pay18 X0 (k0_pay17 (k0_pay2 X0 X1 X3 X4 X2)))⟩,
   ⟨S1x128, (k0_pay19 X0 (k0_pay2 X0 X1 X3 X4 X2))⟩,
   ⟨S1x128, (k0_pay20 X0 (k0_pay2 X0 X1 X3 X4 X2))⟩,
   ⟨S1x128, (k0_pay21 X0 (k0_pay2 X0 X1 X3 X4 X2))⟩,
   ⟨S1x128, (k0_pay22 X0 (k0_pay2 X0 X1 X3 X4 X2))⟩,
   ⟨S1x128, (k0_pay23 X0 (k0_pay2 X0 X1 X3 X4 X2))⟩,
   ⟨S1x128, (k0_pay24 X0 (k0_pay2 X0 X1 X3 X4 X2))⟩,
   ⟨S1x128, (k0_pay25 X0 (k0_pay2 X0 X1 X3 X4 X2))⟩,
   ⟨S1x128, (k0_pay26 X0 (k0_pay2 X0 X1 X3 X4 X2))⟩,
   ⟨S1x128, (k0_pay27 X0 (k0_pay2 X0 X1 X3 X4 X2))⟩,
   ⟨S1x128, (k0_pay28 X0 (k0_pay2 X0 X1 X3 X4 X2))⟩,
   ⟨S1x128, (k0_pay29 X0 (k0_pay2 X0 X1 X3 X4 X2))⟩,
   ⟨S1x128, (k0_pay31 X0 (k0_pay30 (k0_pay2 X0 X1 X3 X4 X2)))⟩,
   ⟨S1x128, (k0_pay32 X0 (k0_pay2 X0 X1 X3 X4 X2))⟩,
   ⟨S1x128, (k0_pay33 X0 (k0_pay2 X0 X1 X3 X4 X2))⟩,
   ⟨S1x128, (k0_pay34 X0 (k0_pay2 X0 X1 X3 X4 X2))⟩,
   ⟨S1x128, (k0_pay35 X0 (k0_pay2 X0 X1 X3 X4 X2))⟩,
   ⟨S1x128, (k0_pay36 X0 (k0_pay2 X0 X1 X3 X4 X2))⟩,
   ⟨S1x128, (k0_pay37 X0 (k0_pay2 X0 X1 X3 X4 X2))⟩,
   ⟨S1x128, (k0_pay38 X0 (k0_pay2 X0 X1 X3 X4 X2))⟩,
   ⟨S1x128, (k0_pay39 X0 (k0_pay2 X0 X1 X3 X4 X2))⟩,
   ⟨S1x128, (k0_pay40 X0 (k0_pay2 X0 X1 X3 X4 X2))⟩,
   ⟨S1x128, (k0_pay41 X0 (k0_pay2 X0 X1 X3 X4 X2))⟩,
   ⟨S1x128, (k0_pay42 X0 (k0_pay2 X0 X1 X3 X4 X2))⟩,
   ⟨S1x128, (k0_pay44 X0 (k0_pay43 (k0_pay2 X0 X1 X3 X4 X2)))⟩,
   ⟨S1x128, (k0_pay45 X0 (k0_pay2 X0 X1 X3 X4 X2))⟩,
   ⟨S1x128, (k0_pay46 X0 (k0_pay2 X0 X1 X3 X4 X2))⟩,
   ⟨S1x128, (k0_pay47 X0 (k0_pay2 X0 X1 X3 X4 X2))⟩,
   ⟨S1x128, (k0_pay48 X0 (k0_pay2 X0 X1 X3 X4 X2))⟩,
   ⟨S1x128, (k0_pay49 X0 (k0_pay2 X0 X1 X3 X4 X2))⟩,
   ⟨S1x128, (k0_pay50 X0 (k0_pay2 X0 X1 X3 X4 X2))⟩,
   ⟨S1x128, (k0_pay51 X0 (k0_pay2 X0 X1 X3 X4 X2))⟩,
   ⟨S1x128, (k0_pay52 X0 (k0_pay2 X0 X1 X3 X4 X2))⟩,
   ⟨S1x128, (k0_pay53 X0 (k0_pay2 X0 X1 X3 X4 X2))⟩,
   ⟨S1x128, (k0_pay54 X0 (k0_pay2 X0 X1 X3 X4 X2))⟩,
   ⟨S1x128, (k0_pay55 X0 (k0_pay2 X0 X1 X3 X4 X2))⟩,
   ⟨S1x128, (k0_pay57 X0 (k0_pay56 (k0_pay2 X0 X1 X3 X4 X2)))⟩,
   ⟨S1x128, (k0_pay58 X0 (k0_pay2 X0 X1 X3 X4 X2))⟩,
   ⟨S1x128, (k0_pay59 X0 (k0_pay2 X0 X1 X3 X4 X2))⟩,
   ⟨S1x128, (k0_pay60 X0 (k0_pay2 X0 X1 X3 X4 X2))⟩,
   ⟨S1x128, (k0_pay61 X0 (k0_pay2 X0 X1 X3 X4 X2))⟩,
   ⟨S1x128, (k0_pay62 X0 (k0_pay2 X0 X1 X3 X4 X2))⟩,
   ⟨S1x128, (k0_pay63 X0 (k0_pay2 X0 X1 X3 X4 X2))⟩,
   ⟨S1x128, (k0_pay64 X0 (k0_pay2 X0 X1 X3 X4 X2))⟩,
   ⟨S1x128, (k0_pay65 X0 (k0_pay2 X0 X1 X3 X4 X2))⟩,
   ⟨S1x128, (k0_pay66 X0 (k0_pay2 X0 X1 X3 X4 X2))⟩,
   ⟨S1x128, (k0_pay67 X0 (k0_pay2 X0 X1 X3 X4 X2))⟩,
   ⟨S1x128, (k0_pay68 X0 (k0_pay2 X0 X1 X3 X4 X2))⟩,
   ⟨S1x128, (k0_pay70 X0 (k0_pay69 (k0_pay2 X0 X1 X3 X4 X2)))⟩,
   ⟨S1x128, (k0_pay71 X0 (k0_pay2 X0 X1 X3 X4 X2))⟩,
   ⟨S1x128, (k0_pay72 X0 (k0_pay2 X0 X1 X3 X4 X2))⟩] : List ((s : Shape) × (s.Idx → Ideal .f32)))
      = (rowFns X0 X1 X3 X4 X2).map (fun p => (⟨S1x128, p⟩ : (s : Shape) × (s.Idx → Ideal .f32))) := rfl
  revert h
  rw [e]
  intro h
  rw [Cert.LibConcatRows.concat_rows_apply (t := S64x128) (s₁ := S1x128) (0 : Fin 2) (rowFns X0 X1 X3 X4 X2) h rfl rfl (ix2 r d) r.val
    (by rw [rowFns_length]; exact r.isLt) rfl (ix2 (0 : Fin 1) d) (fun b hb => by
      match b with
      | ⟨0, _⟩ => exact absurd rfl hb
      | ⟨1, _⟩ => rfl)]
  match r with
  | ⟨0, _⟩ => exact row_0 X0 X1 X3 X4 X2 d
  | ⟨1, _⟩ => exact row_1 X0 X1 X3 X4 X2 d
  | ⟨2, _⟩ => exact row_2 X0 X1 X3 X4 X2 d
  | ⟨3, _⟩ => exact row_3 X0 X1 X3 X4 X2 d
  | ⟨4, _⟩ => exact row_4 X0 X1 X3 X4 X2 d
  | ⟨5, _⟩ => exact row_5 X0 X1 X3 X4 X2 d
  | ⟨6, _⟩ => exact row_6 X0 X1 X3 X4 X2 d
  | ⟨7, _⟩ => exact row_7 X0 X1 X3 X4 X2 d
  | ⟨8, _⟩ => exact row_8 X0 X1 X3 X4 X2 d
  | ⟨9, _⟩ => exact row_9 X0 X1 X3 X4 X2 d
  | ⟨10, _⟩ => exact row_10 X0 X1 X3 X4 X2 d
  | ⟨11, _⟩ => exact row_11 X0 X1 X3 X4 X2 d
  | ⟨12, _⟩ => exact row_12 X0 X1 X3 X4 X2 d
  | ⟨13, _⟩ => exact row_13 X0 X1 X3 X4 X2 d
  | ⟨14, _⟩ => exact row_14 X0 X1 X3 X4 X2 d
  | ⟨15, _⟩ => exact row_15 X0 X1 X3 X4 X2 d
  | ⟨16, _⟩ => exact row_16 X0 X1 X3 X4 X2 d
  | ⟨17, _⟩ => exact row_17 X0 X1 X3 X4 X2 d
  | ⟨18, _⟩ => exact row_18 X0 X1 X3 X4 X2 d
  | ⟨19, _⟩ => exact row_19 X0 X1 X3 X4 X2 d
  | ⟨20, _⟩ => exact row_20 X0 X1 X3 X4 X2 d
  | ⟨21, _⟩ => exact row_21 X0 X1 X3 X4 X2 d
  | ⟨22, _⟩ => exact row_22 X0 X1 X3 X4 X2 d
  | ⟨23, _⟩ => exact row_23 X0 X1 X3 X4 X2 d
  | ⟨24, _⟩ => exact row_24 X0 X1 X3 X4 X2 d
  | ⟨25, _⟩ => exact row_25 X0 X1 X3 X4 X2 d
  | ⟨26, _⟩ => exact row_26 X0 X1 X3 X4 X2 d
  | ⟨27, _⟩ => exact row_27 X0 X1 X3 X4 X2 d
  | ⟨28, _⟩ => exact row_28 X0 X1 X3 X4 X2 d
  | ⟨29, _⟩ => exact row_29 X0 X1 X3 X4 X2 d
  | ⟨30, _⟩ => exact row_30 X0 X1 X3 X4 X2 d
  | ⟨31, _⟩ => exact row_31 X0 X1 X3 X4 X2 d
  | ⟨32, _⟩ => exact row_32 X0 X1 X3 X4 X2 d
  | ⟨33, _⟩ => exact row_33 X0 X1 X3 X4 X2 d
  | ⟨34, _⟩ => exact row_34 X0 X1 X3 X4 X2 d
  | ⟨35, _⟩ => exact row_35 X0 X1 X3 X4 X2 d
  | ⟨36, _⟩ => exact row_36 X0 X1 X3 X4 X2 d
  | ⟨37, _⟩ => exact row_37 X0 X1 X3 X4 X2 d
  | ⟨38, _⟩ => exact row_38 X0 X1 X3 X4 X2 d
  | ⟨39, _⟩ => exact row_39 X0 X1 X3 X4 X2 d
  | ⟨40, _⟩ => exact row_40 X0 X1 X3 X4 X2 d
  | ⟨41, _⟩ => exact row_41 X0 X1 X3 X4 X2 d
  | ⟨42, _⟩ => exact row_42 X0 X1 X3 X4 X2 d
  | ⟨43, _⟩ => exact row_43 X0 X1 X3 X4 X2 d
  | ⟨44, _⟩ => exact row_44 X0 X1 X3 X4 X2 d
  | ⟨45, _⟩ => exact row_45 X0 X1 X3 X4 X2 d
  | ⟨46, _⟩ => exact row_46 X0 X1 X3 X4 X2 d
  | ⟨47, _⟩ => exact row_47 X0 X1 X3 X4 X2 d
  | ⟨48, _⟩ => exact row_48 X0 X1 X3 X4 X2 d
  | ⟨49, _⟩ => exact row_49 X0 X1 X3 X4 X2 d
  | ⟨50, _⟩ => exact row_50 X0 X1 X3 X4 X2 d
  | ⟨51, _⟩ => exact row_51 X0 X1 X3 X4 X2 d
  | ⟨52, _⟩ => exact row_52 X0 X1 X3 X4 X2 d
  | ⟨53, _⟩ => exact row_53 X0 X1 X3 X4 X2 d
  | ⟨54, _⟩ => exact row_54 X0 X1 X3 X4 X2 d
  | ⟨55, _⟩ => exact row_55 X0 X1 X3 X4 X2 d
  | ⟨56, _⟩ => exact row_56 X0 X1 X3 X4 X2 d
  | ⟨57, _⟩ => exact row_57 X0 X1 X3 X4 X2 d
  | ⟨58, _⟩ => exact row_58 X0 X1 X3 X4 X2 d
  | ⟨59, _⟩ => exact row_59 X0 X1 X3 X4 X2 d
  | ⟨60, _⟩ => exact row_60 X0 X1 X3 X4 X2 d
  | ⟨61, _⟩ => exact row_61 X0 X1 X3 X4 X2 d
  | ⟨62, _⟩ => exact row_62 X0 X1 X3 X4 X2 d
  | ⟨63, _⟩ => exact row_63 X0 X1 X3 X4 X2 d
  | ⟨n + 64, hn⟩ => exact absurd hn (by omega)

end Cert.KernelIdeal.Rows

end
-- ==== Proof.KernelGru.lean ====
/-
  The kernel's GRU cell, read at an entry. Both projections are taken at full width, 128 → 384 with the bias row added,
  and the reset, update and candidate parts are the column blocks starting at 0, 128 and 256; entry (r, j) of the new
  state is the cell's formula at coordinate j over row r's pooled input and row r's question vector.
-/
import proofs.«178400_g2000600068933849_pallasbulk_201_25_alg».proof.Proof.Gen.KernelIdeal.Skeleton
import proofs.«178400_g2000600068933849_pallasbulk_201_25_alg».proof.Proof.LibSoftmaxRows
import Idealize.ShloMosaic.Lib.ValueLayout

noncomputable section

namespace Cert.KernelIdeal.Rows

open Cert.KernelIdeal Cert.KernelIdeal.Gen Idealize.ShloMosaic Idealize.ShloMosaic.ValueIdx Cert.AttnSpec

theorem tanh_apply {s : Shape} (v : FVec Ideal s .f32) (i : s.Idx) : tanh v i = Ideal.tanh (v i) := rfl
theorem logistic_apply {s : Shape} (v : FVec Ideal s .f32) (i : s.Idx) : logistic v i = Ideal.logistic (v i) := rfl

/-- A full-width projection with its bias row, at entry (r, c). -/
theorem wide_proj_apply (Y : FVec Ideal S64x128 .f32) (Wt : FVec Ideal S128x384 .f32) (b : FVec Ideal S1x384 .f32)
    (r : Fin 64) (c : Fin 384) :
    addf (matmul dot_S64x128_S128x384_S64x384_1_0_0_1_n_n none Y Wt (constant S64x384 .f32 0x00000000#32))
      (broadcastTo S64x384 (shapeCast S1x384 b shapeCasts_S1x384_S1x384) broadcasts_S1x384_S64x384) (ix2 r c)
      = (∑ k : Fin 128, Y (ix2 r k) * Wt (ix2 k c)) + b (ix2 (0 : Fin 1) c) := by
  rw [shapeCast_self]
  exact Cert.LibSoftmaxRows.proj_apply dot_S64x128_S128x384_S64x384_1_0_0_1_n_n rfl rfl
    (fun _ _ => rfl) (fun _ _ => rfl) (fun _ _ => rfl) (fun _ _ => rfl) Y Wt b broadcasts_S1x384_S64x384 r c

/-- THE NEW STATE: entry (r, j) of the stored block, over the pooled block `P`. -/
theorem gru_apply (v1 : Vec Ideal S64x128 .f32) (P : FVec Ideal S64x128 .f32) (v289 : Vec Ideal S128x384 .f32)
    (v291 : Vec Ideal S1x384 .f32) (v295 : Vec Ideal S128x384 .f32) (v297 : Vec Ideal S1x384 .f32)
    (r : Fin 64) (j : Fin 128) :
    k0_pay73 v1 P v289 v291 v295 v297 (ix2 r j)
      = gruSplit (colAt 0 (by decide)) (colAt 128 (by decide)) (colAt 256 (by decide))
          (fun k => P (ix2 r k)) (fun k => v1 (ix2 r k)) (fun k => v1 (ix2 r k))
          (fun k c => v289 (ix2 k c)) (fun k c => v295 (ix2 k c))
          (fun c => v291 (ix2 (0 : Fin 1) c)) (fun c => v297 (ix2 (0 : Fin 1) c)) j := by
  unfold k0_pay73 gruSplit
  dsimp only
  simp only [addf_apply, mulf_apply, subf_apply, tanh_apply, logistic_apply]
  rw [slice2_axis1_apply 0 _ slices_S64x384_o0_0_S64x128 r j (colAt 0 (by decide) j) rfl,
    slice2_axis1_apply 0 _ slices_S64x384_o0_0_S64x128 r j (colAt 0 (by decide) j) rfl,
    slice2_axis1_apply 128 _ slices_S64x384_o0_128_S64x128 r j (colAt 128 (by decide) j) rfl,
    slice2_axis1_apply 128 _ slices_S64x384_o0_128_S64x128 r j (colAt 128 (by decide) j) rfl,
    slice2_axis1_apply 256 _ slices_S64x384_o0_256_S64x128 r j (colAt 256 (by decide) j) rfl,
    slice2_axis1_apply 256 _ slices_S64x384_o0_256_S64x128 r j (colAt 256 (by decide) j) rfl]
  simp only [wide_proj_apply]

end Cert.KernelIdeal.Rows

end
-- ==== Proof.AttnArrays.lean ====
/-
  The two result arrays as functions of the nine argument arrays, row by row.

  `scoresOf` is the first result, [256, 512]: row b holds the masked bilinear scores of document b against question b.
  The second result, [256, 128], is the GRU cell's new state over the attention-pooled input; `stateMul` spells the
  softmax weights as products with the reciprocal normaliser and adds each projection's bias before combining the
  gates, `stateDiv` spells the weights as quotients and sums the reset and update biases first. They are one array
  when every row has a position that is not padding and x, y, W_lin, b_lin hold real numbers: then every score is a real
  number or -∞, the row's greatest score is real, and the normaliser is at least exp 0 = 1, so nonzero.
-/
import proofs.«178400_g2000600068933849_pallasbulk_201_25_alg».proof.Proof.AttnSpec
import Idealize.ShloMosaic.Lib.ValueIdx

noncomputable section

namespace Cert.AttnArrays

open Idealize.ShloMosaic Idealize.ShloMosaic.ValueIdx Cert.AttnSpec Cert.LibERealSum

abbrev SX : Shape := ⟨3, ![256, 512, 128]⟩
abbrev SY : Shape := ⟨2, ![256, 128]⟩
abbrev SM : Shape := ⟨2, ![256, 512]⟩
abbrev SW : Shape := ⟨2, ![128, 128]⟩
abbrev SB : Shape := ⟨2, ![1, 128]⟩
abbrev SG : Shape := ⟨2, ![128, 384]⟩
abbrev SH : Shape := ⟨1, ![384]⟩

/-- Row b's masked bilinear scores. -/
def rowScores (x : SX.Idx → EReal) (y : SY.Idx → EReal) (pad : SM.Idx → BitVec 1) (wl : SW.Idx → EReal)
    (bl : SB.Idx → EReal) (b : Fin 256) : Fin 512 → EReal :=
  score (fun l d => x (ix3 b l d)) (proj (fun k => y (ix2 b k)) (fun k d => wl (ix2 k d)) (fun d => bl (ix2 (0 : Fin 1) d)))
    (fun l => pad (ix2 b l))

/-- The first result. -/
def scoresOf (x : SX.Idx → EReal) (y : SY.Idx → EReal) (pad : SM.Idx → BitVec 1) (wl : SW.Idx → EReal)
    (bl : SB.Idx → EReal) : SM.Idx → EReal := fun i => rowScores x y pad wl bl (i 0) (i 1)

/-- Row b, coordinate j of the second result, weights as products, biases added per projection. -/
def stateMulRow (x : SX.Idx → EReal) (y : SY.Idx → EReal) (pad : SM.Idx → BitVec 1) (wl : SW.Idx → EReal)
    (bl : SB.Idx → EReal) (wi wh : SG.Idx → EReal) (bi bh : SH.Idx → EReal) (b : Fin 256) (j : Fin 128) : EReal :=
  gruSplit (colAt 0 (by decide)) (colAt 128 (by decide)) (colAt 256 (by decide))
    (AttnSpec.pool (weightMul (rowScores x y pad wl bl b)) (fun l d => x (ix3 b l d)))
    (fun k => y (ix2 b k)) (fun k => y (ix2 b k))
    (fun k c => wi (ix2 k c)) (fun k c => wh (ix2 k c)) (fun c => bi (ix1 c)) (fun c => bh (ix1 c)) j

/-- Row b, coordinate j of the second result, weights as quotients, reset and update biases summed first. -/
def stateDivRow (x : SX.Idx → EReal) (y : SY.Idx → EReal) (pad : SM.Idx → BitVec 1) (wl : SW.Idx → EReal)
    (bl : SB.Idx → EReal) (wi wh : SG.Idx → EReal) (bi bh : SH.Idx → EReal) (b : Fin 256) (j : Fin 128) : EReal :=
  gruJoint (colAt 0 (by decide)) (colAt 128 (by decide)) (colAt 256 (by decide))
    (AttnSpec.pool (weightDiv (rowScores x y pad wl bl b)) (fun l d => x (ix3 b l d)))
    (fun k => y (ix2 b k)) (fun k => y (ix2 b k))
    (fun k c => wi (ix2 k c)) (fun k c => wh (ix2 k c)) (fun c => bi (ix1 c)) (fun c => bh (ix1 c)) j

/-- The second result in the first spelling. -/
def stateMul (x : SX.Idx → EReal) (y : SY.Idx → EReal) (pad : SM.Idx → BitVec 1) (wl : SW.Idx → EReal)
    (bl : SB.Idx → EReal) (wi wh : SG.Idx → EReal) (bi bh : SH.Idx → EReal) : SY.Idx → EReal :=
  fun i => stateMulRow x y pad wl bl wi wh bi bh (i 0) (i 1)

/-- The second result in the second spelling. -/
def stateDiv (x : SX.Idx → EReal) (y : SY.Idx → EReal) (pad : SM.Idx → BitVec 1) (wl : SW.Idx → EReal)
    (bl : SB.Idx → EReal) (wi wh : SG.Idx → EReal) (bi bh : SH.Idx → EReal) : SY.Idx → EReal :=
  fun i => stateDivRow x y pad wl bl wi wh bi bh (i 0) (i 1)

/-- Over real inputs a score is `-∞` at a padded position and a real number elsewhere. -/
theorem rowScores_cases (x : SX.Idx → EReal) (y : SY.Idx → EReal) (pad : SM.Idx → BitVec 1) (wl : SW.Idx → EReal)
    (bl : SB.Idx → EReal) (hx : ∀ i, IsReal (x i)) (hy : ∀ i, IsReal (y i)) (hw : ∀ i, IsReal (wl i))
    (hb : ∀ i, IsReal (bl i)) (b : Fin 256) (l : Fin 512) :
    (pad (ix2 b l) = 1#1 ∧ rowScores x y pad wl bl b l = ⊥) ∨ (pad (ix2 b l) ≠ 1#1 ∧ IsReal (rowScores x y pad wl bl b l)) := by
  unfold rowScores score
  by_cases hp : pad (ix2 b l) = 1#1
  · refine Or.inl ⟨hp, ?_⟩
    show Scalar.select (pad (ix2 b l)) (⊥ : EReal) _ = ⊥
    rw [hp, select_one]
  · refine Or.inr ⟨hp, ?_⟩
    show IsReal (Scalar.select (pad (ix2 b l)) (⊥ : EReal) _)
    rw [eq_zero_of_ne_one hp, select_zero]
    refine IsReal.sum _ _ fun d _ => (hx _).mul ?_
    unfold proj
    exact (IsReal.sum _ _ fun k _ => (hy _).mul (hw _)).add (hb _)

/-- THE TWO SPELLINGS AGREE on the evident domain, row by row. -/
theorem stateMulRow_eq_stateDivRow (x : SX.Idx → EReal) (y : SY.Idx → EReal) (pad : SM.Idx → BitVec 1) (wl : SW.Idx → EReal)
    (bl : SB.Idx → EReal) (wi wh : SG.Idx → EReal) (bi bh : SH.Idx → EReal)
    (hx : ∀ i, IsReal (x i)) (hy : ∀ i, IsReal (y i)) (hw : ∀ i, IsReal (wl i)) (hb : ∀ i, IsReal (bl i))
    (hrow : ∀ b : Fin 256, ∃ l : Fin 512, pad (ix2 b l) ≠ 1#1) (b : Fin 256) (j : Fin 128) :
    stateMulRow x y pad wl bl wi wh bi bh b j = stateDivRow x y pad wl bl wi wh bi bh b j := by
  have hden : denom (rowScores x y pad wl bl b) ≠ 0 := by
    obtain ⟨l0, hl0⟩ := hrow b
    refine denom_ne_zero _ (fun l => ?_) l0 ?_
    · rcases rowScores_cases x y pad wl bl hx hy hw hb b l with ⟨_, h⟩ | ⟨_, r, h⟩
      · rw [h]; exact bot_ne_top
      · rw [h]; exact EReal.coe_ne_top r
    · rcases rowScores_cases x y pad wl bl hx hy hw hb b l0 with ⟨h, _⟩ | ⟨_, r, h⟩
      · exact absurd h hl0
      · rw [h]; exact EReal.coe_ne_bot r
  have hw' : weightMul (rowScores x y pad wl bl b) = weightDiv (rowScores x y pad wl bl b) :=
    funext fun l => weightMul_eq_weightDiv _ hden l
  unfold stateMulRow stateDivRow
  rw [hw']
  exact gruSplit_eq_gruJoint _ _ _ _ _ _ _ _ _ _ _

/-- THE TWO SPELLINGS AGREE on the evident domain. -/
theorem stateMul_eq_stateDiv (x : SX.Idx → EReal) (y : SY.Idx → EReal) (pad : SM.Idx → BitVec 1) (wl : SW.Idx → EReal)
    (bl : SB.Idx → EReal) (wi wh : SG.Idx → EReal) (bi bh : SH.Idx → EReal)
    (hx : ∀ i, IsReal (x i)) (hy : ∀ i, IsReal (y i)) (hw : ∀ i, IsReal (wl i)) (hb : ∀ i, IsReal (bl i))
    (hrow : ∀ b : Fin 256, ∃ l : Fin 512, pad (ix2 b l) ≠ 1#1) :
    stateMul x y pad wl bl wi wh bi bh = stateDiv x y pad wl bl wi wh bi bh :=
  funext fun i => stateMulRow_eq_stateDivRow x y pad wl bl wi wh bi bh hx hy hw hb hrow (i 0) (i 1)

end Cert.AttnArrays

end
-- ==== Proof.KernelFinal.lean ====
/-
  From the kernel's blocks to its result arrays. Grid point t (of 4) stages rows 64·t … 64·t + 63 of x, y and the mask
  (the mask as 32-bit words, 0 or 1), and the whole of the weights and biases; it writes back rows 64·t … 64·t + 63 of
  both results. So row r of point t's blocks is row 64·t + r of the arrays, the four points' blocks tile both results,
  and each result array ends as one function of the argument arrays: the masked scores, and the GRU cell's new state in
  the product spelling.
-/
import proofs.«178400_g2000600068933849_pallasbulk_201_25_alg».proof.Proof.Gen.KernelIdeal.Value
import proofs.«178400_g2000600068933849_pallasbulk_201_25_alg».proof.Proof.KernelScores
import proofs.«178400_g2000600068933849_pallasbulk_201_25_alg».proof.Proof.KernelPool
import proofs.«178400_g2000600068933849_pallasbulk_201_25_alg».proof.Proof.KernelGru
import proofs.«178400_g2000600068933849_pallasbulk_201_25_alg».proof.Proof.AttnArrays
import Idealize.ShloMosaic.Lib.StableHlo.Run
import Idealize.ShloMosaic.Lib.ValueLayout

noncomputable section

namespace Cert.KernelIdeal.Final

open Cert.KernelIdeal Cert.KernelIdeal.Gen Idealize.ShloMosaic Idealize.ShloMosaic.TcCoe Idealize.SL.Sem
open Idealize.ShloMosaic.ValueIdx Cert.AttnSpec Cert.AttnArrays
open Idealize.ShloMosaic.Pipeline (Dat)

variable (m : (ℓ : Loc nD τ sig) → Buf (Elt Ideal) ℓ) (ρ : Dev nD → PrngReg)

/-! ## The arrays the host prepares before the call -/

theorem V_biasI (c : Dev nD) :
    (V m c main_v0 : S1x384.Idx → EReal) = shapeCast S1x384 (m ((c : Thread nD τ).loc main_arg7)) shapeCasts_S384_S1x384 := by
  dsimp only [Gen.V, Gen.hostOps0]; after_results; try rfl

theorem V_biasH (c : Dev nD) :
    (V m c main_v1 : S1x384.Idx → EReal) = shapeCast S1x384 (m ((c : Thread nD τ).loc main_arg8)) shapeCasts_S384_S1x384 := by
  dsimp only [Gen.V, Gen.hostOps0]; after_results; try rfl

theorem V_mask (c : Dev nD) :
    (V m c main_v2 : S256x512.Idx → BitVec 32) = extui 32 (m ((c : Thread nD τ).loc main_arg2)) natLt_1_32 := by
  dsimp only [Gen.V, Gen.hostOps0]; after_results; try rfl

/-- A bit widened to a word is not 0 exactly when the bit is 1. -/
theorem ne_zero_of_widen (b : BitVec 1) : IntOp.cmpi .ne (b.setWidth 32) 0#32 = b := by
  by_cases h : b = 1#1
  · subst h; decide
  · rw [eq_zero_of_ne_one h]; decide

/-! ## The index maps, decided over the four grid points -/

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])

/-- Row r of grid point t's blocks is row 64·t + r of the arrays. -/
def rowOf (t : Fin cfg0.N) (r : Fin 64) : Fin 256 :=
  ⟨t.val * 64 + r.val, by have := t.isLt; have := r.isLt; have h : cfg0.N = 4 := N_0; omega⟩

/-! ## The staged blocks, read off the arrays -/

theorem blk0 (c : Dev nD) (t : Fin cfg0.N) (r : Fin 64) (l : Fin 512) (d : Fin 128) :
    iblk m c 0 t (ix3 r l d) = (m ((c : Thread nD τ).loc main_arg0)) (ix3 (rowOf t r) l d) := by
  show V m c main_arg0 (((cfg0.win 0).blk t).view.emb (ix3 r l d)) = _
  rw [V_main_arg0]
  refine congrArg _ (funext fun a => Fin.ext ?_)
  have e := idx0 t
  match a with
  | ⟨0, _⟩ =>
    show win0_0.index t (0 : Fin 3) * 64 + 1 * r.val = t.val * 64 + r.val
    rw [e]; show t.val * 64 + 1 * r.val = _; omega
  | ⟨1, _⟩ =>
    show win0_0.index t (1 : Fin 3) * 512 + 1 * l.val = l.val
    rw [e]; show 0 * 512 + 1 * l.val = _; omega
  | ⟨2, _⟩ =>
    show win0_0.index t (2 : Fin 3) * 128 + 1 * d.val = d.val
    rw [e]; show 0 * 128 + 1 * d.val = _; omega

theorem blk1 (c : Dev nD) (t : Fin cfg0.N) (r : Fin 64) (k : Fin 128) :
    iblk m c 1 t (ix2 r k) = (m ((c : Thread nD τ).loc main_arg1)) (ix2 (rowOf t r) k) := by
  show V m c main_arg1 (((cfg0.win 1).blk t).view.emb (ix2 r k)) = _
  rw [V_main_arg1]
  refine congrArg _ (funext fun a => Fin.ext ?_)
  have e := idx1 t
  match a with
  | ⟨0, _⟩ =>
    show win0_1.index t (0 : Fin 2) * 64 + 1 * r.val = t.val * 64 + r.val
    rw [e]; show t.val * 64 + 1 * r.val = _; omega
  | ⟨1, _⟩ =>
    show win0_1.index t (1 : Fin 2) * 128 + 1 * k.val = k.val
    rw [e]; show 0 * 128 + 1 * k.val = _; omega

theorem blk2 (c : Dev nD) (t : Fin cfg0.N) (r : Fin 64) (l : Fin 512) :
    iblk m c 2 t (ix2 r l) = ((m ((c : Thread nD τ).loc main_arg2)) (ix2 (rowOf t r) l)).setWidth 32 := by
  show V m c main_v2 (((cfg0.win 2).blk t).view.emb (ix2 r l)) = _
  rw [V_mask]
  show ((m ((c : Thread nD τ).loc main_arg2)) (((cfg0.win 2).blk t).view.emb (ix2 r l))).setWidth 32 = _
  refine congrArg (fun i => ((m ((c : Thread nD τ).loc main_arg2)) i).setWidth 32) (funext fun a => Fin.ext ?_)
  have e := idx2 t
  match a with
  | ⟨0, _⟩ =>
    show win0_2.index t (0 : Fin 2) * 64 + 1 * r.val = t.val * 64 + r.val
    rw [e]; show t.val * 64 + 1 * r.val = _; omega
  | ⟨1, _⟩ =>
    show win0_2.index t (1 : Fin 2) * 512 + 1 * l.val = l.val
    rw [e]; show 0 * 512 + 1 * l.val = _; omega

theorem blk3 (c : Dev nD) (t : Fin cfg0.N) (y : S128x128.Idx) :
    iblk m c 3 t y = V m c main_arg3 y := by
  show V m c main_arg3 (((cfg0.win 3).blk t).view.emb y) = _
  refine congrArg _ (funext fun a => Fin.ext ?_)
  have e := idx3 t
  match a with
  | ⟨0, _⟩ =>
    show win0_3.index t (0 : Fin 2) * 128 + 1 * (y 0).val = (y 0).val
    rw [e]; show 0 * 128 + 1 * (y 0).val = _; omega
  | ⟨1, _⟩ =>
    show win0_3.index t (1 : Fin 2) * 128 + 1 * (y 1).val = (y 1).val
    rw [e]; show 0 * 128 + 1 * (y 1).val = _; omega

theorem blk4 (c : Dev nD) (t : Fin cfg0.N) (y : S1x128.Idx) :
    iblk m c 4 t y = V m c main_arg4 y := by
  show V m c main_arg4 (((cfg0.win 4).blk t).view.emb y) = _
  refine congrArg _ (funext fun a => Fin.ext ?_)
  have e := idx4 t
  match a with
  | ⟨0, _⟩ =>
    show win0_4.index t (0 : Fin 2) * 1 + 1 * (y 0).val = (y 0).val
    rw [e]; show 0 * 1 + 1 * (y 0).val = _; omega
  | ⟨1, _⟩ =>
    show win0_4.index t (1 : Fin 2) * 128 + 1 * (y 1).val = (y 1).val
    rw [e]; show 0 * 128 + 1 * (y 1).val = _; omega

theorem blk5 (c : Dev nD) (t : Fin cfg0.N) (y : S128x384.Idx) :
    iblk m c 5 t y = V m c main_arg5 y := by
  show V m c main_arg5 (((cfg0.win 5).blk t).view.emb y) = _
  refine congrArg _ (funext fun a => Fin.ext ?_)
  have e := idx5 t
  match a with
  | ⟨0, _⟩ =>
    show win0_5.index t (0 : Fin 2) * 128 + 1 * (y 0).val = (y 0).val
    rw [e]; show 0 * 128 + 1 * (y 0).val = _; omega
  | ⟨1, _⟩ =>
    show win0_5.index t (1 : Fin 2) * 384 + 1 * (y 1).val = (y 1).val
    rw [e]; show 0 * 384 + 1 * (y 1).val = _; omega

theorem blk6 (c : Dev nD) (t : Fin cfg0.N) (y : S128x384.Idx) :
    iblk m c 6 t y = V m c main_arg6 y := by
  show V m c main_arg6 (((cfg0.win 6).blk t).view.emb y) = _
  refine congrArg _ (funext fun a => Fin.ext ?_)
  have e := idx6 t
  match a with
  | ⟨0, _⟩ =>
    show win0_6.index t (0 : Fin 2) * 128 + 1 * (y 0).val = (y 0).val
    rw [e]; show 0 * 128 + 1 * (y 0).val = _; omega
  | ⟨1, _⟩ =>
    show win0_6.index t (1 : Fin 2) * 384 + 1 * (y 1).val = (y 1).val
    rw [e]; show 0 * 384 + 1 * (y 1).val = _; omega

theorem blk7 (c : Dev nD) (t : Fin cfg0.N) (y : S1x384.Idx) :
    iblk m c 7 t y = V m c main_v0 y := by
  show V m c main_v0 (((cfg0.win 7).blk t).view.emb y) = _
  refine congrArg _ (funext fun a => Fin.ext ?_)
  have e := idx7 t
  match a with
  | ⟨0, _⟩ =>
    show win0_7.index t (0 : Fin 2) * 1 + 1 * (y 0).val = (y 0).val
    rw [e]; show 0 * 1 + 1 * (y 0).val = _; omega
  | ⟨1, _⟩ =>
    show win0_7.index t (1 : Fin 2) * 384 + 1 * (y 1).val = (y 1).val
    rw [e]; show 0 * 384 + 1 * (y 1).val = _; omega

theorem blk8 (c : Dev nD) (t : Fin cfg0.N) (y : S1x384.Idx) :
    iblk m c 8 t y = V m c main_v1 y := by
  show V m c main_v1 (((cfg0.win 8).blk t).view.emb y) = _
  refine congrArg _ (funext fun a => Fin.ext ?_)
  have e := idx8 t
  match a with
  | ⟨0, _⟩ =>
    show win0_8.index t (0 : Fin 2) * 1 + 1 * (y 0).val = (y 0).val
    rw [e]; show 0 * 1 + 1 * (y 0).val = _; omega
  | ⟨1, _⟩ =>
    show win0_8.index t (1 : Fin 2) * 384 + 1 * (y 1).val = (y 1).val
    rw [e]; show 0 * 384 + 1 * (y 1).val = _; omega

theorem bias7 (c : Dev nD) (t : Fin cfg0.N) (q : Fin 384) : iblk m c 7 t (ix2 (0 : Fin 1) q) = (m ((c : Thread nD τ).loc main_arg7)) (ix1 q) := by
  rw [blk7, V_biasI, shapeCast_a_1a_apply]

theorem bias8 (c : Dev nD) (t : Fin cfg0.N) (q : Fin 384) : iblk m c 8 t (ix2 (0 : Fin 1) q) = (m ((c : Thread nD τ).loc main_arg8)) (ix1 q) := by
  rw [blk8, V_biasH, shapeCast_a_1a_apply]

/-- Where entry (r, ·) of the first result's block at point t sits in the array. -/
theorem emb9 (t : Fin cfg0.N) (r : Fin 64) (l : Fin 512) : ((cfg0.win 9).blk t).view.emb (ix2 r l) = ix2 (rowOf t r) l := by
  funext a
  apply Fin.ext
  have e := idx9 t
  match a with
  | ⟨0, _⟩ =>
    show win0_9.index t (0 : Fin 2) * 64 + 1 * r.val = t.val * 64 + r.val
    rw [e]; show t.val * 64 + 1 * r.val = _; omega
  | ⟨1, _⟩ =>
    show win0_9.index t (1 : Fin 2) * 512 + 1 * l.val = l.val
    rw [e]; show 0 * 512 + 1 * l.val = _; omega

theorem emb10 (t : Fin cfg0.N) (r : Fin 64) (j : Fin 128) : ((cfg0.win 10).blk t).view.emb (ix2 r j) = ix2 (rowOf t r) j := by
  funext a
  apply Fin.ext
  have e := idx10 t
  match a with
  | ⟨0, _⟩ =>
    show win0_10.index t (0 : Fin 2) * 64 + 1 * r.val = t.val * 64 + r.val
    rw [e]; show t.val * 64 + 1 * r.val = _; omega
  | ⟨1, _⟩ =>
    show win0_10.index t (1 : Fin 2) * 128 + 1 * j.val = j.val
    rw [e]; show 0 * 128 + 1 * j.val = _; omega

/-! ## Row r of point t's score block is row 64·t + r of the scores -/

theorem scores_row (c : Dev nD) (t : Fin cfg0.N) (r : Fin 64) :
    (fun l => k0_pay1 (iblk m c 0 t) (iblk m c 1 t) (iblk m c 3 t) (iblk m c 4 t) (iblk m c 2 t) (ix2 r l)) = rowScores (m ((c : Thread nD τ).loc main_arg0)) (m ((c : Thread nD τ).loc main_arg1)) (m ((c : Thread nD τ).loc main_arg2)) (m ((c : Thread nD τ).loc main_arg3)) (m ((c : Thread nD τ).loc main_arg4)) (rowOf t r) := by
  funext l
  refine (Rows.score_apply (iblk m c 0 t) (iblk m c 1 t) (iblk m c 3 t) (iblk m c 4 t) (iblk m c 2 t) r l).trans ?_
  unfold rowScores
  refine score_congr (funext fun l => funext fun d => blk0 m c t r l d)
    (proj_congr (funext fun k => blk1 m c t r k) (funext fun k => funext fun d => ?_) (funext fun d => ?_))
    (funext fun l => ?_) l
  · rw [blk3, V_main_arg3]
  · rw [blk4, V_main_arg4]
  · rw [blk2, ne_zero_of_widen]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each point writes back -/

/-- Point t writes back block t of the masked scores. -/
theorem flushed9_eq (c : Dev nD) (t : Fin cfg0.N) :
    (dats m 0 c).flushed 9 t = ((cfg0.win 9).blk t).view.read (Elt Ideal) (scoresOf (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed9]
  unfold out0_9
  rw [View.canon_unit_zero hz2]
  simp only [View.ld_unit_zero (S := S64x512x128) hz3, View.ld_unit_zero (S := S64x128) hz2,
    View.ld_unit_zero (S := S128x128) hz2, View.ld_unit_zero (S := S1x128) hz2, View.ld_unit_zero (S := S64x512) hz2]
  funext y
  obtain ⟨r, l, rfl⟩ : ∃ (r : Fin 64) (l : Fin 512), y = ix2 r l := ⟨y 0, y 1, eq_ix2 y⟩
  show k0_pay1 (iblk m c 0 t) (iblk m c 1 t) (iblk m c 3 t) (iblk m c 4 t) (iblk m c 2 t) (ix2 r l) = scoresOf (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb (ix2 r l))
  rw [emb9]
  exact congrFun (scores_row m c t r) l

/-- The second result's block over any staged blocks: entry (r, j) is the GRU cell at coordinate j over row r's pooled
    input, the weights in the product spelling over row r's stored scores. -/
theorem out10_apply (x0 : Vec Ideal S64x512x128 .f32) (x1 : Vec Ideal S64x128 .f32) (x2 : Vec Ideal S64x512 .i32) (x3 : Vec Ideal S128x128 .f32) (x4 : Vec Ideal S1x128 .f32) (x5 x6 : Vec Ideal S128x384 .f32) (x7 x8 : Vec Ideal S1x384 .f32) (r : Fin 64) (j : Fin 128) :
    out0_10 x0 x1 x2 x3 x4 x5 x6 x7 x8 (ix2 r j)
      = gruSplit (colAt 0 (by decide)) (colAt 128 (by decide)) (colAt 256 (by decide))
          (AttnSpec.pool (weightMul (fun l => k0_pay1 x0 x1 x3 x4 x2 (ix2 r l))) (fun l d => x0 (ix3 r l d)))
          (fun k => x1 (ix2 r k)) (fun k => x1 (ix2 r k)) (fun k q => x5 (ix2 k q)) (fun k q => x6 (ix2 k q))
          (fun q => x7 (ix2 (0 : Fin 1) q)) (fun q => x8 (ix2 (0 : Fin 1) q)) j := by
  have e0 : View.ld x0 r0_0 = x0 := View.ld_unit_zero hz3 _ x0
  have e1 : View.ld x1 r0_1 = x1 := View.ld_unit_zero hz2 _ x1
  have e2 : View.ld x2 r0_4 = x2 := View.ld_unit_zero hz2 _ x2
  have e3 : View.ld x3 r0_2 = x3 := View.ld_unit_zero hz2 _ x3
  have e4 : View.ld x4 r0_3 = x4 := View.ld_unit_zero hz2 _ x4
  have e5 : View.ld x5 r0_5 = x5 := View.ld_unit_zero hz2 _ x5
  have e6 : View.ld x6 r0_5 = x6 := View.ld_unit_zero hz2 _ x6
  have e7 : View.ld x7 r0_6 = x7 := View.ld_unit_zero hz2 _ x7
  have e8 : View.ld x8 r0_6 = x8 := View.ld_unit_zero hz2 _ x8
  unfold out0_10
  rw [View.canon_unit_zero hz2, e0, e1, e2, e3, e4, e5, e6, e7, e8]
  refine (Rows.gru_apply _ _ _ _ _ _ r j).trans ?_
  refine gruSplit_congr _ _ _ (funext fun k => ?_) rfl rfl rfl rfl rfl rfl j
  rw [Rows.pooled_apply]
  unfold AttnSpec.pool
  exact Finset.sum_congr rfl fun l _ => congrArg (· * _) (Rows.weights_apply x0 x1 x3 x4 x2 r l)

/-- Point t writes back block t of the new state (product spelling). -/
theorem flushed10_eq (c : Dev nD) (t : Fin cfg0.N) :
    (dats m 0 c).flushed 10 t = ((cfg0.win 10).blk t).view.read (Elt Ideal) (stateMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed10]
  funext y
  obtain ⟨r, j, rfl⟩ : ∃ (r : Fin 64) (j : Fin 128), y = ix2 r j := ⟨y 0, y 1, eq_ix2 y⟩
  show out0_10 (iblk m c 0 t) (iblk m c 1 t) (iblk m c 2 t) (iblk m c 3 t) (iblk m c 4 t) (iblk m c 5 t) (iblk m c 6 t)
      (iblk m c 7 t) (iblk m c 8 t) (ix2 r j) = stateMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb (ix2 r j))
  rw [emb10]
  refine (out10_apply (iblk m c 0 t) (iblk m c 1 t) (iblk m c 2 t) (iblk m c 3 t) (iblk m c 4 t) (iblk m c 5 t)
    (iblk m c 6 t) (iblk m c 7 t) (iblk m c 8 t) r j).trans ?_
  show _ = stateMulRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t r) j
  unfold stateMulRow
  refine gruSplit_congr _ _ _
    (congrArg₂ (fun f g => AttnSpec.pool (weightMul f) g) (scores_row m c t r)
      (funext fun l => funext fun d => blk0 m c t r l d))
    (funext fun k => blk1 m c t r k) (funext fun k => blk1 m c t r k)
    (funext fun k => funext fun q => ?_) (funext fun k => funext fun q => ?_) (funext fun q => bias7 m c t q)
    (funext fun q => bias8 m c t q) j
  · rw [blk5, V_main_arg5]
  · rw [blk6, V_main_arg6]

/-! ## The four points' blocks tile the results -/

theorem mem_blk9 (t : Fin cfg0.N) (i : S256x512.Idx) :
    i ∈ ((cfg0.win 9).blk t).view.set ↔ ∀ a : Fin 2, win0_9.index t a * S64x512.size a ≤ (i a).val ∧ (i a).val < win0_9.index t a * S64x512.size a + S64x512.size a := by
  show i ∈ ((View.whole main_v3_0).slice (win0_9.rect t)).set ↔ _
  rw [View.set_slice_whole, Rect.mem_set_unit]
  exact Iff.rfl

theorem mem_blk10 (t : Fin cfg0.N) (i : S256x128.Idx) :
    i ∈ ((cfg0.win 10).blk t).view.set ↔ ∀ a : Fin 2, win0_10.index t a * S64x128.size a ≤ (i a).val ∧ (i a).val < win0_10.index t a * S64x128.size a + S64x128.size a := by
  show i ∈ ((View.whole main_v3_1).slice (win0_10.rect t)).set ↔ _
  rw [View.set_slice_whole, Rect.mem_set_unit]
  exact Iff.rfl

theorem cover9 (i : S256x512.Idx) : ∃ t : Fin cfg0.N, (cfg0.win 9).flush t = true ∧ i ∈ ((cfg0.win 9).blk t).view.set := by
  have hi0 : (i 0).val < 256 := (i 0).isLt
  have hi1 : (i 1).val < 512 := (i 1).isLt
  have hN : cfg0.N = 4 := N_0
  refine ⟨⟨(i 0).val / 64, by omega⟩, flush0_9 _, ?_⟩
  rw [mem_blk9]
  intro a
  have e := idx9 ⟨(i 0).val / 64, by omega⟩
  match a with
  | ⟨0, _⟩ =>
    show win0_9.index _ (0 : Fin 2) * 64 ≤ (i 0).val ∧ (i 0).val < win0_9.index _ (0 : Fin 2) * 64 + 64
    rw [e]; show (i 0).val / 64 * 64 ≤ (i 0).val ∧ (i 0).val < (i 0).val / 64 * 64 + 64; omega
  | ⟨1, _⟩ =>
    show win0_9.index _ (1 : Fin 2) * 512 ≤ (i 1).val ∧ (i 1).val < win0_9.index _ (1 : Fin 2) * 512 + 512
    rw [e]; show 0 * 512 ≤ (i 1).val ∧ (i 1).val < 0 * 512 + 512; omega

theorem cover10 (i : S256x128.Idx) : ∃ t : Fin cfg0.N, (cfg0.win 10).flush t = true ∧ i ∈ ((cfg0.win 10).blk t).view.set := by
  have hi0 : (i 0).val < 256 := (i 0).isLt
  have hi1 : (i 1).val < 128 := (i 1).isLt
  have hN : cfg0.N = 4 := N_0
  refine ⟨⟨(i 0).val / 64, by omega⟩, flush0_10 _, ?_⟩
  rw [mem_blk10]
  intro a
  have e := idx10 ⟨(i 0).val / 64, by omega⟩
  match a with
  | ⟨0, _⟩ =>
    show win0_10.index _ (0 : Fin 2) * 64 ≤ (i 0).val ∧ (i 0).val < win0_10.index _ (0 : Fin 2) * 64 + 64
    rw [e]; show (i 0).val / 64 * 64 ≤ (i 0).val ∧ (i 0).val < (i 0).val / 64 * 64 + 64; omega
  | ⟨1, _⟩ =>
    show win0_10.index _ (1 : Fin 2) * 128 ≤ (i 1).val ∧ (i 1).val < win0_10.index _ (1 : Fin 2) * 128 + 128
    rw [e]; show 0 * 128 ≤ (i 1).val ∧ (i 1).val < 0 * 128 + 128; omega

/-! ## The run, read -/

/-- Every weakly fair execution of the kernel ends with the first result at the masked scores and the second at the
    new state (product spelling) of the argument arrays, which are unchanged. -/
theorem run : θ_run defs (onTc (τ := τ) (main (F := Ideal))) ⟨m, fun _ => 0, ρ⟩ fun r => ∀ c : Dev nD,
      r.2.mem ((c : Thread nD τ).loc main_v3_0) = scoresOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = stateMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨(h c).1.trans ((dats m 0 c).arrAt_eq_of_cover 9 _ (fun t _ => flushed9_eq m c t) cover9),
     (h c).2.1.trans ((dats m 0 c).arrAt_eq_of_cover 10 _ (fun t _ => flushed10_eq m c t) cover10),
     (h c).2.2⟩)
    (Value.run_blocks m ρ)

end Cert.KernelIdeal.Final

end
-- ==== Proof.RefRows.lean ====
/-
  The reference kernel's blocks, read at an entry: the masked bilinear scores (the padding bit read as "the staged mask
  value is greater than 0"), the pooled input with the softmax weights spelt as quotients, and the GRU cell over the six
  gate matrices and four bias rows it receives separately.
-/
import proofs.«178400_g2000600068933849_pallasbulk_201_25_alg».proof.Proof.Gen.ReferenceIdeal.Skeleton
import proofs.«178400_g2000600068933849_pallasbulk_201_25_alg».proof.Proof.LibSoftmaxRows
import Idealize.ShloMosaic.Lib.ValueLayout

noncomputable section

namespace Cert.ReferenceIdeal.Rows

open Cert.ReferenceIdeal Cert.ReferenceIdeal.Gen Idealize.ShloMosaic Idealize.ShloMosaic.ValueIdx Cert.AttnSpec

theorem tanh_apply {s : Shape} (v : FVec Ideal s .f32) (i : s.Idx) : tanh v i = Ideal.tanh (v i) := rfl
theorem logistic_apply {s : Shape} (v : FVec Ideal s .f32) (i : s.Idx) : logistic v i = Ideal.logistic (v i) := rfl

/-- THE SCORES: entry (r, l) of the stored block. -/
theorem score_apply (v0 : Vec Ideal S8x512x128 .f32) (v1 : Vec Ideal S8x128 .f32) (v2 : Vec Ideal S8x512 .f32)
    (v4 : Vec Ideal S128x128 .f32) (v6 : Vec Ideal S1x128 .f32) (r : Fin 8) (l : Fin 512) :
    k0_pay2 v0 v1 v2 v4 v6 (ix2 r l)
      = score (fun l d => v0 (ix3 r l d))
          (proj (fun k => v1 (ix2 r k)) (fun k d => v4 (ix2 k d)) (fun d => v6 (ix2 (0 : Fin 1) d)))
          (fun l => Ideal.cmp .ogt (v2 (ix2 r l)) (Ideal.ofBits .f32 0x00000000#32)) l := by
  unfold k0_pay2 score
  dsimp only
  rw [shapeCast_self, select_apply, Cert.LibRowReduce.sum_last3]
  refine congr (congrArg (Scalar.select _) ?_) ?_
  · exact Cert.LibRowReduce.ofBits_neg_inf_f32
  · refine Finset.sum_congr rfl fun d _ => ?_
    rw [mulf_apply, Cert.LibOuterSum.bcast_middle_apply, mul_comm]
    exact congrArg (v0 (ix3 r l d) * ·) (Cert.LibSoftmaxRows.proj_apply dot_S8x128_S128x128_S8x128_1_0_0_1_n_n rfl rfl
      (fun _ _ => rfl) (fun _ _ => rfl) (fun _ _ => rfl) (fun _ _ => rfl) v1 v4 v6 broadcasts_S1x128_S8x128 r d)

/-- THE POOLED INPUT: entry (r, d), the weights spelt as quotients by the normaliser, over the row's stored scores. -/
theorem pooled_apply (v0 : Vec Ideal S8x512x128 .f32) (v1 : Vec Ideal S8x128 .f32) (v2 : Vec Ideal S8x512 .f32)
    (v4 : Vec Ideal S128x128 .f32) (v6 : Vec Ideal S1x128 .f32) (r : Fin 8) (d : Fin 128) :
    k0_pay3 v0 v1 v2 v4 v6 (ix2 r d)
      = AttnSpec.pool (weightDiv (fun k => k0_pay2 v0 v1 v2 v4 v6 (ix2 r k))) (fun l d => v0 (ix3 r l d)) d := by
  unfold k0_pay3 AttnSpec.pool
  rw [Cert.LibRowReduce.sum_mid3]
  refine Finset.sum_congr rfl fun l _ => ?_
  rw [mulf_apply, Cert.LibOuterSum.bcast_trailing_apply]
  exact congrArg (· * v0 (ix3 r l d)) (Cert.LibSoftmaxRows.weightDiv_apply (k0_pay2 v0 v1 v2 v4 v6) reduces_S8x512_S8
    (.inl rfl) rfl rfl shapeCasts_S8_S8x1 broadcasts_S8x1_S8x512 r l)

/-- A gate's matrix product, at entry (r, j). -/
theorem mm_apply (Y : FVec Ideal S8x128 .f32) (Wt : FVec Ideal S128x128 .f32) (r : Fin 8) (j : Fin 128) :
    matmul dot_S8x128_S128x128_S8x128_1_0_0_1_n_n none Y (shapeCast S128x128 Wt shapeCasts_S128x128_S128x128)
      (constant S8x128 .f32 0x00000000#32) (ix2 r j) = ∑ k : Fin 128, Y (ix2 r k) * Wt (ix2 k j) := by
  rw [shapeCast_self]
  simp only [matmul]
  rw [Ideal.matmul_constant_zero_apply, Cert.LibDotSum.sum_dot dot_S8x128_S128x128_S8x128_1_0_0_1_n_n rfl rfl
    (fun _ _ => rfl) (fun _ _ => rfl) (fun _ _ => rfl) (fun _ _ => rfl)]

/-- A gate's bias row repeated over the rows, at entry (r, j). -/
theorem brow_apply (b : FVec Ideal S1x128 .f32) (r : Fin 8) (j : Fin 128) :
    broadcastTo S8x128 (shapeCast S1x128 b shapeCasts_S1x128_S1x128) broadcasts_S1x128_S8x128 (ix2 r j)
      = b (ix2 (0 : Fin 1) j) := by
  rw [shapeCast_self, broadcastTo_1b_ab_apply]

/-- THE NEW STATE: entry (r, j) of the stored block, over the pooled block `P`. -/
theorem gru_apply (v1 : Vec Ideal S8x128 .f32) (P : FVec Ideal S8x128 .f32)
    (Wir Wiz Win Whr Whz Whn : FVec Ideal S128x128 .f32) (br bz bin bhn : FVec Ideal S1x128 .f32) (r : Fin 8) (j : Fin 128) :
    k0_pay1 v1 (k0_pay5 v1 P Wiz Whz bz)
      (k0_pay6 v1 P (matmul dot_S8x128_S128x128_S8x128_1_0_0_1_n_n none P
          (shapeCast S128x128 Wir shapeCasts_S128x128_S128x128) (constant S8x128 .f32 0x00000000#32))
        Whr br Win bin Whn bhn) (ix2 r j)
      = gruBlocks (fun k => P (ix2 r k)) (fun k => v1 (ix2 r k)) (fun k => v1 (ix2 r k))
          (fun k j => Wir (ix2 k j)) (fun k j => Wiz (ix2 k j)) (fun k j => Win (ix2 k j))
          (fun k j => Whr (ix2 k j)) (fun k j => Whz (ix2 k j)) (fun k j => Whn (ix2 k j))
          (fun j => br (ix2 (0 : Fin 1) j)) (fun j => bz (ix2 (0 : Fin 1) j))
          (fun j => bin (ix2 (0 : Fin 1) j)) (fun j => bhn (ix2 (0 : Fin 1) j)) j := by
  unfold k0_pay1 k0_pay5 k0_pay6 gruBlocks
  dsimp only
  simp only [addf_apply, mulf_apply, subf_apply, tanh_apply, logistic_apply, mm_apply, brow_apply]

end Cert.ReferenceIdeal.Rows

end
-- ==== Proof.RefFinal.lean ====
/-
  From the reference kernel's blocks to its result arrays. Before the call the host cuts the stacked gate weights into
  their reset, update and candidate column blocks (columns 0…127, 128…255, 256…383), sums the two bias vectors over the
  reset and update blocks, keeps them apart on the candidate block, and turns the padding bits into the numbers 0 and
  1. Grid point t (of 32) stages rows 8·t … 8·t + 7 of x, y and the mask, and the whole of everything else; it writes
  back rows 8·t … 8·t + 7 of both results. Each result array ends as one function of the argument arrays: the masked
  scores, and the GRU cell's new state in the quotient spelling.
-/
import proofs.«178400_g2000600068933849_pallasbulk_201_25_alg».proof.Proof.Gen.ReferenceIdeal.Frame
import proofs.«178400_g2000600068933849_pallasbulk_201_25_alg».proof.Proof.RefRows
import proofs.«178400_g2000600068933849_pallasbulk_201_25_alg».proof.Proof.AttnArrays
import Idealize.ShloMosaic.Lib.StableHlo.Run
import Idealize.ShloMosaic.Lib.ValueLayout
import Idealize.ShloMosaic.Lib.Pipeline.Value

noncomputable section

namespace Cert.ReferenceIdeal.Final

open Cert.ReferenceIdeal Cert.ReferenceIdeal.Gen Idealize.ShloMosaic Idealize.ShloMosaic.TcCoe Idealize.SL.Sem
open Idealize.ShloMosaic.ValueIdx Cert.AttnSpec Cert.AttnArrays
open Idealize.ShloMosaic.Pipeline (Dat)

variable (m : (ℓ : Loc nD τ sig) → Buf (Elt Ideal) ℓ) (ρ : Dev nD → PrngReg)

/-! ## The arrays the host prepares before the call -/

theorem V_wir (c : Dev nD) :
    (V m c main_v0 : S128x128.Idx → EReal) = extractStridedSlice S128x128 ![0, 0] (m ((c : Thread nD τ).loc main_arg5)) slices_S128x384_S128x128_0_0 := by
  dsimp only [Gen.V, Gen.hostOps0]; after_results; try rfl

theorem V_wiz (c : Dev nD) :
    (V m c main_v1 : S128x128.Idx → EReal) = extractStridedSlice S128x128 ![0, 128] (m ((c : Thread nD τ).loc main_arg5)) slices_S128x384_S128x128_0_128 := by
  dsimp only [Gen.V, Gen.hostOps0]; after_results; try rfl

theorem V_win (c : Dev nD) :
    (V m c main_v2 : S128x128.Idx → EReal) = extractStridedSlice S128x128 ![0, 256] (m ((c : Thread nD τ).loc main_arg5)) slices_S128x384_S128x128_0_256 := by
  dsimp only [Gen.V, Gen.hostOps0]; after_results; try rfl

theorem V_whr (c : Dev nD) :
    (V m c main_v3 : S128x128.Idx → EReal) = extractStridedSlice S128x128 ![0, 0] (m ((c : Thread nD τ).loc main_arg6)) slices_S128x384_S128x128_0_0 := by
  dsimp only [Gen.V, Gen.hostOps0]; after_results; try rfl

theorem V_whz (c : Dev nD) :
    (V m c main_v4 : S128x128.Idx → EReal) = extractStridedSlice S128x128 ![0, 128] (m ((c : Thread nD τ).loc main_arg6)) slices_S128x384_S128x128_0_128 := by
  dsimp only [Gen.V, Gen.hostOps0]; after_results; try rfl

theorem V_whn (c : Dev nD) :
    (V m c main_v5 : S128x128.Idx → EReal) = extractStridedSlice S128x128 ![0, 256] (m ((c : Thread nD τ).loc main_arg6)) slices_S128x384_S128x128_0_256 := by
  dsimp only [Gen.V, Gen.hostOps0]; after_results; try rfl

theorem V_br (c : Dev nD) :
    (V m c main_v9 : S1x128.Idx → EReal) = shapeCast S1x128 (addf (F := Ideal) (φ := .f32) (extractStridedSlice S128 ![0] ((m ((c : Thread nD τ).loc main_arg7)) : FVec Ideal S384 .f32) slices_S384_S128_0)
      (extractStridedSlice S128 ![0] ((m ((c : Thread nD τ).loc main_arg8)) : FVec Ideal S384 .f32) slices_S384_S128_0)) shapeCasts_S128_S1x128 := by
  dsimp only [Gen.V, Gen.hostOps0]; after_results; try rfl

theorem V_bz (c : Dev nD) :
    (V m c main_v13 : S1x128.Idx → EReal) = shapeCast S1x128 (addf (F := Ideal) (φ := .f32) (extractStridedSlice S128 ![128] ((m ((c : Thread nD τ).loc main_arg7)) : FVec Ideal S384 .f32) slices_S384_S128_128)
      (extractStridedSlice S128 ![128] ((m ((c : Thread nD τ).loc main_arg8)) : FVec Ideal S384 .f32) slices_S384_S128_128)) shapeCasts_S128_S1x128 := by
  dsimp only [Gen.V, Gen.hostOps0]; after_results; try rfl

theorem V_bin (c : Dev nD) :
    (V m c main_v15 : S1x128.Idx → EReal) = shapeCast S1x128 (extractStridedSlice S128 ![256] (m ((c : Thread nD τ).loc main_arg7)) slices_S384_S128_256) shapeCasts_S128_S1x128 := by
  dsimp only [Gen.V, Gen.hostOps0]; after_results; try rfl

theorem V_bhn (c : Dev nD) :
    (V m c main_v17 : S1x128.Idx → EReal) = shapeCast S1x128 (extractStridedSlice S128 ![256] (m ((c : Thread nD τ).loc main_arg8)) slices_S384_S128_256) shapeCasts_S128_S1x128 := by
  dsimp only [Gen.V, Gen.hostOps0]; after_results; try rfl

theorem V_maskF (c : Dev nD) :
    (V m c main_v18 : S256x512.Idx → EReal) = uitofp (F := Ideal) .f32 (m ((c : Thread nD τ).loc main_arg2)) := by
  dsimp only [Gen.V, Gen.hostOps0]; after_results; try rfl

/-- A bit turned into the number 0 or 1 is greater than 0 exactly when the bit is 1. -/
theorem gt_zero_of_float (b : BitVec 1) :
    Ideal.cmp .ogt (FloatOps.uitofp (F := Ideal) .f32 b) (Ideal.ofBits .f32 0x00000000#32) = b := by
  rw [Ideal.ofBits_zero_f32]
  by_cases h : b = 1#1
  · subst h
    show BitVec.ofBool (decide ((0 : EReal) < (((1#1 : BitVec 1).toNat : ℝ) : EReal))) = 1#1
    have h1 : (0 : EReal) < (((1#1 : BitVec 1).toNat : ℝ) : EReal) := by simp
    rw [decide_eq_true h1]; rfl
  · rw [eq_zero_of_ne_one h]
    show BitVec.ofBool (decide ((0 : EReal) < (((0#1 : BitVec 1).toNat : ℝ) : EReal))) = 0#1
    have h0 : ¬ (0 : EReal) < (((0#1 : BitVec 1).toNat : ℝ) : EReal) := by simp
    rw [decide_eq_false h0]; rfl

/-- An entry of a vector cut from `o`: the source's entry `o + j`. -/
theorem vec_slice_apply (o : Nat) (h : o + 128 ≤ 384) (X : S384.Idx → EReal) (hs : S384.Slices ![o] S128) (j : Fin 128) :
    extractStridedSlice S128 ![o] X hs (ix1 j) = X (ix1 (colAt o h j)) :=
  extractStridedSlice_apply _ X hs (ix1 j) (ix1 (colAt o h j)) (fun ax => by
    match ax with
    | ⟨0, _⟩ => rfl)

/-! ## The index maps, decided over the 32 grid points -/

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![t.val, 0] := (by decide +kernel : ∀ t : Fin grid0.N, win0_16.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])

/-- Row r of grid point t's blocks is row 8·t + r of the arrays. -/
def rowOf (t : Fin cfg0.N) (r : Fin 8) : Fin 256 :=
  ⟨t.val * 8 + r.val, by have := t.isLt; have := r.isLt; have h : cfg0.N = 32 := N_0; omega⟩

/-! ## The staged blocks, read off the arrays -/

theorem blk0 (c : Dev nD) (t : Fin cfg0.N) (r : Fin 8) (l : Fin 512) (d : Fin 128) :
    iblk m c 0 t (ix3 r l d) = (m ((c : Thread nD τ).loc main_arg0)) (ix3 (rowOf t r) l d) := by
  show V m c main_arg0 (((cfg0.win 0).blk t).view.emb (ix3 r l d)) = _
  rw [V_main_arg0]
  refine congrArg _ (funext fun a => Fin.ext ?_)
  have e := idx0 t
  match a with
  | ⟨0, _⟩ =>
    show win0_0.index t (0 : Fin 3) * 8 + 1 * r.val = t.val * 8 + r.val
    rw [e]; show t.val * 8 + 1 * r.val = _; omega
  | ⟨1, _⟩ =>
    show win0_0.index t (1 : Fin 3) * 512 + 1 * l.val = l.val
    rw [e]; show 0 * 512 + 1 * l.val = _; omega
  | ⟨2, _⟩ =>
    show win0_0.index t (2 : Fin 3) * 128 + 1 * d.val = d.val
    rw [e]; show 0 * 128 + 1 * d.val = _; omega

theorem blk1 (c : Dev nD) (t : Fin cfg0.N) (r : Fin 8) (k : Fin 128) :
    iblk m c 1 t (ix2 r k) = (m ((c : Thread nD τ).loc main_arg1)) (ix2 (rowOf t r) k) := by
  show V m c main_arg1 (((cfg0.win 1).blk t).view.emb (ix2 r k)) = _
  rw [V_main_arg1]
  refine congrArg _ (funext fun a => Fin.ext ?_)
  have e := idx1 t
  match a with
  | ⟨0, _⟩ =>
    show win0_1.index t (0 : Fin 2) * 8 + 1 * r.val = t.val * 8 + r.val
    rw [e]; show t.val * 8 + 1 * r.val = _; omega
  | ⟨1, _⟩ =>
    show win0_1.index t (1 : Fin 2) * 128 + 1 * k.val = k.val
    rw [e]; show 0 * 128 + 1 * k.val = _; omega

theorem blk2 (c : Dev nD) (t : Fin cfg0.N) (r : Fin 8) (l : Fin 512) :
    iblk m c 2 t (ix2 r l) = FloatOps.uitofp (F := Ideal) .f32 ((m ((c : Thread nD τ).loc main_arg2)) (ix2 (rowOf t r) l)) := by
  show V m c main_v18 (((cfg0.win 2).blk t).view.emb (ix2 r l)) = _
  rw [V_maskF]
  show FloatOps.uitofp (F := Ideal) .f32 ((m ((c : Thread nD τ).loc main_arg2)) (((cfg0.win 2).blk t).view.emb (ix2 r l))) = _
  refine congrArg (fun i => FloatOps.uitofp (F := Ideal) .f32 ((m ((c : Thread nD τ).loc main_arg2)) i)) (funext fun a => Fin.ext ?_)
  have e := idx2 t
  match a with
  | ⟨0, _⟩ =>
    show win0_2.index t (0 : Fin 2) * 8 + 1 * r.val = t.val * 8 + r.val
    rw [e]; show t.val * 8 + 1 * r.val = _; omega
  | ⟨1, _⟩ =>
    show win0_2.index t (1 : Fin 2) * 512 + 1 * l.val = l.val
    rw [e]; show 0 * 512 + 1 * l.val = _; omega

theorem blk3 (c : Dev nD) (t : Fin cfg0.N) (y : S128x128.Idx) :
    iblk m c 3 t y = V m c main_arg3 y := by
  show V m c main_arg3 (((cfg0.win 3).blk t).view.emb y) = _
  refine congrArg _ (funext fun a => Fin.ext ?_)
  have e := idx3 t
  match a with
  | ⟨0, _⟩ =>
    show win0_3.index t (0 : Fin 2) * 128 + 1 * (y 0).val = (y 0).val
    rw [e]; show 0 * 128 + 1 * (y 0).val = _; omega
  | ⟨1, _⟩ =>
    show win0_3.index t (1 : Fin 2) * 128 + 1 * (y 1).val = (y 1).val
    rw [e]; show 0 * 128 + 1 * (y 1).val = _; omega

theorem blk4 (c : Dev nD) (t : Fin cfg0.N) (y : S1x128.Idx) :
    iblk m c 4 t y = V m c main_arg4 y := by
  show V m c main_arg4 (((cfg0.win 4).blk t).view.emb y) = _
  refine congrArg _ (funext fun a => Fin.ext ?_)
  have e := idx4 t
  match a with
  | ⟨0, _⟩ =>
    show win0_4.index t (0 : Fin 2) * 1 + 1 * (y 0).val = (y 0).val
    rw [e]; show 0 * 1 + 1 * (y 0).val = _; omega
  | ⟨1, _⟩ =>
    show win0_4.index t (1 : Fin 2) * 128 + 1 * (y 1).val = (y 1).val
    rw [e]; show 0 * 128 + 1 * (y 1).val = _; omega

theorem blk5 (c : Dev nD) (t : Fin cfg0.N) (y : S128x128.Idx) :
    iblk m c 5 t y = V m c main_v0 y := by
  show V m c main_v0 (((cfg0.win 5).blk t).view.emb y) = _
  refine congrArg _ (funext fun a => Fin.ext ?_)
  have e := idx5 t
  match a with
  | ⟨0, _⟩ =>
    show win0_5.index t (0 : Fin 2) * 128 + 1 * (y 0).val = (y 0).val
    rw [e]; show 0 * 128 + 1 * (y 0).val = _; omega
  | ⟨1, _⟩ =>
    show win0_5.index t (1 : Fin 2) * 128 + 1 * (y 1).val = (y 1).val
    rw [e]; show 0 * 128 + 1 * (y 1).val = _; omega

theorem blk6 (c : Dev nD) (t : Fin cfg0.N) (y : S128x128.Idx) :
    iblk m c 6 t y = V m c main_v1 y := by
  show V m c main_v1 (((cfg0.win 6).blk t).view.emb y) = _
  refine congrArg _ (funext fun a => Fin.ext ?_)
  have e := idx6 t
  match a with
  | ⟨0, _⟩ =>
    show win0_6.index t (0 : Fin 2) * 128 + 1 * (y 0).val = (y 0).val
    rw [e]; show 0 * 128 + 1 * (y 0).val = _; omega
  | ⟨1, _⟩ =>
    show win0_6.index t (1 : Fin 2) * 128 + 1 * (y 1).val = (y 1).val
    rw [e]; show 0 * 128 + 1 * (y 1).val = _; omega

theorem blk7 (c : Dev nD) (t : Fin cfg0.N) (y : S128x128.Idx) :
    iblk m c 7 t y = V m c main_v2 y := by
  show V m c main_v2 (((cfg0.win 7).blk t).view.emb y) = _
  refine congrArg _ (funext fun a => Fin.ext ?_)
  have e := idx7 t
  match a with
  | ⟨0, _⟩ =>
    show win0_7.index t (0 : Fin 2) * 128 + 1 * (y 0).val = (y 0).val
    rw [e]; show 0 * 128 + 1 * (y 0).val = _; omega
  | ⟨1, _⟩ =>
    show win0_7.index t (1 : Fin 2) * 128 + 1 * (y 1).val = (y 1).val
    rw [e]; show 0 * 128 + 1 * (y 1).val = _; omega

theorem blk8 (c : Dev nD) (t : Fin cfg0.N) (y : S128x128.Idx) :
    iblk m c 8 t y = V m c main_v3 y := by
  show V m c main_v3 (((cfg0.win 8).blk t).view.emb y) = _
  refine congrArg _ (funext fun a => Fin.ext ?_)
  have e := idx8 t
  match a with
  | ⟨0, _⟩ =>
    show win0_8.index t (0 : Fin 2) * 128 + 1 * (y 0).val = (y 0).val
    rw [e]; show 0 * 128 + 1 * (y 0).val = _; omega
  | ⟨1, _⟩ =>
    show win0_8.index t (1 : Fin 2) * 128 + 1 * (y 1).val = (y 1).val
    rw [e]; show 0 * 128 + 1 * (y 1).val = _; omega

theorem blk9 (c : Dev nD) (t : Fin cfg0.N) (y : S128x128.Idx) :
    iblk m c 9 t y = V m c main_v4 y := by
  show V m c main_v4 (((cfg0.win 9).blk t).view.emb y) = _
  refine congrArg _ (funext fun a => Fin.ext ?_)
  have e := idx9 t
  match a with
  | ⟨0, _⟩ =>
    show win0_9.index t (0 : Fin 2) * 128 + 1 * (y 0).val = (y 0).val
    rw [e]; show 0 * 128 + 1 * (y 0).val = _; omega
  | ⟨1, _⟩ =>
    show win0_9.index t (1 : Fin 2) * 128 + 1 * (y 1).val = (y 1).val
    rw [e]; show 0 * 128 + 1 * (y 1).val = _; omega

theorem blk10 (c : Dev nD) (t : Fin cfg0.N) (y : S128x128.Idx) :
    iblk m c 10 t y = V m c main_v5 y := by
  show V m c main_v5 (((cfg0.win 10).blk t).view.emb y) = _
  refine congrArg _ (funext fun a => Fin.ext ?_)
  have e := idx10 t
  match a with
  | ⟨0, _⟩ =>
    show win0_10.index t (0 : Fin 2) * 128 + 1 * (y 0).val = (y 0).val
    rw [e]; show 0 * 128 + 1 * (y 0).val = _; omega
  | ⟨1, _⟩ =>
    show win0_10.index t (1 : Fin 2) * 128 + 1 * (y 1).val = (y 1).val
    rw [e]; show 0 * 128 + 1 * (y 1).val = _; omega

theorem blk11 (c : Dev nD) (t : Fin cfg0.N) (y : S1x128.Idx) :
    iblk m c 11 t y = V m c main_v9 y := by
  show V m c main_v9 (((cfg0.win 11).blk t).view.emb y) = _
  refine congrArg _ (funext fun a => Fin.ext ?_)
  have e := idx11 t
  match a with
  | ⟨0, _⟩ =>
    show win0_11.index t (0 : Fin 2) * 1 + 1 * (y 0).val = (y 0).val
    rw [e]; show 0 * 1 + 1 * (y 0).val = _; omega
  | ⟨1, _⟩ =>
    show win0_11.index t (1 : Fin 2) * 128 + 1 * (y 1).val = (y 1).val
    rw [e]; show 0 * 128 + 1 * (y 1).val = _; omega

theorem blk12 (c : Dev nD) (t : Fin cfg0.N) (y : S1x128.Idx) :
    iblk m c 12 t y = V m c main_v13 y := by
  show V m c main_v13 (((cfg0.win 12).blk t).view.emb y) = _
  refine congrArg _ (funext fun a => Fin.ext ?_)
  have e := idx12 t
  match a with
  | ⟨0, _⟩ =>
    show win0_12.index t (0 : Fin 2) * 1 + 1 * (y 0).val = (y 0).val
    rw [e]; show 0 * 1 + 1 * (y 0).val = _; omega
  | ⟨1, _⟩ =>
    show win0_12.index t (1 : Fin 2) * 128 + 1 * (y 1).val = (y 1).val
    rw [e]; show 0 * 128 + 1 * (y 1).val = _; omega

theorem blk13 (c : Dev nD) (t : Fin cfg0.N) (y : S1x128.Idx) :
    iblk m c 13 t y = V m c main_v15 y := by
  show V m c main_v15 (((cfg0.win 13).blk t).view.emb y) = _
  refine congrArg _ (funext fun a => Fin.ext ?_)
  have e := idx13 t
  match a with
  | ⟨0, _⟩ =>
    show win0_13.index t (0 : Fin 2) * 1 + 1 * (y 0).val = (y 0).val
    rw [e]; show 0 * 1 + 1 * (y 0).val = _; omega
  | ⟨1, _⟩ =>
    show win0_13.index t (1 : Fin 2) * 128 + 1 * (y 1).val = (y 1).val
    rw [e]; show 0 * 128 + 1 * (y 1).val = _; omega

theorem blk14 (c : Dev nD) (t : Fin cfg0.N) (y : S1x128.Idx) :
    iblk m c 14 t y = V m c main_v17 y := by
  show V m c main_v17 (((cfg0.win 14).blk t).view.emb y) = _
  refine congrArg _ (funext fun a => Fin.ext ?_)
  have e := idx14 t
  match a with
  | ⟨0, _⟩ =>
    show win0_14.index t (0 : Fin 2) * 1 + 1 * (y 0).val = (y 0).val
    rw [e]; show 0 * 1 + 1 * (y 0).val = _; omega
  | ⟨1, _⟩ =>
    show win0_14.index t (1 : Fin 2) * 128 + 1 * (y 1).val = (y 1).val
    rw [e]; show 0 * 128 + 1 * (y 1).val = _; omega

/-! ## The gate matrices and bias rows as columns of the stacked arguments -/

/-- The two stacked bias vectors as arrays of extended reals. -/
abbrev biasI (c : Dev nD) : S384.Idx → EReal := (m ((c : Thread nD τ).loc main_arg7))
abbrev biasH (c : Dev nD) : S384.Idx → EReal := (m ((c : Thread nD τ).loc main_arg8))

theorem gate5 (c : Dev nD) (t : Fin cfg0.N) (k : Fin 128) (j : Fin 128) :
    iblk m c 5 t (ix2 k j) = (m ((c : Thread nD τ).loc main_arg5)) (ix2 k (colAt 0 (by decide) j)) := by
  rw [blk5, V_wir]
  exact slice2_axis1_apply 0 _ _ k j (colAt 0 (by decide) j) rfl

theorem gate6 (c : Dev nD) (t : Fin cfg0.N) (k : Fin 128) (j : Fin 128) :
    iblk m c 6 t (ix2 k j) = (m ((c : Thread nD τ).loc main_arg5)) (ix2 k (colAt 128 (by decide) j)) := by
  rw [blk6, V_wiz]
  exact slice2_axis1_apply 128 _ _ k j (colAt 128 (by decide) j) rfl

theorem gate7 (c : Dev nD) (t : Fin cfg0.N) (k : Fin 128) (j : Fin 128) :
    iblk m c 7 t (ix2 k j) = (m ((c : Thread nD τ).loc main_arg5)) (ix2 k (colAt 256 (by decide) j)) := by
  rw [blk7, V_win]
  exact slice2_axis1_apply 256 _ _ k j (colAt 256 (by decide) j) rfl

theorem gate8 (c : Dev nD) (t : Fin cfg0.N) (k : Fin 128) (j : Fin 128) :
    iblk m c 8 t (ix2 k j) = (m ((c : Thread nD τ).loc main_arg6)) (ix2 k (colAt 0 (by decide) j)) := by
  rw [blk8, V_whr]
  exact slice2_axis1_apply 0 _ _ k j (colAt 0 (by decide) j) rfl

theorem gate9 (c : Dev nD) (t : Fin cfg0.N) (k : Fin 128) (j : Fin 128) :
    iblk m c 9 t (ix2 k j) = (m ((c : Thread nD τ).loc main_arg6)) (ix2 k (colAt 128 (by decide) j)) := by
  rw [blk9, V_whz]
  exact slice2_axis1_apply 128 _ _ k j (colAt 128 (by decide) j) rfl

theorem gate10 (c : Dev nD) (t : Fin cfg0.N) (k : Fin 128) (j : Fin 128) :
    iblk m c 10 t (ix2 k j) = (m ((c : Thread nD τ).loc main_arg6)) (ix2 k (colAt 256 (by decide) j)) := by
  rw [blk10, V_whn]
  exact slice2_axis1_apply 256 _ _ k j (colAt 256 (by decide) j) rfl

theorem bias11 (c : Dev nD) (t : Fin cfg0.N) (j : Fin 128) :
    iblk m c 11 t (ix2 (0 : Fin 1) j) = biasI m c (ix1 (colAt 0 (by decide) j)) + biasH m c (ix1 (colAt 0 (by decide) j)) := by
  rw [blk11, V_br, shapeCast_a_1a_apply, addf_apply, vec_slice_apply 0 (by decide), vec_slice_apply 0 (by decide)]

theorem bias12 (c : Dev nD) (t : Fin cfg0.N) (j : Fin 128) :
    iblk m c 12 t (ix2 (0 : Fin 1) j) = biasI m c (ix1 (colAt 128 (by decide) j)) + biasH m c (ix1 (colAt 128 (by decide) j)) := by
  rw [blk12, V_bz, shapeCast_a_1a_apply, addf_apply, vec_slice_apply 128 (by decide), vec_slice_apply 128 (by decide)]

theorem bias13 (c : Dev nD) (t : Fin cfg0.N) (j : Fin 128) :
    iblk m c 13 t (ix2 (0 : Fin 1) j) = (m ((c : Thread nD τ).loc main_arg7)) (ix1 (colAt 256 (by decide) j)) := by
  rw [blk13, V_bin, shapeCast_a_1a_apply, vec_slice_apply 256 (by decide)]

theorem bias14 (c : Dev nD) (t : Fin cfg0.N) (j : Fin 128) :
    iblk m c 14 t (ix2 (0 : Fin 1) j) = (m ((c : Thread nD τ).loc main_arg8)) (ix1 (colAt 256 (by decide) j)) := by
  rw [blk14, V_bhn, shapeCast_a_1a_apply, vec_slice_apply 256 (by decide)]

theorem emb15 (t : Fin cfg0.N) (r : Fin 8) (l : Fin 512) : ((cfg0.win 15).blk t).view.emb (ix2 r l) = ix2 (rowOf t r) l := by
  funext a
  apply Fin.ext
  have e := idx15 t
  match a with
  | ⟨0, _⟩ =>
    show win0_15.index t (0 : Fin 2) * 8 + 1 * r.val = t.val * 8 + r.val
    rw [e]; show t.val * 8 + 1 * r.val = _; omega
  | ⟨1, _⟩ =>
    show win0_15.index t (1 : Fin 2) * 512 + 1 * l.val = l.val
    rw [e]; show 0 * 512 + 1 * l.val = _; omega

theorem emb16 (t : Fin cfg0.N) (r : Fin 8) (j : Fin 128) : ((cfg0.win 16).blk t).view.emb (ix2 r j) = ix2 (rowOf t r) j := by
  funext a
  apply Fin.ext
  have e := idx16 t
  match a with
  | ⟨0, _⟩ =>
    show win0_16.index t (0 : Fin 2) * 8 + 1 * r.val = t.val * 8 + r.val
    rw [e]; show t.val * 8 + 1 * r.val = _; omega
  | ⟨1, _⟩ =>
    show win0_16.index t (1 : Fin 2) * 128 + 1 * j.val = j.val
    rw [e]; show 0 * 128 + 1 * j.val = _; omega

/-! ## Row r of point t's score block is row 8·t + r of the scores -/

theorem scores_row (c : Dev nD) (t : Fin cfg0.N) (r : Fin 8) :
    (fun l => k0_pay2 (iblk m c 0 t) (iblk m c 1 t) (iblk m c 2 t) (iblk m c 3 t) (iblk m c 4 t) (ix2 r l)) = rowScores (m ((c : Thread nD τ).loc main_arg0)) (m ((c : Thread nD τ).loc main_arg1)) (m ((c : Thread nD τ).loc main_arg2)) (m ((c : Thread nD τ).loc main_arg3)) (m ((c : Thread nD τ).loc main_arg4)) (rowOf t r) := by
  funext l
  refine (Rows.score_apply (iblk m c 0 t) (iblk m c 1 t) (iblk m c 2 t) (iblk m c 3 t) (iblk m c 4 t) r l).trans ?_
  unfold rowScores
  refine score_congr (funext fun l => funext fun d => blk0 m c t r l d)
    (proj_congr (funext fun k => blk1 m c t r k) (funext fun k => funext fun d => ?_) (funext fun d => ?_))
    (funext fun l => ?_) l
  · rw [blk3, V_main_arg3]
  · rw [blk4, V_main_arg4]
  · rw [blk2, gt_zero_of_float]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each point writes back -/

theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 15).cut (grid0.coords t) ((dats m 0 c).after 15 t) = _
  rw [after0_15]

theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 16).cut (grid0.coords t) ((dats m 0 c).after 16 t) = _
  rw [after0_16]

/-- Point t writes back block t of the masked scores. -/
theorem flushed15_eq (c : Dev nD) (t : Fin cfg0.N) :
    (dats m 0 c).flushed 15 t = ((cfg0.win 15).blk t).view.read (Elt Ideal) (scoresOf (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed15]
  unfold out0_15
  rw [View.canon_unit_zero hz2]
  simp only [View.ld_unit_zero (S := S8x512x128) hz3, View.ld_unit_zero (S := S8x128) hz2,
    View.ld_unit_zero (S := S128x128) hz2, View.ld_unit_zero (S := S1x128) hz2, View.ld_unit_zero (S := S8x512) hz2]
  funext y
  obtain ⟨r, l, rfl⟩ : ∃ (r : Fin 8) (l : Fin 512), y = ix2 r l := ⟨y 0, y 1, eq_ix2 y⟩
  show k0_pay2 (iblk m c 0 t) (iblk m c 1 t) (iblk m c 2 t) (iblk m c 3 t) (iblk m c 4 t) (ix2 r l) = scoresOf (m ((c : Thread nD τ).loc main_arg0)) (m ((c : Thread nD τ).loc main_arg1)) (m ((c : Thread nD τ).loc main_arg2)) (m ((c : Thread nD τ).loc main_arg3)) (m ((c : Thread nD τ).loc main_arg4)) (((cfg0.win 15).blk t).view.emb (ix2 r l))
  rw [emb15]
  exact congrFun (scores_row m c t r) l

/-- Point t writes back block t of the new state (quotient spelling). -/
theorem flushed16_eq (c : Dev nD) (t : Fin cfg0.N) :
    (dats m 0 c).flushed 16 t = ((cfg0.win 16).blk t).view.read (Elt Ideal) (stateDiv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [flushed16]
  unfold out0_16
  rw [View.canon_unit_zero hz2]
  simp only [View.ld_unit_zero (S := S8x512x128) hz3, View.ld_unit_zero (S := S8x128) hz2,
    View.ld_unit_zero (S := S128x128) hz2, View.ld_unit_zero (S := S1x128) hz2, View.ld_unit_zero (S := S8x512) hz2]
  funext y
  obtain ⟨r, j, rfl⟩ : ∃ (r : Fin 8) (j : Fin 128), y = ix2 r j := ⟨y 0, y 1, eq_ix2 y⟩
  show k0_pay1 (iblk m c 1 t) (k0_pay5 (iblk m c 1 t) (k0_pay3 (iblk m c 0 t) (iblk m c 1 t) (iblk m c 2 t) (iblk m c 3 t) (iblk m c 4 t)) (iblk m c 6 t) (iblk m c 9 t) (iblk m c 12 t))
      (k0_pay6 (iblk m c 1 t) (k0_pay3 (iblk m c 0 t) (iblk m c 1 t) (iblk m c 2 t) (iblk m c 3 t) (iblk m c 4 t)) (k0_pay4 (iblk m c 0 t) (iblk m c 1 t) (iblk m c 2 t) (iblk m c 3 t) (iblk m c 4 t) (iblk m c 5 t)) (iblk m c 8 t) (iblk m c 11 t)
        (iblk m c 7 t) (iblk m c 13 t) (iblk m c 10 t) (iblk m c 14 t)) (ix2 r j)
      = stateDiv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 16).blk t).view.emb (ix2 r j))
  rw [emb16]
  refine (Rows.gru_apply (iblk m c 1 t) (k0_pay3 (iblk m c 0 t) (iblk m c 1 t) (iblk m c 2 t) (iblk m c 3 t) (iblk m c 4 t)) (iblk m c 5 t) (iblk m c 6 t) (iblk m c 7 t) (iblk m c 8 t)
    (iblk m c 9 t) (iblk m c 10 t) (iblk m c 11 t) (iblk m c 12 t) (iblk m c 13 t) (iblk m c 14 t) r j).trans ?_
  show _ = stateDivRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t r) j
  unfold stateDivRow
  rw [gruJoint_eq_gruBlocks]
  refine gruBlocks_congr (funext fun k => ?_) (funext fun k => blk1 m c t r k) (funext fun k => blk1 m c t r k)
    (funext fun k => funext fun q => gate5 m c t k q) (funext fun k => funext fun q => gate6 m c t k q)
    (funext fun k => funext fun q => gate7 m c t k q) (funext fun k => funext fun q => gate8 m c t k q)
    (funext fun k => funext fun q => gate9 m c t k q) (funext fun k => funext fun q => gate10 m c t k q)
    (funext fun q => bias11 m c t q) (funext fun q => bias12 m c t q) (funext fun q => bias13 m c t q)
    (funext fun q => bias14 m c t q) j
  rw [Rows.pooled_apply, scores_row m c t r]
  unfold AttnSpec.pool
  exact Finset.sum_congr rfl fun l _ => congrArg (_ * ·) (blk0 m c t r l k)

/-! ## The 32 points' blocks tile the results -/

theorem mem_blk15 (t : Fin cfg0.N) (i : S256x512.Idx) :
    i ∈ ((cfg0.win 15).blk t).view.set ↔ ∀ a : Fin 2, win0_15.index t a * S8x512.size a ≤ (i a).val ∧ (i a).val < win0_15.index t a * S8x512.size a + S8x512.size a := by
  show i ∈ ((View.whole main_v19_0).slice (win0_15.rect t)).set ↔ _
  rw [View.set_slice_whole, Rect.mem_set_unit]
  exact Iff.rfl

theorem mem_blk16 (t : Fin cfg0.N) (i : S256x128.Idx) :
    i ∈ ((cfg0.win 16).blk t).view.set ↔ ∀ a : Fin 2, win0_16.index t a * S8x128.size a ≤ (i a).val ∧ (i a).val < win0_16.index t a * S8x128.size a + S8x128.size a := by
  show i ∈ ((View.whole main_v19_1).slice (win0_16.rect t)).set ↔ _
  rw [View.set_slice_whole, Rect.mem_set_unit]
  exact Iff.rfl

theorem cover15 (i : S256x512.Idx) : ∃ t : Fin cfg0.N, (cfg0.win 15).flush t = true ∧ i ∈ ((cfg0.win 15).blk t).view.set := by
  have hi0 : (i 0).val < 256 := (i 0).isLt
  have hi1 : (i 1).val < 512 := (i 1).isLt
  have hN : cfg0.N = 32 := N_0
  refine ⟨⟨(i 0).val / 8, by omega⟩, flush0_15 _, ?_⟩
  rw [mem_blk15]
  intro a
  have e := idx15 ⟨(i 0).val / 8, by omega⟩
  match a with
  | ⟨0, _⟩ =>
    show win0_15.index _ (0 : Fin 2) * 8 ≤ (i 0).val ∧ (i 0).val < win0_15.index _ (0 : Fin 2) * 8 + 8
    rw [e]; show (i 0).val / 8 * 8 ≤ (i 0).val ∧ (i 0).val < (i 0).val / 8 * 8 + 8; omega
  | ⟨1, _⟩ =>
    show win0_15.index _ (1 : Fin 2) * 512 ≤ (i 1).val ∧ (i 1).val < win0_15.index _ (1 : Fin 2) * 512 + 512
    rw [e]; show 0 * 512 ≤ (i 1).val ∧ (i 1).val < 0 * 512 + 512; omega

theorem cover16 (i : S256x128.Idx) : ∃ t : Fin cfg0.N, (cfg0.win 16).flush t = true ∧ i ∈ ((cfg0.win 16).blk t).view.set := by
  have hi0 : (i 0).val < 256 := (i 0).isLt
  have hi1 : (i 1).val < 128 := (i 1).isLt
  have hN : cfg0.N = 32 := N_0
  refine ⟨⟨(i 0).val / 8, by omega⟩, flush0_16 _, ?_⟩
  rw [mem_blk16]
  intro a
  have e := idx16 ⟨(i 0).val / 8, by omega⟩
  match a with
  | ⟨0, _⟩ =>
    show win0_16.index _ (0 : Fin 2) * 8 ≤ (i 0).val ∧ (i 0).val < win0_16.index _ (0 : Fin 2) * 8 + 8
    rw [e]; show (i 0).val / 8 * 8 ≤ (i 0).val ∧ (i 0).val < (i 0).val / 8 * 8 + 8; omega
  | ⟨1, _⟩ =>
    show win0_16.index _ (1 : Fin 2) * 128 ≤ (i 1).val ∧ (i 1).val < win0_16.index _ (1 : Fin 2) * 128 + 128
    rw [e]; show 0 * 128 ≤ (i 1).val ∧ (i 1).val < 0 * 128 + 128; omega

/-! ## The run, read -/

/-- Every weakly fair execution of the reference ends with the first result at the masked scores and the second at the
    new state (quotient spelling) of the argument arrays, which are unchanged. -/
theorem run : θ_run defs (onTc (τ := τ) (main (F := Ideal))) ⟨m, fun _ => 0, ρ⟩ fun r => ∀ c : Dev nD,
      r.2.mem ((c : Thread nD τ).loc main_v19_0) = scoresOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v19_1) = stateDiv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨((h c).1 15).trans ((dats m 0 c).arrAt_eq_of_cover 15 _ (fun t _ => flushed15_eq m c t) cover15),
     ((h c).1 16).trans ((dats m 0 c).arrAt_eq_of_cover 16 _ (fun t _ => flushed16_eq m c t) cover16),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c)⟩)
    (run_main m ρ)

end Cert.ReferenceIdeal.Final

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.LibReduceAny.lean ====
/-
  A printed predicate's `jnp.any`, read back. `jnp.any(p, axis)` prints as a one-operand `stablehlo.reduce` of the
  `i1` array `p` by `or` from the constant 0; when the result at `j` is 1, some operand index that reduces into `j`
  holds a 1.
-/
import Idealize.ShloMosaic.Lib.Affine
import Idealize.ShloMosaic.PureOps.Reduce

namespace Cert.LibReduceAny

open Idealize.ShloMosaic

/-- A left fold by `or` over `i1` words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A `stablehlo.reduce` by `or` from 0 that is 1 at `j` met a 1 at some operand index that reduces into `j`. -/
theorem reduce_ori_eq_one {s t u : Shape} {axes : List (Fin s.rank)} (x : s.Idx → BitVec 1) (init : u.Idx → BitVec 1)
    (h : s.ReducesTo axes t) (hu : 0 < u.numel) (hinit : ∀ k, init k = 0#1) (j : t.Idx)
    (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · rw [hinit] at h1
    exact absurd h1 (by decide)
  · rw [List.mem_filter] at hi
    exact ⟨i, by simpa using hi.2, hx⟩

end Cert.LibReduceAny
-- ==== Proof.PreFacts.lean ====
/-
  What the precondition says of the argument arrays. The printed predicate is the conjunction of "every entry of x, y,
  W_lin, b_lin, W_ih, W_hh, b_ih, b_hh is finite" and "every row of the padding mask has a position that is not
  padding" (the negated mask, reduced by `or` along each row, then by `and` over the rows). From it: the four arrays
  the scores are computed from hold real numbers, and every row has an unpadded position.
-/
import proofs.«178400_g2000600068933849_pallasbulk_201_25_alg».proof.Pre_finite_inputs
import proofs.«178400_g2000600068933849_pallasbulk_201_25_alg».proof.Proof.LibFiniteInputs
import proofs.«178400_g2000600068933849_pallasbulk_201_25_alg».proof.Proof.LibReduceAny
import Idealize.ShloMosaic.Lib.ReduceAll
import Idealize.ShloMosaic.Lib.ValueIdx

noncomputable section

namespace Cert.PreFacts

open Idealize.ShloMosaic Idealize.ShloMosaic.ValueIdx Cert.Pre_finite_inputs Cert.Pre_finite_inputs.Facts

variable [Cert.Pre_finite_inputs.Facts]

/-- The precondition, all ones, read back. -/
theorem decode (x : FVec Ideal S256x512x128 .f32) (y : FVec Ideal S256x128 .f32) (pad : IVec S256x512 1)
    (wl : FVec Ideal S128x128 .f32) (bl : FVec Ideal S1x128 .f32) (wi wh : FVec Ideal S128x384 .f32)
    (bi bh : FVec Ideal S384 .f32)
    (h : fn (F := Ideal) x y pad wl bl wi wh bi bh = fun _ => 1#1) :
    (∀ i, ∃ r : ℝ, (x i : EReal) = (r : EReal)) ∧ (∀ i, ∃ r : ℝ, (y i : EReal) = (r : EReal))
      ∧ (∀ i, ∃ r : ℝ, (wl i : EReal) = (r : EReal)) ∧ (∀ i, ∃ r : ℝ, (bl i : EReal) = (r : EReal))
      ∧ (∀ b : Fin 256, ∃ l : Fin 512, pad (ix2 b l) ≠ 1#1) := by
  have h0 := congrFun h ValueIdx.ix0
  have a42 : IntOp.andi _ _ = 1#1 := h0
  obtain ⟨a38, hmask⟩ := IntOp.andi_eq_one.mp a42
  have a38' : IntOp.andi _ _ = 1#1 := a38
  obtain ⟨a33, _⟩ := IntOp.andi_eq_one.mp a38'
  have a33' : IntOp.andi _ _ = 1#1 := a33
  obtain ⟨a28, _⟩ := IntOp.andi_eq_one.mp a33'
  have a28' : IntOp.andi _ _ = 1#1 := a28
  obtain ⟨a23, _⟩ := IntOp.andi_eq_one.mp a28'
  have a23' : IntOp.andi _ _ = 1#1 := a23
  obtain ⟨a18, _⟩ := IntOp.andi_eq_one.mp a23'
  have a18' : IntOp.andi _ _ = 1#1 := a18
  obtain ⟨a13, hbl⟩ := IntOp.andi_eq_one.mp a18'
  have a13' : IntOp.andi _ _ = 1#1 := a13
  obtain ⟨a8, hwl⟩ := IntOp.andi_eq_one.mp a13'
  have a8' : IntOp.andi _ _ = 1#1 := a8
  obtain ⟨hx, hy⟩ := IntOp.andi_eq_one.mp a8'
  refine ⟨Cert.LibFiniteInputs.all_real x _ _ _ hx, Cert.LibFiniteInputs.all_real y _ _ _ hy,
    Cert.LibFiniteInputs.all_real wl _ _ _ hwl, Cert.LibFiniteInputs.all_real bl _ _ _ hbl, fun b => ?_⟩
  have hb := Host.reduce_andi_all _ _ _ _ ValueIdx.ix0 hmask (ix1 b)
  obtain ⟨i, hi, hxi⟩ := Cert.LibReduceAny.reduce_ori_eq_one _ _ _ _ (fun _ => rfl) (ix1 b) hb
  have hi0 : (i 0).val = b.val := by
    have e := congrArg (fun f => (f 0 : Nat)) hi
    exact (Shape.ReducesTo.drop_apply_val_of_eq _ i 0 0).symm.trans e
  refine ⟨i 1, fun hp => ?_⟩
  have hii : i = ix2 b (i 1) := by
    funext a
    match a with
    | ⟨0, _⟩ => exact Fin.ext hi0
    | ⟨1, _⟩ => rfl
  rw [hii] at hxi
  have hn : ~~~(pad (ix2 b (i 1))) = 1#1 := hxi
  rw [hp] at hn
  exact absurd hn (by decide)

end Cert.PreFacts

end
-- ==== Proof.lean ====
/-
  A fused bilinear sequence attention + GRU cell, one kernel over batch tiles of 64 rows, against a reference kernel
  over tiles of 8 rows. For a batch row with documents x(l, ·), question y and padding bits pad(l):

    q = y · W_lin + b_lin,   s(l) = -∞ where pad(l), else Σ_d x(l, d) · q(d)         (first result: the masked scores)
    e(l) = exp(s(l) − max s),  Z = Σ_l e(l),  α(l) = e(l) / Z,   p(d) = Σ_l α(l) · x(l, d)
    r, z, n = the GRU gates of (p, y);   second result: n + z · (y − n).

  The kernel multiplies x by q through a [64, 64, 8, 128] view, spells α as e · (1 / Z), pools each of its 64 rows by a
  1 × 512 times 512 × 128 product, and adds each projection's bias before the gates combine them; the reference spells
  α as e / Z, pools by a sum over positions, receives the gate weights cut into column blocks and the reset and update
  biases already summed. Over the extended reals these are the same numbers by commutativity and associativity of +
  and ·, with one exception: e · (1 / Z) and e / Z differ at Z = 0 (0 · (1/0) = 0 but 0 / 0 = -∞), which happens
  exactly on a row whose every position is padding. The precondition therefore asks, besides finite inputs, that every
  row have a position that is not padding; then the greatest score of a row is a real number, its term of Z is
  exp 0 = 1, and Z ≠ 0.

  The three frames are the generated ones; nothing was rewritten between the kernel and its idealization.
-/
import proofs.«178400_g2000600068933849_pallasbulk_201_25_alg».proof.Defs
import proofs.«178400_g2000600068933849_pallasbulk_201_25_alg».proof.Proof.Gen.Kernel
import proofs.«178400_g2000600068933849_pallasbulk_201_25_alg».proof.Proof.Gen.Kernel.Skeleton
import proofs.«178400_g2000600068933849_pallasbulk_201_25_alg».proof.Proof.Gen.Kernel.Launch
import proofs.«178400_g2000600068933849_pallasbulk_201_25_alg».proof.Proof.Gen.Kernel.Points
import proofs.«178400_g2000600068933849_pallasbulk_201_25_alg».proof.Proof.Gen.Kernel.Frame
import proofs.«178400_g2000600068933849_pallasbulk_201_25_alg».proof.Proof.Gen.KernelIdeal
import proofs.«178400_g2000600068933849_pallasbulk_201_25_alg».proof.Proof.Gen.KernelIdeal.Skeleton
import proofs.«178400_g2000600068933849_pallasbulk_201_25_alg».proof.Proof.Gen.KernelIdeal.Launch
import proofs.«178400_g2000600068933849_pallasbulk_201_25_alg».proof.Proof.Gen.KernelIdeal.Points
import proofs.«178400_g2000600068933849_pallasbulk_201_25_alg».proof.Proof.Gen.KernelIdeal.Frame
import proofs.«178400_g2000600068933849_pallasbulk_201_25_alg».proof.Proof.Gen.ReferenceIdeal
import proofs.«178400_g2000600068933849_pallasbulk_201_25_alg».proof.Proof.Gen.ReferenceIdeal.Skeleton
import proofs.«178400_g2000600068933849_pallasbulk_201_25_alg».proof.Proof.Gen.ReferenceIdeal.Launch
import proofs.«178400_g2000600068933849_pallasbulk_201_25_alg».proof.Proof.Gen.ReferenceIdeal.Points
import proofs.«178400_g2000600068933849_pallasbulk_201_25_alg».proof.Proof.Gen.ReferenceIdeal.Frame
import proofs.«178400_g2000600068933849_pallasbulk_201_25_alg».proof.Proof.Gen.Pre_finite_inputs
import proofs.«178400_g2000600068933849_pallasbulk_201_25_alg».proof.Proof.Gen.KernelIdeal.Value
import proofs.«178400_g2000600068933849_pallasbulk_201_25_alg».proof.Proof.KernelFinal
import proofs.«178400_g2000600068933849_pallasbulk_201_25_alg».proof.Proof.RefFinal
import proofs.«178400_g2000600068933849_pallasbulk_201_25_alg».proof.Proof.PreFacts
import Idealize.ShloMosaic.Adequacy
import Idealize.ShloMosaic.Init

noncomputable section

namespace Cert.Proof

open Idealize.ShloMosaic Idealize.SL.Sem Cert.AttnArrays

/-- Both idealized programs end with the masked scores and the GRU cell's new state of the same argument arrays: the
    kernel's new state in the product spelling, which on rows with an unpadded position and over real inputs is the
    quotient spelling the reference ends with. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => scoresOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => stateDiv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Final.run m ρ)
    obtain ⟨h0, h1, hrest⟩ := h c
    obtain ⟨hx, hy, hw, hb, hrow⟩ := Cert.PreFacts.decode _ _ _ _ _ _ _ _ _ (hpre c)
    exact ⟨h0, h1.trans (stateMul_eq_stateDiv _ _ _ _ _ _ _ _ _ hx hy hw hb hrow), hrest⟩
  · refine (θ_run Cert.ReferenceIdeal.defs _ _).mono (fun r h c => ?_) (Cert.ReferenceIdeal.Final.run m' ρ')
    obtain ⟨h0, h1, hrest⟩ := h c
    obtain ⟨e0, e1, e2, e3, e4, e5, e6, e7, e8⟩ := hagree c
    refine ⟨?_, ?_, hrest⟩
    · rw [h0, e0, e1, e2, e3, e4]
    · rw [h1, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
